-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000x3x128 : Shape := ⟨3, ![200000, 3, 128]⟩
abbrev S256 : Shape := ⟨1, ![256]⟩
abbrev S200000 : Shape := ⟨1, ![200000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S200000x3x128 : S_.BroadcastsInDim S200000x3x128 (![] : Fin 0 → Fin S200000x3x128.rank)
  reducesTo_S200000x3x128_S_d0_1_2 : S200000x3x128.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S200000x256 .f32) (main_arg1 : FVec F S200000x3x128 .f32) (main_arg2 : FVec F S256 .f32) (main_arg3 : FVec F S256 .f32) (main_arg4 : IVec S200000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x3x128 .f32 := Host.absf main_arg1
  let main_cst_0 : FVec F S_ .f32 := constant S_ .f32 0x7F800000#32
  let main_v5 : FVec F S200000x3x128 .f32 := broadcastInDim S200000x3x128 ![] bcast_S_S200000x3x128 main_cst_0
  let main_v6 : IVec S200000x3x128 1 := cmpf .olt main_v4 main_v5
  let main_c_1 : IVec S_ 1 := constantI S_ 1 1#1
  let main_v7 : IVec S_ 1 := (fun x v => Host.reduce IntOp.andi x v reducesTo_S200000x3x128_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S200000x256 : Shape := ⟨2, ![200000, 256]⟩
abbrev S200000x3x128 : Shape := ⟨3, ![200000, 3, 128]⟩
abbrev S256 : Shape := ⟨1, ![256]⟩
abbrev S200000 : Shape := ⟨1, ![200000]⟩
abbrev S200000x1 : Shape := ⟨2, ![200000, 1]⟩
abbrev S4000x256 : Shape := ⟨2, ![4000, 256]⟩
abbrev S4000x1 : Shape := ⟨2, ![4000, 1]⟩
abbrev S4000 : Shape := ⟨1, ![4000]⟩
abbrev S200000x1x1 : Shape := ⟨3, ![200000, 1, 1]⟩
abbrev S1000x3x128 : Shape := ⟨3, ![1000, 3, 128]⟩
abbrev S1000x1x1 : Shape := ⟨3, ![1000, 1, 1]⟩
abbrev S1000x128 : Shape := ⟨2, ![1000, 128]⟩
abbrev S1000x1x128 : Shape := ⟨3, ![1000, 1, 128]⟩
abbrev S1000x1 : Shape := ⟨2, ![1000, 1]⟩
abbrev S_ : Shape := ⟨0, ![]⟩
abbrev S2048 : Shape := ⟨1, ![2048]⟩
abbrev S1x256 : Shape := ⟨2, ![1, 256]⟩

abbrev nBuf : Space → Nat
  | .hbm => 77
  | .vmem => 26
  | .smem => 0
  | _ => 0

abbrev bufTy : (tb : Table) → Fin (tcTables nBuf tb) → BufTy
  | .hbm, ⟨0, _⟩ => ⟨S200000x256, .f32⟩
  | .hbm, ⟨1, _⟩ => ⟨S200000x3x128, .f32⟩
  | .hbm, ⟨2, _⟩ => ⟨S256, .f32⟩
  | .hbm, ⟨3, _⟩ => ⟨S256, .f32⟩
  | .hbm, ⟨4, _⟩ => ⟨S200000, .i32⟩
  | .hbm, ⟨5, _⟩ => ⟨S200000x1, .f32⟩
  | .hbm, ⟨6, _⟩ => ⟨S200000x1, .f32⟩
  | .hbm, ⟨7, _⟩ => ⟨S200000x1x1, .f32⟩
  | .hbm, ⟨8, _⟩ => ⟨S_, .f32⟩
  | .hbm, ⟨9, _⟩ => ⟨S200000, .f32⟩
  | .hbm, ⟨10, _⟩ => ⟨S_, .f32⟩
  | .hbm, ⟨11, _⟩ => ⟨S2048, .f32⟩
  | .hbm, ⟨12, _⟩ => ⟨S200000x1, .i32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S200000, .f32⟩
  | .hbm, ⟨18, _⟩ => ⟨S200000, .f32⟩
  | .hbm, ⟨19, _⟩ => ⟨S_, .f32⟩
  | .hbm, ⟨20, _⟩ => ⟨S2048, .f32⟩
  | .hbm, ⟨21, _⟩ => ⟨S200000x1, .i32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S200000x1, .i32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S200000, .f32⟩
  | .hbm, ⟨35, _⟩ => ⟨S_, .f32⟩
  | .hbm, ⟨36, _⟩ => ⟨S2048, .f32⟩
  | .hbm, ⟨37, _⟩ => ⟨S200000x1, .i32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S_, .i32⟩
  | .hbm, ⟨44, _⟩ => ⟨S200000, .i32⟩
  | .hbm, ⟨45, _⟩ => ⟨S200000, .i1⟩
  | .hbm, ⟨46, _⟩ => ⟨S_, .i32⟩
  | .hbm, ⟨47, _⟩ => ⟨S200000, .i32⟩
  | .hbm, ⟨48, _⟩ => ⟨S200000, .i32⟩
  | .hbm, ⟨49, _⟩ => ⟨S200000, .i32⟩
  | .hbm, ⟨50, _⟩ => ⟨S200000x1, .i32⟩
  | .hbm, ⟨51, _⟩ => ⟨S200000, .f32⟩
  | .hbm, ⟨52, _⟩ => ⟨S200000x1, .f32⟩
  | .hbm, ⟨53, _⟩ => ⟨S_, .i32⟩
  | .hbm, ⟨54, _⟩ => ⟨S200000, .i32⟩
  | .hbm, ⟨55, _⟩ => ⟨S200000, .i1⟩
  | .hbm, ⟨56, _⟩ => ⟨S_, .i32⟩
  | .hbm, ⟨57, _⟩ => ⟨S200000, .i32⟩
  | .hbm, ⟨58, _⟩ => ⟨S200000, .i32⟩
  | .hbm, ⟨59, _⟩ => ⟨S200000, .i32⟩
  | .hbm, ⟨60, _⟩ => ⟨S200000x1, .i32⟩
  | .hbm, ⟨61, _⟩ => ⟨S200000, .f32⟩
  | .hbm, ⟨62, _⟩ => ⟨S200000x1, .f32⟩
  | .hbm, ⟨63, _⟩ => ⟨S_, .i32⟩
  | .hbm, ⟨64, _⟩ => ⟨S200000, .i32⟩
  | .hbm, ⟨65, _⟩ => ⟨S200000, .i1⟩
  | .hbm, ⟨66, _⟩ => ⟨S_, .i32⟩
  | .hbm, ⟨67, _⟩ => ⟨S200000, .i32⟩
  | .hbm, ⟨68, _⟩ => ⟨S200000, .i32⟩
  | .hbm, ⟨69, _⟩ => ⟨S200000, .i32⟩
  | .hbm, ⟨70, _⟩ => ⟨S200000x1, .i32⟩
  | .hbm, ⟨71, _⟩ => ⟨S200000, .f32⟩
  | .hbm, ⟨72, _⟩ => ⟨S200000x1x1, .f32⟩
  | .hbm, ⟨73, _⟩ => ⟨S1x256, .f32⟩
  | .hbm, ⟨74, _⟩ => ⟨S1x256, .f32⟩
  | .hbm, ⟨75, _⟩ => ⟨S200000x256, .f32⟩
  | .hbm, ⟨76, _⟩ => ⟨S200000x3x128, .f32⟩
  | .local _ .vmem, ⟨0, _⟩ => ⟨S4000x256, .f32⟩
  | .local _ .vmem, ⟨1, _⟩ => ⟨S4000x256, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S1000x3x128, .f32⟩
  | .local _ .vmem, ⟨7, _⟩ => ⟨S1000x3x128, .f32⟩
  | .local _ .vmem, ⟨8, _⟩ => ⟨S1000x1x1, .f32⟩
  | .local _ .vmem, ⟨9, _⟩ => ⟨S1000x1x1, .f32⟩
  | .local _ .vmem, ⟨10, _⟩ => ⟨S4000x256, .f32⟩
  | .local _ .vmem, ⟨11, _⟩ => ⟨S4000x256, .f32⟩
  | .local _ .vmem, ⟨12, _⟩ => ⟨S4000x1, .f32⟩
  | .local _ .vmem, ⟨13, _⟩ => ⟨S4000x1, .f32⟩
  | .local _ .vmem, ⟨14, _⟩ => ⟨S4000x1, .f32⟩
  | .local _ .vmem, ⟨15, _⟩ => ⟨S4000x1, .f32⟩
  | .local _ .vmem, ⟨16, _⟩ => ⟨S1x256, .f32⟩
  | .local _ .vmem, ⟨17, _⟩ => ⟨S1x256, .f32⟩
  | .local _ .vmem, ⟨18, _⟩ => ⟨S4000x256, .f32⟩
  | .local _ .vmem, ⟨19, _⟩ => ⟨S4000x256, .f32⟩
  | .local _ .vmem, ⟨20, _⟩ => ⟨S1000x3x128, .f32⟩
  | .local _ .vmem, ⟨21, _⟩ => ⟨S1000x3x128, .f32⟩
  | .local _ .vmem, ⟨22, _⟩ => ⟨S1000x1x1, .f32⟩
  | .local _ .vmem, ⟨23, _⟩ => ⟨S1000x1x1, .f32⟩
  | .local _ .vmem, ⟨24, _⟩ => ⟨S1000x3x128, .f32⟩
  | .local _ .vmem, ⟨25, _⟩ => ⟨S1000x3x128, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x3x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![200], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1000x3x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x3x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S4000x256_S4000x256_0_0 : ∀ a, (![0, 0] : Fin 2 → Nat) a + S4000x256.size a ≤ S4000x256.size a
  h_S4000x256 : 0 < S4000x256.numel
  reduces_S4000x256_S4000 : S4000x256.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  inb_S1000x3x128_S1000x3x128_0_0_0 : ∀ a, (![0, 0, 0] : Fin 3 → Nat) a + S1000x3x128.size a ≤ S1000x3x128.size a
  h_S1000x3x128 : 0 < S1000x3x128.numel
  reduces_S1000x3x128_S1000x128 : S1000x3x128.Reduces [1] S1000x128
  shapeCasts_S1000x128_S1000x1x128 : S1000x128.ShapeCasts S1000x1x128
  reduces_S1000x1x128_S1000x1 : S1000x1x128.Reduces [2] S1000x1
  shapeCasts_S1000x1_S1000x1x1 : S1000x1.ShapeCasts S1000x1x1
  inb_S1000x1x1_S1000x1x1_0_0_0 : ∀ a, (![0, 0, 0] : Fin 3 → Nat) a + S1000x1x1.size a ≤ S1000x1x1.size a
  h_S1000x1x1 : 0 < S1000x1x1.numel
  bcast_S_S200000 : S_.BroadcastsInDim S200000 (![] : Fin 0 → Fin S200000.rank)
  bcast_S_S2048 : S_.BroadcastsInDim S2048 (![] : Fin 0 → Fin S2048.rank)
  bcast_S200000_S200000x1_0 : S200000.BroadcastsInDim S200000x1 (![0] : Fin 1 → Fin S200000x1.rank)
  shapeCasts_S200000x1_S200000 : S200000x1.ShapeCasts S200000
  shapeCasts_S200000x1x1_S200000 : S200000x1x1.ShapeCasts S200000
  shapeCasts_S200000_S200000x1 : S200000.ShapeCasts S200000x1
  shapeCasts_S200000_S200000x1x1 : S200000.ShapeCasts S200000x1x1
  shapeCasts_S256_S1x256 : S256.ShapeCasts S1x256
  shapeCasts_S4000x1_S4000x1 : S4000x1.ShapeCasts S4000x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S4000x1_S4000x256 : S4000x1.Broadcasts S4000x256
  broadcasts_S1x256_S4000x256 : S1x256.Broadcasts S4000x256
  shapeCasts_S1000x1x1_S1000x1x1 : S1000x1x1.ShapeCasts S1000x1x1
  broadcasts_S1000x1x1_S1000x3x128 : S1000x1x1.Broadcasts S1000x3x128
  scatter_S2048_S200000x1_S200000_n_0_0_1_wf : ScatterDims.WF S2048 S200000x1 S200000 [] [0] [0] 1
  gather_S2048_S200000x1_S200000_n_0_n_n_0_1_1_wf : GatherDims.WF S2048 S200000x1 S200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S200000x1.size a
  hwx0_1 : ∀ i : grid0.Coords, EltTy.bits .f32 = 32 ∨ (Rect.block (s := S200000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S200000x1.size a
  hwx0_2 : ∀ i : grid0.Coords, EltTy.bits .f32 = 32 ∨ (Rect.block (s := S200000x1) S4000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x3x128.size a ≤ S200000x3x128.size a
  hwx1_0 : ∀ i : grid1.Coords, EltTy.bits .f32 = 32 ∨ (Rect.block (s := S200000x3x128) S1000x3x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1x1.size a ≤ S200000x1x1.size a
  hwx1_1 : ∀ i : grid1.Coords, EltTy.bits .f32 = 32 ∨ (Rect.block (s := S200000x1x1) S1000x1x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S200000x256.size a
  hwx2_0 : ∀ i : grid2.Coords, EltTy.bits .f32 = 32 ∨ (Rect.block (s := S200000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S200000x1.size a
  hwx2_1 : ∀ i : grid2.Coords, EltTy.bits .f32 = 32 ∨ (Rect.block (s := S200000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S200000x1.size a
  hwx2_2 : ∀ i : grid2.Coords, EltTy.bits .f32 = 32 ∨ (Rect.block (s := S200000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x256.size a ≤ S200000x256.size a
  hwx2_5 : ∀ i : grid2.Coords, EltTy.bits .f32 = 32 ∨ (Rect.block (s := S200000x256) S4000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x3x128.size a ≤ S200000x3x128.size a
  hwx3_0 : ∀ i : grid3.Coords, EltTy.bits .f32 = 32 ∨ (Rect.block (s := S200000x3x128) S1000x3x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1x1.size a ≤ S200000x1x1.size a
  hwx3_1 : ∀ i : grid3.Coords, EltTy.bits .f32 = 32 ∨ (Rect.block (s := S200000x1x1) S1000x1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x3x128.size a ≤ S200000x3x128.size a
  hwx3_2 : ∀ i : grid3.Coords, EltTy.bits .f32 = 32 ∨ (Rect.block (s := S200000x3x128) S1000x3x128.size (cc3_transform_2 i) (hinb3_2 i)).WholeWords (EltTy.packing .f32)

variable [Facts₀]

def scatter_S2048_S200000x1_S200000_n_0_0_1 : ScatterDims S2048 S200000x1 S200000 where
  updateWindowDims := []
  insertedWindowDims := [0]
  scatterDimsToOperandDims := [0]
  indexVectorDim := 1
  wf := scatter_S2048_S200000x1_S200000_n_0_0_1_wf
def gather_S2048_S200000x1_S200000_n_0_n_n_0_1_1 : GatherDims S2048 S200000x1 S200000 where
  offsetDims := []
  collapsedSliceDims := [0]
  operandBatchingDims := []
  startIndicesBatchingDims := []
  startIndexMap := [0]
  indexVectorDim := 1
  sliceSizes := ![1]
  wf := gather_S2048_S200000x1_S200000_n_0_n_n_0_1_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4000x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S4000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1000x3x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1000x1x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg0) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S4000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg1) S1000x3x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1000x1x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1000x3x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x256 : Shape := ⟨2, ![200000, 256]⟩
abbrev S200000x3x128 : Shape := ⟨3, ![200000, 3, 128]⟩
abbrev S256 : Shape := ⟨1, ![256]⟩
abbrev S200000 : Shape := ⟨1, ![200000]⟩
abbrev S_ : Shape := ⟨0, ![]⟩
abbrev S2048 : Shape := ⟨1, ![2048]⟩
abbrev S200000x1 : Shape := ⟨2, ![200000, 1]⟩
abbrev S2048x1 : Shape := ⟨2, ![2048, 1]⟩
abbrev S1x256 : Shape := ⟨2, ![1, 256]⟩
abbrev S200000x128 : Shape := ⟨2, ![200000, 128]⟩
abbrev S200000x1x128 : Shape := ⟨3, ![200000, 1, 128]⟩
abbrev S200000x1x1 : Shape := ⟨3, ![200000, 1, 1]⟩
abbrev S2048x1x1 : Shape := ⟨3, ![2048, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x3x128, .f32⟩
  | .hbm, ⟨2, _⟩ => ⟨S256, .f32⟩
  | .hbm, ⟨3, _⟩ => ⟨S256, .f32⟩
  | .hbm, ⟨4, _⟩ => ⟨S200000, .i32⟩
  | .hbm, ⟨5, _⟩ => ⟨S_, .f32⟩
  | .hbm, ⟨6, _⟩ => ⟨S200000, .f32⟩
  | .hbm, ⟨7, _⟩ => ⟨S_, .f32⟩
  | .hbm, ⟨8, _⟩ => ⟨S2048, .f32⟩
  | .hbm, ⟨9, _⟩ => ⟨S200000x1, .i32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S200000, .f32⟩
  | .hbm, ⟨16, _⟩ => ⟨S200000x1, .f32⟩
  | .hbm, ⟨17, _⟩ => ⟨S_, .f32⟩
  | .hbm, ⟨18, _⟩ => ⟨S200000x1, .f32⟩
  | .hbm, ⟨19, _⟩ => ⟨S200000x1, .f32⟩
  | .hbm, ⟨20, _⟩ => ⟨S_, .f32⟩
  | .hbm, ⟨21, _⟩ => ⟨S2048x1, .f32⟩
  | .hbm, ⟨22, _⟩ => ⟨S200000x1, .i32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .i32⟩
  | .hbm, ⟨27, _⟩ => ⟨S200000, .i32⟩
  | .hbm, ⟨28, _⟩ => ⟨S200000, .i1⟩
  | .hbm, ⟨29, _⟩ => ⟨S_, .i32⟩
  | .hbm, ⟨30, _⟩ => ⟨S200000, .i32⟩
  | .hbm, ⟨31, _⟩ => ⟨S200000, .i32⟩
  | .hbm, ⟨32, _⟩ => ⟨S200000, .i32⟩
  | .hbm, ⟨33, _⟩ => ⟨S200000x1, .i32⟩
  | .hbm, ⟨34, _⟩ => ⟨S200000x1, .f32⟩
  | .hbm, ⟨35, _⟩ => ⟨S200000x256, .f32⟩
  | .hbm, ⟨36, _⟩ => ⟨S200000x256, .f32⟩
  | .hbm, ⟨37, _⟩ => ⟨S200000x256, .f32⟩
  | .hbm, ⟨38, _⟩ => ⟨S_, .f32⟩
  | .hbm, ⟨39, _⟩ => ⟨S200000, .f32⟩
  | .hbm, ⟨40, _⟩ => ⟨S200000x1, .f32⟩
  | .hbm, ⟨41, _⟩ => ⟨S_, .f32⟩
  | .hbm, ⟨42, _⟩ => ⟨S200000x1, .f32⟩
  | .hbm, ⟨43, _⟩ => ⟨S200000x1, .f32⟩
  | .hbm, ⟨44, _⟩ => ⟨S_, .f32⟩
  | .hbm, ⟨45, _⟩ => ⟨S2048x1, .f32⟩
  | .hbm, ⟨46, _⟩ => ⟨S200000x1, .i32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S_, .i32⟩
  | .hbm, ⟨54, _⟩ => ⟨S200000, .i32⟩
  | .hbm, ⟨55, _⟩ => ⟨S200000, .i1⟩
  | .hbm, ⟨56, _⟩ => ⟨S_, .i32⟩
  | .hbm, ⟨57, _⟩ => ⟨S200000, .i32⟩
  | .hbm, ⟨58, _⟩ => ⟨S200000, .i32⟩
  | .hbm, ⟨59, _⟩ => ⟨S200000, .i32⟩
  | .hbm, ⟨60, _⟩ => ⟨S200000x1, .i32⟩
  | .hbm, ⟨61, _⟩ => ⟨S200000x1, .f32⟩
  | .hbm, ⟨62, _⟩ => ⟨S200000x256, .f32⟩
  | .hbm, ⟨63, _⟩ => ⟨S200000x256, .f32⟩
  | .hbm, ⟨64, _⟩ => ⟨S1x256, .f32⟩
  | .hbm, ⟨65, _⟩ => ⟨S200000x256, .f32⟩
  | .hbm, ⟨66, _⟩ => ⟨S200000x256, .f32⟩
  | .hbm, ⟨67, _⟩ => ⟨S1x256, .f32⟩
  | .hbm, ⟨68, _⟩ => ⟨S200000x256, .f32⟩
  | .hbm, ⟨69, _⟩ => ⟨S200000x256, .f32⟩
  | .hbm, ⟨70, _⟩ => ⟨S200000x3x128, .f32⟩
  | .hbm, ⟨71, _⟩ => ⟨S_, .f32⟩
  | .hbm, ⟨72, _⟩ => ⟨S200000x128, .f32⟩
  | .hbm, ⟨73, _⟩ => ⟨S200000x1x128, .f32⟩
  | .hbm, ⟨74, _⟩ => ⟨S_, .f32⟩
  | .hbm, ⟨75, _⟩ => ⟨S200000x1, .f32⟩
  | .hbm, ⟨76, _⟩ => ⟨S200000x1x1, .f32⟩
  | .hbm, ⟨77, _⟩ => ⟨S_, .f32⟩
  | .hbm, ⟨78, _⟩ => ⟨S200000x1x1, .f32⟩
  | .hbm, ⟨79, _⟩ => ⟨S200000x1x1, .f32⟩
  | .hbm, ⟨80, _⟩ => ⟨S_, .f32⟩
  | .hbm, ⟨81, _⟩ => ⟨S2048x1x1, .f32⟩
  | .hbm, ⟨82, _⟩ => ⟨S200000x1, .i32⟩
  | .hbm, ⟨83, _⟩ => ⟨S2048x1x1, .f32⟩
  | .hbm, ⟨84, _⟩ => ⟨S2048x1x1, .f32⟩
  | .hbm, ⟨85, _⟩ => ⟨S2048x1x1, .f32⟩
  | .hbm, ⟨86, _⟩ => ⟨S_, .f32⟩
  | .hbm, ⟨87, _⟩ => ⟨S2048x1x1, .f32⟩
  | .hbm, ⟨88, _⟩ => ⟨S2048x1x1, .f32⟩
  | .hbm, ⟨89, _⟩ => ⟨S_, .i32⟩
  | .hbm, ⟨90, _⟩ => ⟨S200000, .i32⟩
  | .hbm, ⟨91, _⟩ => ⟨S200000, .i1⟩
  | .hbm, ⟨92, _⟩ => ⟨S_, .i32⟩
  | .hbm, ⟨93, _⟩ => ⟨S200000, .i32⟩
  | .hbm, ⟨94, _⟩ => ⟨S200000, .i32⟩
  | .hbm, ⟨95, _⟩ => ⟨S200000, .i32⟩
  | .hbm, ⟨96, _⟩ => ⟨S200000x1, .i32⟩
  | .hbm, ⟨97, _⟩ => ⟨S200000x1x1, .f32⟩
  | .hbm, ⟨98, _⟩ => ⟨S200000x3x128, .f32⟩
  | .hbm, ⟨99, _⟩ => ⟨S200000x3x128, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_c_10 : Ref sig .tc := ⟨.hbm, 53, rfl⟩
abbrev main_v36 : Ref sig .tc := ⟨.hbm, 54, rfl⟩
abbrev main_v37 : Ref sig .tc := ⟨.hbm, 55, rfl⟩
abbrev main_c_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_c_17 : Ref sig .tc := ⟨.hbm, 89, rfl⟩
abbrev main_v65 : Ref sig .tc := ⟨.hbm, 90, rfl⟩
abbrev main_v66 : Ref sig .tc := ⟨.hbm, 91, rfl⟩
abbrev main_c_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S2048 : S_.BroadcastsInDim S2048 (![] : Fin 0 → Fin S2048.rank)
  bcast_S200000_S200000x1_0 : S200000.BroadcastsInDim S200000x1 (![0] : Fin 1 → Fin S200000x1.rank)
  reducesTo_S200000x256_S200000_d1 : S200000x256.ReducesTo [1] S200000
  h_S_ : 0 < S_.numel
  bcast_S_S200000x1 : S_.BroadcastsInDim S200000x1 (![] : Fin 0 → Fin S200000x1.rank)
  bcast_S_S2048x1 : S_.BroadcastsInDim S2048x1 (![] : Fin 0 → Fin S2048x1.rank)
  shapeCasts_S2048_S2048x1 : S2048.ShapeCasts S2048x1
  bcast_S200000x1_S200000x256_0_1 : S200000x1.BroadcastsInDim S200000x256 (![0, 1] : Fin 2 → Fin S200000x256.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  reducesTo_S200000x3x128_S200000x128_d1 : S200000x3x128.ReducesTo [1] S200000x128
  bcast_S200000x128_S200000x1x128_0_2 : S200000x128.BroadcastsInDim S200000x1x128 (![0, 2] : Fin 2 → Fin S200000x1x128.rank)
  reducesTo_S200000x1x128_S200000x1_d2 : S200000x1x128.ReducesTo [2] S200000x1
  bcast_S200000x1_S200000x1x1_0_1 : S200000x1.BroadcastsInDim S200000x1x1 (![0, 1] : Fin 2 → Fin S200000x1x1.rank)
  bcast_S_S200000x1x1 : S_.BroadcastsInDim S200000x1x1 (![] : Fin 0 → Fin S200000x1x1.rank)
  bcast_S_S2048x1x1 : S_.BroadcastsInDim S2048x1x1 (![] : Fin 0 → Fin S2048x1x1.rank)
  shapeCasts_S2048_S2048x1x1 : S2048.ShapeCasts S2048x1x1
  bcast_S200000x1x1_S200000x3x128_0_1_2 : S200000x1x1.BroadcastsInDim S200000x3x128 (![0, 1, 2] : Fin 3 → Fin S200000x3x128.rank)
  scatter_S2048_S200000x1_S200000_n_0_0_1_wf : ScatterDims.WF S2048 S200000x1 S200000 [] [0] [0] 1
  scatter_S2048x1_S200000x1_S200000x1_1_0_0_1_wf : ScatterDims.WF S2048x1 S200000x1 S200000x1 [1] [0] [0] 1
  gather_S2048x1_S200000x1_S200000x1_1_0_n_n_0_1_11_wf : GatherDims.WF S2048x1 S200000x1 S200000x1 [1] [0] [] [0] [] 1 ![1, 1]
  scatter_S2048x1x1_S200000x1_S200000x1x1_12_0_0_1_wf : ScatterDims.WF S2048x1x1 S200000x1 S200000x1x1 [1, 2] [0] [0] 1
  gather_S2048x1x1_S200000x1_S200000x1x1_12_0_n_n_0_1_111_wf : GatherDims.WF S2048x1x1 S200000x1 S200000x1x1 [1, 2] [0] [] [0] [] 1 ![1, 1, 1]

variable [Facts₀]

def scatter_S2048_S200000x1_S200000_n_0_0_1 : ScatterDims S2048 S200000x1 S200000 where
  updateWindowDims := []
  insertedWindowDims := [0]
  scatterDimsToOperandDims := [0]
  indexVectorDim := 1
  wf := scatter_S2048_S200000x1_S200000_n_0_0_1_wf
def scatter_S2048x1_S200000x1_S200000x1_1_0_0_1 : ScatterDims S2048x1 S200000x1 S200000x1 where
  updateWindowDims := [1]
  insertedWindowDims := [0]
  scatterDimsToOperandDims := [0]
  indexVectorDim := 1
  wf := scatter_S2048x1_S200000x1_S200000x1_1_0_0_1_wf
def gather_S2048x1_S200000x1_S200000x1_1_0_n_n_0_1_11 : GatherDims S2048x1 S200000x1 S200000x1 where
  offsetDims := [1]
  collapsedSliceDims := [0]
  operandBatchingDims := []
  startIndicesBatchingDims := []
  startIndexMap := [0]
  indexVectorDim := 1
  sliceSizes := ![1, 1]
  wf := gather_S2048x1_S200000x1_S200000x1_1_0_n_n_0_1_11_wf
def scatter_S2048x1x1_S200000x1_S200000x1x1_12_0_0_1 : ScatterDims S2048x1x1 S200000x1 S200000x1x1 where
  updateWindowDims := [1, 2]
  insertedWindowDims := [0]
  scatterDimsToOperandDims := [0]
  indexVectorDim := 1
  wf := scatter_S2048x1x1_S200000x1_S200000x1x1_12_0_0_1_wf
def gather_S2048x1x1_S200000x1_S200000x1x1_12_0_n_n_0_1_111 : GatherDims S2048x1x1 S200000x1 S200000x1x1 where
  offsetDims := [1, 2]
  collapsedSliceDims := [0]
  operandBatchingDims := []
  startIndicesBatchingDims := []
  startIndexMap := [0]
  indexVectorDim := 1
  sliceSizes := ![1, 1, 1]
  wf := gather_S2048x1x1_S200000x1_S200000x1x1_12_0_n_n_0_1_111_wf

class Facts : Prop extends Facts₀ where

variable [Facts]
-- ==== Proof.KRun.lean ====
/-
  The idealized kernel's run with its two result arrays named.

  The program is four grid regions with one stretch of array operations between the second and the third.
  The buffer contents at the five boundaries are a fold from the launch memory; at the last boundary
  every unscoped buffer, the two results included, holds the fold's value there. This module states the
  run with that reading of the results beside the unchanged arguments.
-/
import proofs.«149233_j2104533975136_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; at the end both result buffers hold the last
    boundary's contents and the five argument arrays are as launched. -/
theorem run_results : θ_run defs (onTc (τ := τ) (main (F := F))) ⟨m, fun _ => 0, ρ⟩ (fun r => ∀ c : Dev nD,
      r.2.mem ((c.tc : Thread nD τ).loc main_v55) = W5 m ρ c (Proc.devRef .tc main_v55)
      ∧ r.2.mem ((c.tc : Thread nD τ).loc main_v56) = W5 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v55 (by decide)),
       h c _ (mem_uc main_v56 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Results

end
-- ==== Proof.LibColumnForms.lean ====
/-
  Two layout operations read at an index given by coordinates, for any extents `a`, `b` and any element type: the
  COLUMN forms that a sum kept as a column (`keepdims` along the last axis) goes through.

  • a vector `[a]` viewed as a column `[a, 1]` reads, at `(i, u)`, the vector at `i` (the unit coordinate `u` is `0`, so
    both indices have row-major position `i`);
  • a column `[a, 1]` broadcast along the second axis to `[a, b]` reads, at `(p, c)`, the column at `(p, 0)`: the
    operand's second axis is a unit axis, so its coordinate is `0` whatever `c` is, and its first axis keeps `p`
    (when `a` itself is `1` the only `p` is `0`).

  The row forms (`[a]` as `[1, a]`, `[1, b]` over `[a, b]`) are the library's `shapeCast_a_1a_apply` and
  `broadcastTo_1b_ab_apply`.
-/
import Idealize.ShloMosaic.Lib.ValueLayout

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.Stats.lean ====
/-
  The first region: per node, the mean over the 256 channels of the scalar features and of their squares.

  The region walks the 200000 nodes in 50 blocks of 4000 rows. At a point it loads a [4000, 256] block and stores,
  into two [4000, 1] blocks, each row's sum divided by 256 and each row's sum of squares divided by 256. The
  blocks tile both result arrays, so after the region they hold the row mean and the row mean of squares of the
  whole array.
-/
import proofs.«149233_j2104533975136_1_alg».proof.Proof.Gen.KernelIdeal.Frame
import Idealize.ShloMosaic.Lib.ValueIdx
import Idealize.ShloMosaic.Lib.Pipeline.Value
import Idealize.ShloMosaic.PureOps.Ideal.Laws
import proofs.«149233_j2104533975136_1_alg».proof.Proof.LibColumnForms
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- Row r's sum over the 256 channels, divided by the number whose pattern is 256.0. -/
def rowMean (s : S200000x256.Idx → EReal) : S200000x1.Idx → EReal :=
  fun i => Ideal.div (∑ k : Fin 256, s (ix2 (⟨(i 0).val, (i 0).isLt⟩ : Fin 200000) k)) (Ideal.ofBits .f32 0x43800000#32)

/-- Row r's sum of squares over the 256 channels, divided by the same number. -/
def rowSqMean (s : S200000x256.Idx → EReal) : S200000x1.Idx → EReal :=
  fun i => Ideal.div (∑ k : Fin 256, s (ix2 (⟨(i 0).val, (i 0).isLt⟩ : Fin 200000) k) * s (ix2 (⟨(i 0).val, (i 0).isLt⟩ : Fin 200000) k))
    (Ideal.ofBits .f32 0x43800000#32)

/-- A lane sum of a [4000, 256] block at row p is the sum over the 256 columns. -/
theorem rowSum (x : FVec Ideal S4000x256 .f32) (p : Fin 4000) :
    multiReduction .add [1] S4000 x 0x00000000#32 reduces_S4000x256_S4000 (.inl rfl) rfl (ix1 p) = ∑ k : Fin 256, x (ix2 p k) := by
  refine (Ideal.multiReduction_add_single x 0x00000000#32 reduces_S4000x256_S4000 (.inl rfl) rfl (ix1 p)).trans ?_
  show ∑ k : Fin 256, x (reduces_S4000x256_S4000.lift (ix1 p) k) = ∑ k : Fin 256, x (ix2 p k)
  refine Finset.sum_congr rfl fun k _ => congrArg x ?_
  funext a
  apply Fin.ext
  match a with
  | ⟨0, _⟩ => rfl
  | ⟨1, _⟩ => rfl

/-- The first stored value at (p, u): the row sum over 256. -/
theorem pay_mean (x : Vec Ideal S4000x256 .f32) (p : Fin 4000) (u : Fin 1) :
    k0_pay1 x (ix2 p u) = Ideal.div (∑ k : Fin 256, x (ix2 p k)) (Ideal.ofBits .f32 0x43800000#32) := by
  unfold k0_pay1
  show Ideal.div (shapeCast S4000x1 (multiReduction (F := Ideal) .add [1] S4000 x 0x00000000#32 reduces_S4000x256_S4000 (.inl rfl) rfl) shapeCasts_S4000_S4000x1 (ix2 p u)) _ = _
  refine congrArg₂ Ideal.div ?_ rfl
  exact (Cert.ColumnForms.shapeCast_a_a1_apply _ _ p u).trans (rowSum x p)

/-- The second stored value at (p, u): the row sum of squares over 256. -/
theorem pay_sqmean (x : Vec Ideal S4000x256 .f32) (p : Fin 4000) (u : Fin 1) :
    k0_pay2 x (ix2 p u) = Ideal.div (∑ k : Fin 256, x (ix2 p k) * x (ix2 p k)) (Ideal.ofBits .f32 0x43800000#32) := by
  unfold k0_pay2
  show Ideal.div (shapeCast S4000x1 (multiReduction (F := Ideal) .add [1] S4000 (mulf x x) 0x00000000#32 reduces_S4000x256_S4000 (.inl rfl) rfl) shapeCasts_S4000_S4000x1 (ix2 p u)) _ = _
  refine congrArg₂ Ideal.div ?_ rfl
  exact (Cert.ColumnForms.shapeCast_a_a1_apply _ _ p u).trans (rowSum (mulf x x) p)

/-- The three windows move together: at point t each is at block t along the rows and block 0 along the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input window's block at point t is rows 4000 t … 4000 t + 3999 of the scalar features. -/
theorem blk_s (c : Dev nD) (t : Fin cfg0.N) (x : S4000x256.Idx) (k : S200000x256.Idx)
    (h0 : (k 0).val = 4000 * t.val + (x 0).val) (h1 : (k 1).val = (x 1).val) :
    (iblk0 V c 0 t : Vec Ideal S4000x256 .f32) x = (V c main_arg0 : S200000x256.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 4000 + 1 * (x 0).val = (k 0).val; rw [e0, h0]; omega
  | ⟨1, _⟩ => show win0_0.index t 1 * 256 + 1 * (x 1).val = (k 1).val; rw [e1, h1]; omega

/-- What point t writes back through the first output window is block t of the row means. -/
theorem flushed_mean (c : Dev nD) (t : Fin cfg0.N) :
    (dat0 V c).flushed 1 t = ((cfg0.win 1).blk t).view.read (Elt Ideal) (rowMean (V c main_arg0)) := by
  show (cfg0.win 1).cut (grid0.coords t) ((dat0 V c).after 1 t) = _
  rw [after0_1]
  unfold out0_1
  rw [View.canon_unit_zero hz2]
  simp only [View.ld_unit_zero (S := S4000x256) hz2]
  obtain ⟨-, -, e0, e1, -⟩ := idx_facts t
  have key : ∀ y : S4000x1.Idx, k0_pay1 (iblk0 V c 0 t) y = rowMean (V c main_arg0) (((cfg0.win 1).blk t).view.emb y) := by
    intro y
    obtain ⟨p, u, rfl⟩ : ∃ (p : Fin 4000) (u : Fin 1), y = ix2 p u := ⟨y 0, y 1, eq_ix2 y⟩
    refine (pay_mean _ p u).trans ?_
    unfold rowMean
    refine congrArg₂ Ideal.div ?_ rfl
    refine Finset.sum_congr rfl fun k _ => ?_
    refine blk_s V c t (ix2 p k) _ ?_ rfl
    show win0_1.index t 0 * 4000 + 1 * p.val = 4000 * t.val + p.val
    rw [e0]; omega
  funext j
  exact key j

/-- What point t writes back through the second output window is block t of the row means of squares. -/
theorem flushed_sqmean (c : Dev nD) (t : Fin cfg0.N) :
    (dat0 V c).flushed 2 t = ((cfg0.win 2).blk t).view.read (Elt Ideal) (rowSqMean (V c main_arg0)) := by
  show (cfg0.win 2).cut (grid0.coords t) ((dat0 V c).after 2 t) = _
  rw [after0_2]
  unfold out0_2
  rw [View.canon_unit_zero hz2]
  simp only [View.ld_unit_zero (S := S4000x256) hz2]
  obtain ⟨-, -, -, -, e0, e1⟩ := idx_facts t
  have key : ∀ y : S4000x1.Idx, k0_pay2 (iblk0 V c 0 t) y = rowSqMean (V c main_arg0) (((cfg0.win 2).blk t).view.emb y) := by
    intro y
    obtain ⟨p, u, rfl⟩ : ∃ (p : Fin 4000) (u : Fin 1), y = ix2 p u := ⟨y 0, y 1, eq_ix2 y⟩
    refine (pay_sqmean _ p u).trans ?_
    unfold rowSqMean
    refine congrArg₂ Ideal.div ?_ rfl
    refine Finset.sum_congr rfl fun k _ => ?_
    have hb : (iblk0 V c 0 t : Vec Ideal S4000x256 .f32) (ix2 p k)
        = (V c main_arg0 : S200000x256.Idx → EReal) (ix2 (⟨((((cfg0.win 2).blk t).view.emb (ix2 p u)) 0).val, ((((cfg0.win 2).blk t).view.emb (ix2 p u)) 0).isLt⟩ : Fin 200000) k) := by
      refine blk_s V c t (ix2 p k) _ ?_ rfl
      show win0_2.index t 0 * 4000 + 1 * p.val = 4000 * t.val + p.val
      rw [e0]; omega
    exact congrArg₂ (· * ·) hb hb
  funext j
  exact key j

theorem mem_blk1 (t : Fin cfg0.N) (i : S200000x1.Idx) :
    i ∈ ((cfg0.win 1).blk t).view.set ↔ ∀ a : Fin 2, win0_1.index t a * S4000x1.size a ≤ (i a).val ∧ (i a).val < win0_1.index t a * S4000x1.size a + S4000x1.size a := by
  show i ∈ ((View.whole main_v0_0).slice (win0_1.rect t)).set ↔ _
  rw [View.set_slice_whole, Rect.mem_set_unit]
  exact Iff.rfl

theorem mem_blk2 (t : Fin cfg0.N) (i : S200000x1.Idx) :
    i ∈ ((cfg0.win 2).blk t).view.set ↔ ∀ a : Fin 2, win0_2.index t a * S4000x1.size a ≤ (i a).val ∧ (i a).val < win0_2.index t a * S4000x1.size a + S4000x1.size a := by
  show i ∈ ((View.whole main_v0_1).slice (win0_2.rect t)).set ↔ _
  rw [View.set_slice_whole, Rect.mem_set_unit]
  exact Iff.rfl

/-- Row r lies in the block of point r / 4000. -/
theorem cover1 (i : S200000x1.Idx) : ∃ t : Fin cfg0.N, (cfg0.win 1).flush t = true ∧ i ∈ ((cfg0.win 1).blk t).view.set := by
  have hi0 : (i 0).val < 200000 := (i 0).isLt
  have hi1 : (i 1).val < 1 := (i 1).isLt
  have hN : grid0.N = 50 := N_0
  have ht : (i 0).val / 4000 < grid0.N := by rw [hN]; omega
  obtain ⟨-, -, e0, e1, -⟩ := idx_facts ⟨(i 0).val / 4000, ht⟩
  refine ⟨⟨(i 0).val / 4000, ht⟩, flush0_1 _, ?_⟩
  rw [mem_blk1]
  intro a
  match a with
  | ⟨0, _⟩ =>
    show win0_1.index ⟨(i 0).val / 4000, ht⟩ 0 * 4000 ≤ (i 0).val ∧ (i 0).val < win0_1.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win0_1.index ⟨(i 0).val / 4000, ht⟩ 1 * 1 ≤ (i 1).val ∧ (i 1).val < win0_1.index ⟨(i 0).val / 4000, ht⟩ 1 * 1 + 1
    rw [e1]; omega

theorem cover2 (i : S200000x1.Idx) : ∃ t : Fin cfg0.N, (cfg0.win 2).flush t = true ∧ i ∈ ((cfg0.win 2).blk t).view.set := by
  have hi0 : (i 0).val < 200000 := (i 0).isLt
  have hi1 : (i 1).val < 1 := (i 1).isLt
  have hN : grid0.N = 50 := N_0
  have ht : (i 0).val / 4000 < grid0.N := by rw [hN]; omega
  obtain ⟨-, -, -, -, e0, e1⟩ := idx_facts ⟨(i 0).val / 4000, ht⟩
  refine ⟨⟨(i 0).val / 4000, ht⟩, flush0_2 _, ?_⟩
  rw [mem_blk2]
  intro a
  match a with
  | ⟨0, _⟩ =>
    show win0_2.index ⟨(i 0).val / 4000, ht⟩ 0 * 4000 ≤ (i 0).val ∧ (i 0).val < win0_2.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win0_2.index ⟨(i 0).val / 4000, ht⟩ 1 * 1 ≤ (i 1).val ∧ (i 1).val < win0_2.index ⟨(i 0).val / 4000, ht⟩ 1 * 1 + 1
    rw [e1]; omega

/-- After the region the first result array holds the row means … -/
theorem final_mean (c : Dev nD) : (dat0 V c).arrAt 1 cfg0.N = rowMean (V c main_arg0) :=
  (dat0 V c).arrAt_eq_of_cover 1 _ (fun t _ => flushed_mean V c t) cover1

/-- … and the second the row means of squares. -/
theorem final_sqmean (c : Dev nD) : (dat0 V c).arrAt 2 cfg0.N = rowSqMean (V c main_arg0) :=
  (dat0 V c).arrAt_eq_of_cover 2 _ (fun t _ => flushed_sqmean V c t) cover2

end Cert.KernelIdeal.Stats

end
-- ==== Proof.LibTrailingUnit.lean ====
/-
  A trailing axis of extent one, read at coordinates.

  An `[a, b]` array viewed `[a, b, 1]` has the same entries in the same row-major order, so entry `(p, q, 0)` is entry
  `(p, q)`.  An `[a, b, 1]` array broadcast to `[a, b, c]` repeats its one column: entry `(p, q, k)` is entry `(p, q, 0)`.
  Both for any extents and any element type.
-/
import Idealize.ShloMosaic.Lib.ValueIdx
import Idealize.ShloMosaic.Lib.ValueLayout
import Idealize.ShloMosaic.Lib.Pipeline.Value

namespace Cert.TrailingUnit

open Idealize.ShloMosaic Idealize.ShloMosaic.ValueIdx

variable {α : Type}

/-- `[a, b]` viewed `[a, b, 1]`: the unit coordinate is forgotten. -/
theorem unitLast_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast to `[a, b, c]`: every position on the last axis reads the one there is. -/
theorem bcastLast_apply {a b c : ℕ} (x : (⟨3, ![a, b, 1]⟩ : Shape).Idx → α) (h : (⟨3, ![a, b, 1]⟩ : Shape).Broadcasts ⟨3, ![a, b, c]⟩)
    (p : Fin a) (q : Fin b) (k : Fin c) : broadcastTo ⟨3, ![a, b, c]⟩ x h (ix3 p q k) = x (ix3 p q (0 : Fin 1)) :=
  broadcastTo_apply x h _ _ fun ax => by
    match ax with
    | ⟨0, _⟩ => show p.val = if a = 1 then 0 else p.val; split <;> [(have := p.isLt; omega); rfl]
    | ⟨1, _⟩ => show q.val = if b = 1 then 0 else q.val; split <;> [(have := q.isLt; omega); rfl]
    | ⟨2, _⟩ => show (0 : ℕ) = if (1 : ℕ) = 1 then 0 else k.val; rw [if_pos rfl]

end Cert.TrailingUnit
-- ==== Proof.VStats.lean ====
/-
  The second region: per node, the squared length of its three 128-lane vectors, averaged over the lanes.

  The region walks the 200000 nodes in 200 blocks of 1000. At a point it loads a [1000, 3, 128] block, squares it,
  sums the three components, sums the 128 lanes, divides by 128 and stores the [1000, 1, 1] block. The blocks tile
  the result array, so after the region it holds that number for every node.
-/
import proofs.«149233_j2104533975136_1_alg».proof.Proof.Gen.KernelIdeal.Frame
import Idealize.ShloMosaic.Lib.ValueIdx
import Idealize.ShloMosaic.Lib.Pipeline.Value
import Idealize.ShloMosaic.PureOps.Ideal.Laws
import proofs.«149233_j2104533975136_1_alg».proof.Proof.LibTrailingUnit
set_option maxRecDepth 16384

noncomputable section

open Idealize.ShloMosaic Idealize.ShloMosaic.TcCoe Idealize.SL.Sem Idealize.ShloMosaic.ValueIdx
open Idealize.ShloMosaic.Pipeline (Dat)

namespace Cert.KernelIdeal.VStats

open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl

/-- Node r's sum over the lanes of the sum over the three components of the squares, over the number whose pattern is 128.0. -/
def nodeSq (v : S200000x3x128.Idx → EReal) : S200000x1x1.Idx → EReal :=
  fun i => Ideal.div (∑ l : Fin 128, ∑ j : Fin 3,
      v (ix3 (⟨(i 0).val, (i 0).isLt⟩ : Fin 200000) j l) * v (ix3 (⟨(i 0).val, (i 0).isLt⟩ : Fin 200000) j l))
    (Ideal.ofBits .f32 0x43000000#32)

/-- An [a, c] array viewed [a, 1, c]: the unit coordinate is forgotten. -/
theorem unitMiddle_apply {α : Type} {a c : ℕ} (x : (⟨2, ![a, c]⟩ : Shape).Idx → α) (h : (⟨2, ![a, c]⟩ : Shape).ShapeCasts ⟨3, ![a, 1, c]⟩)
    (p : Fin a) (u : Fin 1) (k : Fin c) : shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- The sum over the three components of a [1000, 3, 128] block at (p, l). -/
theorem compSum (x : FVec Ideal S1000x3x128 .f32) (p : Fin 1000) (l : Fin 128) :
    multiReduction .add [1] S1000x128 x 0x00000000#32 reduces_S1000x3x128_S1000x128 (.inl rfl) rfl (ix2 p l) = ∑ j : Fin 3, x (ix3 p j l) := by
  refine (Ideal.multiReduction_add_single x 0x00000000#32 reduces_S1000x3x128_S1000x128 (.inl rfl) rfl (ix2 p l)).trans ?_
  show ∑ j : Fin 3, x (reduces_S1000x3x128_S1000x128.lift (ix2 p l) j) = ∑ j : Fin 3, x (ix3 p j l)
  refine Finset.sum_congr rfl fun j _ => congrArg x ?_
  funext a
  apply Fin.ext
  match a with
  | ⟨0, _⟩ => rfl
  | ⟨1, _⟩ => rfl
  | ⟨2, _⟩ => rfl

/-- The sum over the lanes of a [1000, 1, 128] block at (p, u). -/
theorem laneSum (x : FVec Ideal S1000x1x128 .f32) (p : Fin 1000) (u : Fin 1) :
    multiReduction .add [2] S1000x1 x 0x00000000#32 reduces_S1000x1x128_S1000x1 (.inl rfl) rfl (ix2 p u) = ∑ l : Fin 128, x (ix3 p u l) := by
  refine (Ideal.multiReduction_add_single x 0x00000000#32 reduces_S1000x1x128_S1000x1 (.inl rfl) rfl (ix2 p u)).trans ?_
  show ∑ l : Fin 128, x (reduces_S1000x1x128_S1000x1.lift (ix2 p u) l) = ∑ l : Fin 128, x (ix3 p u l)
  refine Finset.sum_congr rfl fun l _ => congrArg x ?_
  funext a
  apply Fin.ext
  match a with
  | ⟨0, _⟩ => rfl
  | ⟨1, _⟩ => rfl
  | ⟨2, _⟩ => rfl

/-- The stored value at (p, u, u'): the block's row p squared, summed over components and lanes, over 128. -/
theorem pay_apply (x : Vec Ideal S1000x3x128 .f32) (p : Fin 1000) (u u' : Fin 1) :
    k1_pay1 x (ix3 p u u') = Ideal.div (∑ l : Fin 128, ∑ j : Fin 3, x (ix3 p j l) * x (ix3 p j l)) (Ideal.ofBits .f32 0x43000000#32) := by
  unfold k1_pay1
  show Ideal.div (shapeCast S1000x1x1 (multiReduction (F := Ideal) .add [2] S1000x1
      (shapeCast S1000x1x128 (multiReduction (F := Ideal) .add [1] S1000x128 (mulf x x) 0x00000000#32 reduces_S1000x3x128_S1000x128 (.inl rfl) rfl) shapeCasts_S1000x128_S1000x1x128)
      0x00000000#32 reduces_S1000x1x128_S1000x1 (.inl rfl) rfl) shapeCasts_S1000x1_S1000x1x1 (ix3 p u u')) _ = _
  refine congrArg₂ Ideal.div ?_ rfl
  refine (Cert.TrailingUnit.unitLast_apply _ _ p u u').trans ?_
  refine (laneSum _ p u).trans ?_
  refine Finset.sum_congr rfl fun l _ => ?_
  refine (unitMiddle_apply _ _ p u l).trans ?_
  exact compSum (mulf x x) p l

/-- Both windows move together: at point t each is at block t along the nodes and block 0 along the other axes. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- The input window's block at point t is rows 1000 t … 1000 t + 999 of the vector features. -/
theorem blk_vec (c : Dev nD) (t : Fin cfg1.N) (x : S1000x3x128.Idx) (k : S200000x3x128.Idx)
    (h0 : (k 0).val = 1000 * t.val + (x 0).val) (h1 : (k 1).val = (x 1).val) (h2 : (k 2).val = (x 2).val) :
    (iblk1 V c 0 t : Vec Ideal S1000x3x128 .f32) x = (V c main_arg1 : S200000x3x128.Idx → EReal) k := by
  obtain ⟨e0, e1, e2, -⟩ := idx_facts t
  unfold iblk1
  rw [View.read_apply]
  show V c main_arg1 _ = V c main_arg1 _
  congr 1
  funext a
  apply Fin.ext
  match a with
  | ⟨0, _⟩ => show win1_0.index t 0 * 1000 + 1 * (x 0).val = (k 0).val; rw [e0, h0]; omega
  | ⟨1, _⟩ => show win1_0.index t 1 * 3 + 1 * (x 1).val = (k 1).val; rw [e1, h1]; omega
  | ⟨2, _⟩ => show win1_0.index t 2 * 128 + 1 * (x 2).val = (k 2).val; rw [e2, h2]; omega

/-- What point t writes back is block t of the per-node numbers. -/
theorem flushed_eq (c : Dev nD) (t : Fin cfg1.N) :
    (dat1 V c).flushed 1 t = ((cfg1.win 1).blk t).view.read (Elt Ideal) (nodeSq (V c main_arg1)) := by
  show (cfg1.win 1).cut (grid1.coords t) ((dat1 V c).after 1 t) = _
  rw [after1_1]
  unfold out1_1
  rw [View.canon_unit_zero hz3]
  simp only [View.ld_unit_zero (S := S1000x3x128) hz3]
  obtain ⟨-, -, -, e0, e1, e2⟩ := idx_facts t
  have key : ∀ y : S1000x1x1.Idx, k1_pay1 (iblk1 V c 0 t) y = nodeSq (V c main_arg1) (((cfg1.win 1).blk t).view.emb y) := by
    intro y
    obtain ⟨p, u, u', rfl⟩ : ∃ (p : Fin 1000) (u u' : Fin 1), y = ix3 p u u' := ⟨y 0, y 1, y 2, eq_ix3 y⟩
    refine (pay_apply _ p u u').trans ?_
    unfold nodeSq
    refine congrArg₂ Ideal.div ?_ rfl
    refine Finset.sum_congr rfl fun l _ => Finset.sum_congr rfl fun j _ => ?_
    have hb : (iblk1 V c 0 t : Vec Ideal S1000x3x128 .f32) (ix3 p j l)
        = (V c main_arg1 : S200000x3x128.Idx → EReal) (ix3 (⟨((((cfg1.win 1).blk t).view.emb (ix3 p u u')) 0).val, ((((cfg1.win 1).blk t).view.emb (ix3 p u u')) 0).isLt⟩ : Fin 200000) j l) := by
      refine blk_vec V c t (ix3 p j l) _ ?_ rfl rfl
      show win1_1.index t 0 * 1000 + 1 * p.val = 1000 * t.val + p.val
      rw [e0]; omega
    exact congrArg₂ (· * ·) hb hb
  funext j
  exact key j

theorem mem_blk (t : Fin cfg1.N) (i : S200000x1x1.Idx) :
    i ∈ ((cfg1.win 1).blk t).view.set ↔ ∀ a : Fin 3, win1_1.index t a * S1000x1x1.size a ≤ (i a).val ∧ (i a).val < win1_1.index t a * S1000x1x1.size a + S1000x1x1.size a := by
  show i ∈ ((View.whole main_v1).slice (win1_1.rect t)).set ↔ _
  rw [View.set_slice_whole, Rect.mem_set_unit]
  exact Iff.rfl

/-- Node r lies in the block of point r / 1000. -/
theorem cover (i : S200000x1x1.Idx) : ∃ t : Fin cfg1.N, (cfg1.win 1).flush t = true ∧ i ∈ ((cfg1.win 1).blk t).view.set := by
  have hi0 : (i 0).val < 200000 := (i 0).isLt
  have hi1 : (i 1).val < 1 := (i 1).isLt
  have hi2 : (i 2).val < 1 := (i 2).isLt
  have hN : grid1.N = 200 := N_1
  have ht : (i 0).val / 1000 < grid1.N := by rw [hN]; omega
  obtain ⟨-, -, -, e0, e1, e2⟩ := idx_facts ⟨(i 0).val / 1000, ht⟩
  refine ⟨⟨(i 0).val / 1000, ht⟩, flush1_1 _, ?_⟩
  rw [mem_blk]
  intro a
  match a with
  | ⟨0, _⟩ =>
    show win1_1.index ⟨(i 0).val / 1000, ht⟩ 0 * 1000 ≤ (i 0).val ∧ (i 0).val < win1_1.index ⟨(i 0).val / 1000, ht⟩ 0 * 1000 + 1000
    rw [e0]; show (i 0).val / 1000 * 1000 ≤ (i 0).val ∧ (i 0).val < (i 0).val / 1000 * 1000 + 1000; omega
  | ⟨1, _⟩ =>
    show win1_1.index ⟨(i 0).val / 1000, ht⟩ 1 * 1 ≤ (i 1).val ∧ (i 1).val < win1_1.index ⟨(i 0).val / 1000, ht⟩ 1 * 1 + 1
    rw [e1]; omega
  | ⟨2, _⟩ =>
    show win1_1.index ⟨(i 0).val / 1000, ht⟩ 2 * 1 ≤ (i 2).val ∧ (i 2).val < win1_1.index ⟨(i 0).val / 1000, ht⟩ 2 * 1 + 1
    rw [e2]; omega

/-- After the region the result array holds every node's number. -/
theorem final (c : Dev nD) : (dat1 V c).arrAt 1 cfg1.N = nodeSq (V c main_arg1) :=
  (dat1 V c).arrAt_eq_of_cover 1 _ (fun t _ => flushed_eq V c t) cover

end Cert.KernelIdeal.VStats

end
-- ==== Proof.SNorm.lean ====
/-
  The third region: every scalar feature centred, divided by its node's variance, scaled and shifted per channel.

  The region walks the 200000 nodes in 50 blocks of 4000 rows. At a point it loads the [4000, 256] block of
  features, the matching [4000, 1] blocks of the per-row centre and the per-row divisor, and the whole [1, 256]
  weight and bias rows, and stores (x − centre) / divisor · weight + bias. The blocks tile the result array, so
  after the region it holds that expression at every index.
-/
import proofs.«149233_j2104533975136_1_alg».proof.Proof.Gen.KernelIdeal.Frame
import Idealize.ShloMosaic.Lib.ValueIdx
import Idealize.ShloMosaic.Lib.Pipeline.Value
import Idealize.ShloMosaic.PureOps.Ideal.Laws
import proofs.«149233_j2104533975136_1_alg».proof.Proof.LibColumnForms
import Idealize.ShloMosaic.Lib.ValueLayout
set_option maxRecDepth 16384

noncomputable section

open Idealize.ShloMosaic Idealize.ShloMosaic.TcCoe Idealize.SL.Sem Idealize.ShloMosaic.ValueIdx
open Idealize.ShloMosaic.Pipeline (Dat)

namespace Cert.KernelIdeal.SNorm

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- Entry (r, k): (s − μ_r) / d_r · w_k + b_k. -/
def normRows (s : S200000x256.Idx → EReal) (mu dv : S200000x1.Idx → EReal) (w b : S1x256.Idx → EReal) : S200000x256.Idx → EReal :=
  fun i => Ideal.div (s i - mu (ix2 (⟨(i 0).val, (i 0).isLt⟩ : Fin 200000) (0 : Fin 1))) (dv (ix2 (⟨(i 0).val, (i 0).isLt⟩ : Fin 200000) (0 : Fin 1)))
      * w (ix2 (0 : Fin 1) (⟨(i 1).val, (i 1).isLt⟩ : Fin 256)) + b (ix2 (0 : Fin 1) (⟨(i 1).val, (i 1).isLt⟩ : Fin 256))

/-- The stored value at (p, q). -/
theorem pay_apply (x0 : Vec Ideal S4000x256 .f32) (x1 x3 : Vec Ideal S4000x1 .f32) (x5 x7 : Vec Ideal S1x256 .f32) (p : Fin 4000) (q : Fin 256) :
    k2_pay1 x0 x1 x3 x5 x7 (ix2 p q)
      = Ideal.div (x0 (ix2 p q) - x1 (ix2 p (0 : Fin 1))) (x3 (ix2 p (0 : Fin 1))) * x5 (ix2 (0 : Fin 1) q) + x7 (ix2 (0 : Fin 1) q) := by
  unfold k2_pay1
  show Ideal.div (x0 (ix2 p q) - broadcastTo S4000x256 (shapeCast S4000x1 x1 shapeCasts_S4000x1_S4000x1) broadcasts_S4000x1_S4000x256 (ix2 p q))
        (broadcastTo S4000x256 (shapeCast S4000x1 x3 shapeCasts_S4000x1_S4000x1) broadcasts_S4000x1_S4000x256 (ix2 p q))
      * broadcastTo S4000x256 (shapeCast S1x256 x5 shapeCasts_S1x256_S1x256) broadcasts_S1x256_S4000x256 (ix2 p q)
      + broadcastTo S4000x256 (shapeCast S1x256 x7 shapeCasts_S1x256_S1x256) broadcasts_S1x256_S4000x256 (ix2 p q) = _
  rw [shapeCast_self, shapeCast_self, shapeCast_self, shapeCast_self,
    Cert.ColumnForms.broadcastTo_a1_ab_apply x1 _ p q, Cert.ColumnForms.broadcastTo_a1_ab_apply x3 _ p q,
    broadcastTo_1b_ab_apply x5 _ p q, broadcastTo_1b_ab_apply x7 _ p q]

/-- The row windows move together; the weight and bias windows stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem blk_s (c : Dev nD) (t : Fin cfg2.N) (x : S4000x256.Idx) (k : S200000x256.Idx)
    (h0 : (k 0).val = 4000 * t.val + (x 0).val) (h1 : (k 1).val = (x 1).val) :
    (iblk2 V c 0 t : Vec Ideal S4000x256 .f32) x = (V c main_arg0 : S200000x256.Idx → EReal) k := by
  obtain ⟨e0, e1, -⟩ := idx_facts t
  unfold iblk2
  rw [View.read_apply]
  show V c main_arg0 _ = V c main_arg0 _
  congr 1
  funext a
  apply Fin.ext
  match a with
  | ⟨0, _⟩ => show win2_0.index t 0 * 4000 + 1 * (x 0).val = (k 0).val; rw [e0, h0]; omega
  | ⟨1, _⟩ => show win2_0.index t 1 * 256 + 1 * (x 1).val = (k 1).val; rw [e1, h1]; omega

theorem blk_mu (c : Dev nD) (t : Fin cfg2.N) (x : S4000x1.Idx) (k : S200000x1.Idx)
    (h0 : (k 0).val = 4000 * t.val + (x 0).val) (h1 : (k 1).val = (x 1).val) :
    (iblk2 V c 1 t : Vec Ideal S4000x1 .f32) x = (V c main_v36 : S200000x1.Idx → EReal) k := by
  obtain ⟨-, -, e0, e1, -⟩ := idx_facts t
  unfold iblk2
  rw [View.read_apply]
  show V c main_v36 _ = V c main_v36 _
  congr 1
  funext a
  apply Fin.ext
  match a with
  | ⟨0, _⟩ => show win2_1.index t 0 * 4000 + 1 * (x 0).val = (k 0).val; rw [e0, h0]; omega
  | ⟨1, _⟩ => show win2_1.index t 1 * 1 + 1 * (x 1).val = (k 1).val; rw [e1, h1]; omega

theorem blk_dv (c : Dev nD) (t : Fin cfg2.N) (x : S4000x1.Idx) (k : S200000x1.Idx)
    (h0 : (k 0).val = 4000 * t.val + (x 0).val) (h1 : (k 1).val = (x 1).val) :
    (iblk2 V c 2 t : Vec Ideal S4000x1 .f32) x = (V c main_v44 : S200000x1.Idx → EReal) k := by
  obtain ⟨-, -, -, -, e0, e1, -⟩ := idx_facts t
  unfold iblk2
  rw [View.read_apply]
  show V c main_v44 _ = V c main_v44 _
  congr 1
  funext a
  apply Fin.ext
  match a with
  | ⟨0, _⟩ => show win2_2.index t 0 * 4000 + 1 * (x 0).val = (k 0).val; rw [e0, h0]; omega
  | ⟨1, _⟩ => show win2_2.index t 1 * 1 + 1 * (x 1).val = (k 1).val; rw [e1, h1]; omega

theorem blk_w (c : Dev nD) (t : Fin cfg2.N) (x : S1x256.Idx) :
    (iblk2 V c 3 t : Vec Ideal S1x256 .f32) x = (V c main_v53 : S1x256.Idx → EReal) x := by
  obtain ⟨-, -, -, -, -, -, e0, e1, -⟩ := idx_facts t
  unfold iblk2
  rw [View.read_apply]
  show V c main_v53 _ = V c main_v53 _
  congr 1
  funext a
  apply Fin.ext
  match a with
  | ⟨0, _⟩ => show win2_3.index t 0 * 1 + 1 * (x 0).val = (x 0).val; rw [e0]; omega
  | ⟨1, _⟩ => show win2_3.index t 1 * 256 + 1 * (x 1).val = (x 1).val; rw [e1]; omega

theorem blk_b (c : Dev nD) (t : Fin cfg2.N) (x : S1x256.Idx) :
    (iblk2 V c 4 t : Vec Ideal S1x256 .f32) x = (V c main_v54 : S1x256.Idx → EReal) x := by
  obtain ⟨-, -, -, -, -, -, -, -, e0, e1, -⟩ := idx_facts t
  unfold iblk2
  rw [View.read_apply]
  show V c main_v54 _ = V c main_v54 _
  congr 1
  funext a
  apply Fin.ext
  match a with
  | ⟨0, _⟩ => show win2_4.index t 0 * 1 + 1 * (x 0).val = (x 0).val; rw [e0]; omega
  | ⟨1, _⟩ => show win2_4.index t 1 * 256 + 1 * (x 1).val = (x 1).val; rw [e1]; omega

/-- What point t writes back is block t of the normalised array. -/
theorem flushed_eq (c : Dev nD) (t : Fin cfg2.N) :
    (dat2 V c).flushed 5 t = ((cfg2.win 5).blk t).view.read (Elt Ideal)
      (normRows (V c main_arg0) (V c main_v36) (V c main_v44) (V c main_v53) (V c main_v54)) := by
  show (cfg2.win 5).cut (grid2.coords t) ((dat2 V c).after 5 t) = _
  rw [after2_5]
  unfold out2_5
  rw [View.canon_unit_zero hz2]
  simp only [View.ld_unit_zero (S := S4000x256) hz2, View.ld_unit_zero (S := S4000x1) hz2, View.ld_unit_zero (S := S1x256) hz2]
  obtain ⟨-, -, -, -, -, -, -, -, -, -, e0, e1⟩ := idx_facts t
  have key : ∀ y : S4000x256.Idx, k2_pay1 (iblk2 V c 0 t) (iblk2 V c 1 t) (iblk2 V c 2 t) (iblk2 V c 3 t) (iblk2 V c 4 t) y
      = normRows (V c main_arg0) (V c main_v36) (V c main_v44) (V c main_v53) (V c main_v54) (((cfg2.win 5).blk t).view.emb y) := by
    intro y
    obtain ⟨p, q, rfl⟩ : ∃ (p : Fin 4000) (q : Fin 256), y = ix2 p q := ⟨y 0, y 1, eq_ix2 y⟩
    refine (pay_apply _ _ _ _ _ p q).trans ?_
    unfold normRows
    have h0 : ((((cfg2.win 5).blk t).view.emb (ix2 p q)) 0).val = 4000 * t.val + p.val := by
      show win2_5.index t 0 * 4000 + 1 * p.val = 4000 * t.val + p.val; rw [e0]; omega
    have h1 : ((((cfg2.win 5).blk t).view.emb (ix2 p q)) 1).val = q.val := by
      show win2_5.index t 1 * 256 + 1 * q.val = q.val; rw [e1]; omega
    have hs := blk_s V c t (ix2 p q) (((cfg2.win 5).blk t).view.emb (ix2 p q)) h0 h1
    have hm := blk_mu V c t (ix2 p (0 : Fin 1))
      (ix2 (⟨((((cfg2.win 5).blk t).view.emb (ix2 p q)) 0).val, ((((cfg2.win 5).blk t).view.emb (ix2 p q)) 0).isLt⟩ : Fin 200000) (0 : Fin 1)) h0 rfl
    have hd := blk_dv V c t (ix2 p (0 : Fin 1))
      (ix2 (⟨((((cfg2.win 5).blk t).view.emb (ix2 p q)) 0).val, ((((cfg2.win 5).blk t).view.emb (ix2 p q)) 0).isLt⟩ : Fin 200000) (0 : Fin 1)) h0 rfl
    have hq : (ix2 (0 : Fin 1) q : S1x256.Idx)
        = ix2 (0 : Fin 1) (⟨((((cfg2.win 5).blk t).view.emb (ix2 p q)) 1).val, ((((cfg2.win 5).blk t).view.emb (ix2 p q)) 1).isLt⟩ : Fin 256) := by
      funext a
      apply Fin.ext
      match a with
      | ⟨0, _⟩ => rfl
      | ⟨1, _⟩ => exact h1.symm
    rw [hs, hm, hd, blk_w V c t, blk_b V c t, hq]
  funext j
  exact key j

theorem mem_blk (t : Fin cfg2.N) (i : S200000x256.Idx) :
    i ∈ ((cfg2.win 5).blk t).view.set ↔ ∀ a : Fin 2, win2_5.index t a * S4000x256.size a ≤ (i a).val ∧ (i a).val < win2_5.index t a * S4000x256.size a + S4000x256.size a := by
  show i ∈ ((View.whole main_v55).slice (win2_5.rect t)).set ↔ _
  rw [View.set_slice_whole, Rect.mem_set_unit]
  exact Iff.rfl

/-- Row r lies in the block of point r / 4000. -/
theorem cover (i : S200000x256.Idx) : ∃ t : Fin cfg2.N, (cfg2.win 5).flush t = true ∧ i ∈ ((cfg2.win 5).blk t).view.set := by
  have hi0 : (i 0).val < 200000 := (i 0).isLt
  have hi1 : (i 1).val < 256 := (i 1).isLt
  have hN : grid2.N = 50 := N_2
  have ht : (i 0).val / 4000 < grid2.N := by rw [hN]; omega
  obtain ⟨-, -, -, -, -, -, -, -, -, -, e0, e1⟩ := idx_facts ⟨(i 0).val / 4000, ht⟩
  refine ⟨⟨(i 0).val / 4000, ht⟩, flush2_5 _, ?_⟩
  rw [mem_blk]
  intro a
  match a with
  | ⟨0, _⟩ =>
    show win2_5.index ⟨(i 0).val / 4000, ht⟩ 0 * 4000 ≤ (i 0).val ∧ (i 0).val < win2_5.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win2_5.index ⟨(i 0).val / 4000, ht⟩ 1 * 256 ≤ (i 1).val ∧ (i 1).val < win2_5.index ⟨(i 0).val / 4000, ht⟩ 1 * 256 + 256
    rw [e1]; omega

/-- After the region the result array is the normalised array, whatever it held before. -/
theorem final (c : Dev nD) : (dat2 V c).arrAt 5 cfg2.N
    = normRows (V c main_arg0) (V c main_v36) (V c main_v44) (V c main_v53) (V c main_v54) :=
  (dat2 V c).arrAt_eq_of_cover 5 _ (fun t _ => flushed_eq V c t) cover

end Cert.KernelIdeal.SNorm

end
-- ==== Proof.VNorm.lean ====
/-
  The fourth region: every vector entry divided by its node's scalar.

  The region walks the 200000 nodes in 200 blocks of 1000. At a point it loads the block of the [200000, 3, 128]
  array and the matching block of the [200000, 1, 1] array of per-node scalars, and stores the quotient, the scalar
  read at the node for all 3 × 128 entries. The blocks tile the array, so after the region the result array is the
  quotient at every index.
-/
import proofs.«149233_j2104533975136_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.VNorm

open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl

/-- Entry (r, j, l) of the vector array divided by the scalar of node r. -/
def divByNode (a : S200000x3x128.Idx → EReal) (d : S200000x1x1.Idx → EReal) : S200000x3x128.Idx → EReal :=
  fun i => Ideal.div (a i) (d (ix3 (⟨(i 0).val, (i 0).isLt⟩ : Fin 200000) (0 : Fin 1) (0 : Fin 1)))

/-- The body's stored value at (p, q, l): the loaded vector entry over the loaded scalar of row p. -/
theorem pay_apply (x0 : Vec Ideal S1000x3x128 .f32) (x1 : Vec Ideal S1000x1x1 .f32) (p : Fin 1000) (q : Fin 3) (l : Fin 128) :
    k3_pay1 x0 x1 (ix3 p q l) = Ideal.div (x0 (ix3 p q l)) (x1 (ix3 p (0 : Fin 1) (0 : Fin 1))) := by
  unfold k3_pay1
  show Ideal.div (x0 (ix3 p q l)) (broadcastTo S1000x3x128 (shapeCast S1000x1x1 x1 shapeCasts_S1000x1x1_S1000x1x1) broadcasts_S1000x1x1_S1000x3x128 (ix3 p q l)) = _
  rw [shapeCast_self]
  refine congrArg (Ideal.div (x0 (ix3 p q l))) ?_
  exact broadcastTo_apply x1 _ (ix3 p q l) (ix3 p (0 : Fin 1) (0 : Fin 1)) (fun a => by
    match a with
    | ⟨0, _⟩ => rfl
    | ⟨1, _⟩ => rfl
    | ⟨2, _⟩ => rfl)

/-- The three windows move together: at point t each is at block t along the nodes and block 0 along the other axes. -/
theorem idx_facts : ∀ t : Fin cfg3.N,
    win3_0.index t (0 : Fin 3) = t.val ∧ win3_0.index t (1 : Fin 3) = 0 ∧ win3_0.index t (2 : Fin 3) = 0
    ∧ win3_1.index t (0 : Fin 3) = t.val ∧ win3_1.index t (1 : Fin 3) = 0 ∧ win3_1.index t (2 : Fin 3) = 0
    ∧ win3_2.index t (0 : Fin 3) = t.val ∧ win3_2.index t (1 : Fin 3) = 0 ∧ win3_2.index t (2 : Fin 3) = 0 :=
  (by decide +kernel : ∀ t : Fin grid3.N, _)

/-- The vector window's block at point t is rows 1000 t … 1000 t + 999 of its array. -/
theorem blk_vec (c : Dev nD) (t : Fin cfg3.N) (x : S1000x3x128.Idx) (k : S200000x3x128.Idx)
    (h0 : (k 0).val = 1000 * t.val + (x 0).val) (h1 : (k 1).val = (x 1).val) (h2 : (k 2).val = (x 2).val) :
    (iblk3 V c 0 t : Vec Ideal S1000x3x128 .f32) x = (V c main_arg1 : S200000x3x128.Idx → EReal) k := by
  obtain ⟨e0, e1, e2, -⟩ := idx_facts t
  unfold iblk3
  rw [View.read_apply]
  show V c main_arg1 _ = V c main_arg1 _
  congr 1
  funext a
  apply Fin.ext
  match a with
  | ⟨0, _⟩ => show win3_0.index t 0 * 1000 + 1 * (x 0).val = (k 0).val; rw [e0, h0]; omega
  | ⟨1, _⟩ => show win3_0.index t 1 * 3 + 1 * (x 1).val = (k 1).val; rw [e1, h1]; omega
  | ⟨2, _⟩ => show win3_0.index t 2 * 128 + 1 * (x 2).val = (k 2).val; rw [e2, h2]; omega

/-- The scalar window's block at point t is rows 1000 t … 1000 t + 999 of the per-node array. -/
theorem blk_node (c : Dev nD) (t : Fin cfg3.N) (x : S1000x1x1.Idx) (k : S200000x1x1.Idx)
    (h0 : (k 0).val = 1000 * t.val + (x 0).val) (h1 : (k 1).val = (x 1).val) (h2 : (k 2).val = (x 2).val) :
    (iblk3 V c 1 t : Vec Ideal S1000x1x1 .f32) x = (V c main_v52 : S200000x1x1.Idx → EReal) k := by
  obtain ⟨-, -, -, e0, e1, e2, -⟩ := idx_facts t
  unfold iblk3
  rw [View.read_apply]
  show V c main_v52 _ = V c main_v52 _
  congr 1
  funext a
  apply Fin.ext
  match a with
  | ⟨0, _⟩ => show win3_1.index t 0 * 1000 + 1 * (x 0).val = (k 0).val; rw [e0, h0]; omega
  | ⟨1, _⟩ => show win3_1.index t 1 * 1 + 1 * (x 1).val = (k 1).val; rw [e1, h1]; omega
  | ⟨2, _⟩ => show win3_1.index t 2 * 1 + 1 * (x 2).val = (k 2).val; rw [e2, h2]; omega

/-- What point t writes back is block t of the quotient array. -/
theorem flushed_eq (c : Dev nD) (t : Fin cfg3.N) :
    (dat3 V c).flushed 2 t = ((cfg3.win 2).blk t).view.read (Elt Ideal) (divByNode (V c main_arg1) (V c main_v52)) := by
  show (cfg3.win 2).cut (grid3.coords t) ((dat3 V c).after 2 t) = _
  rw [after3_2]
  unfold out3_2
  rw [View.canon_unit_zero hz3]
  simp only [View.ld_unit_zero (S := S1000x3x128) hz3, View.ld_unit_zero (S := S1000x1x1) hz3]
  obtain ⟨-, -, -, -, -, -, e0, e1, e2⟩ := idx_facts t
  have key : ∀ y : S1000x3x128.Idx, k3_pay1 (iblk3 V c 0 t) (iblk3 V c 1 t) y
      = divByNode (V c main_arg1) (V c main_v52) (((cfg3.win 2).blk t).view.emb y) := by
    intro y
    obtain ⟨p, q, l, rfl⟩ : ∃ (p : Fin 1000) (q : Fin 3) (l : Fin 128), y = ix3 p q l := ⟨y 0, y 1, y 2, eq_ix3 y⟩
    refine (pay_apply _ _ p q l).trans ?_
    unfold divByNode
    refine congrArg₂ Ideal.div ?_ ?_
    · refine blk_vec V c t (ix3 p q l) _ ?_ ?_ ?_
      · show win3_2.index t 0 * 1000 + 1 * p.val = 1000 * t.val + p.val; rw [e0]; omega
      · show win3_2.index t 1 * 3 + 1 * q.val = q.val; rw [e1]; omega
      · show win3_2.index t 2 * 128 + 1 * l.val = l.val; rw [e2]; omega
    · refine blk_node V c t (ix3 p (0 : Fin 1) (0 : Fin 1)) _ ?_ ?_ ?_
      · show win3_2.index t 0 * 1000 + 1 * p.val = 1000 * t.val + p.val; rw [e0]; omega
      · rfl
      · rfl
  funext j
  exact key j

/-- An index is in point t's block iff each coordinate is in the block's range on its axis. -/
theorem mem_blk (t : Fin cfg3.N) (i : S200000x3x128.Idx) :
    i ∈ ((cfg3.win 2).blk t).view.set ↔ ∀ a : Fin 3, win3_2.index t a * S1000x3x128.size a ≤ (i a).val ∧ (i a).val < win3_2.index t a * S1000x3x128.size a + S1000x3x128.size a := by
  show i ∈ ((View.whole main_v56).slice (win3_2.rect t)).set ↔ _
  rw [View.set_slice_whole, Rect.mem_set_unit]
  exact Iff.rfl

/-- Row r lies in the block of point r / 1000. -/
theorem cover (i : S200000x3x128.Idx) : ∃ t : Fin cfg3.N, (cfg3.win 2).flush t = true ∧ i ∈ ((cfg3.win 2).blk t).view.set := by
  have hi0 : (i 0).val < 200000 := (i 0).isLt
  have hi1 : (i 1).val < 3 := (i 1).isLt
  have hi2 : (i 2).val < 128 := (i 2).isLt
  have hN : grid3.N = 200 := N_3
  have ht : (i 0).val / 1000 < grid3.N := by rw [hN]; omega
  obtain ⟨-, -, -, -, -, -, e0, e1, e2⟩ := idx_facts ⟨(i 0).val / 1000, ht⟩
  refine ⟨⟨(i 0).val / 1000, ht⟩, flush3_2 _, ?_⟩
  rw [mem_blk]
  intro a
  match a with
  | ⟨0, _⟩ =>
    show win3_2.index ⟨(i 0).val / 1000, ht⟩ 0 * 1000 ≤ (i 0).val ∧ (i 0).val < win3_2.index ⟨(i 0).val / 1000, ht⟩ 0 * 1000 + 1000
    rw [e0]; show (i 0).val / 1000 * 1000 ≤ (i 0).val ∧ (i 0).val < (i 0).val / 1000 * 1000 + 1000; omega
  | ⟨1, _⟩ =>
    show win3_2.index ⟨(i 0).val / 1000, ht⟩ 1 * 3 ≤ (i 1).val ∧ (i 1).val < win3_2.index ⟨(i 0).val / 1000, ht⟩ 1 * 3 + 3
    rw [e1]; omega
  | ⟨2, _⟩ =>
    show win3_2.index ⟨(i 0).val / 1000, ht⟩ 2 * 128 ≤ (i 2).val ∧ (i 2).val < win3_2.index ⟨(i 0).val / 1000, ht⟩ 2 * 128 + 128
    rw [e2]; omega

/-- After the region the result array is the quotient array, whatever it held before. -/
theorem final (c : Dev nD) : (dat3 V c).arrAt 2 cfg3.N = divByNode (V c main_arg1) (V c main_v52) :=
  (dat3 V c).arrAt_eq_of_cover 2 _ (fun t _ => flushed_eq V c t) cover

end Cert.KernelIdeal.VNorm

end
-- ==== Proof.HostGlue.lean ====
/-
  The array operations between the second and the third region, as functions of the arrays they read.

  From the per-node means a0, the per-node means of squares a1, the per-node vector numbers b1 and the segment
  numbers: the segment count (at least one), a segment mean (segment sum over the count), the variance table
  max(mean of squares − mean², ε), the vector table max(mean, ε), each gathered back to the nodes through the
  wrapped segment numbers and viewed as a column; the weight and bias vectors viewed as rows. This module names these
  functions and reads the five buffers the last two regions take off the fold of the operations.
-/
import proofs.«149233_j2104533975136_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.HostGlue

open Cert.KernelIdeal Cert.KernelIdeal.Gen

/-- The all-zero vector the segment sums start from. -/
def zeros : FVec Ideal S2048 .f32 := broadcastInDim S2048 ![] bcast_S_S2048 (constant (F := Ideal) S_ .f32 0x00000000#32)
/-- The vector of ones whose segment sums count the nodes, and the floor 1 of the count. -/
def onesN : FVec Ideal S200000 .f32 := broadcastInDim S200000 ![] bcast_S_S200000 (constant (F := Ideal) S_ .f32 0x3F800000#32)
def onesG : FVec Ideal S2048 .f32 := broadcastInDim S2048 ![] bcast_S_S2048 (constant (F := Ideal) S_ .f32 0x3F800000#32)
/-- The floor ε of the two tables. -/
def epsG : FVec Ideal S2048 .f32 := broadcastInDim S2048 ![] bcast_S_S2048 (constant (F := Ideal) S_ .f32 0x358637BD#32)
/-- The segment numbers as a column of positions. -/
def col (batch : IVec S200000 32) : IVec S200000x1 32 := broadcastInDim S200000x1 ![0] bcast_S200000_S200000x1_0 batch
/-- Segment sums of a per-node vector. -/
def segSum (batch : IVec S200000 32) (x : FVec Ideal S200000 .f32) : FVec Ideal S2048 .f32 :=
  Host.scatterAdd scatter_S2048_S200000x1_S200000_n_0_0_1 zeros (col batch) x
/-- The segment count, at least one. -/
def cnt (batch : IVec S200000 32) : FVec Ideal S2048 .f32 := maximumf (segSum batch onesN) onesG
/-- A segment mean. -/
def segMean (batch : IVec S200000 32) (x : FVec Ideal S200000 .f32) : FVec Ideal S2048 .f32 := Host.divf (segSum batch x) (cnt batch)
/-- The segment numbers with the negative ones moved up by 2048, as a column of positions. -/
def wrapCol (batch : IVec S200000 32) : IVec S200000x1 32 :=
  col (select (cmpi .slt batch (broadcastInDim S200000 ![] bcast_S_S200000 (constantI S_ 32 0#32)))
    (addi batch (broadcastInDim S200000 ![] bcast_S_S200000 (constantI S_ 32 2048#32))) batch)
/-- A table read back at every node's segment. -/
def backToNodes (batch : IVec S200000 32) (tab : FVec Ideal S2048 .f32) : FVec Ideal S200000 .f32 :=
  Host.gather gather_S2048_S200000x1_S200000_n_0_n_n_0_1_1 tab (wrapCol batch)

/-- The segment means of the per-node means. -/
def meanTab (a0 : FVec Ideal S200000x1 .f32) (batch : IVec S200000 32) : FVec Ideal S2048 .f32 :=
  segMean batch (shapeCast S200000 a0 shapeCasts_S200000x1_S200000)
/-- The variance table. -/
def varTab (a0 a1 : FVec Ideal S200000x1 .f32) (batch : IVec S200000 32) : FVec Ideal S2048 .f32 :=
  maximumf (subf (segMean batch (shapeCast S200000 a1 shapeCasts_S200000x1_S200000)) (mulf (meanTab a0 batch) (meanTab a0 batch))) epsG
/-- The vector table. -/
def vecTab (b1 : FVec Ideal S200000x1x1 .f32) (batch : IVec S200000 32) : FVec Ideal S2048 .f32 :=
  maximumf (segMean batch (shapeCast S200000 b1 shapeCasts_S200000x1x1_S200000)) epsG

def centreCol (a0 : FVec Ideal S200000x1 .f32) (batch : IVec S200000 32) : FVec Ideal S200000x1 .f32 :=
  shapeCast S200000x1 (backToNodes batch (meanTab a0 batch)) shapeCasts_S200000_S200000x1
def varCol (a0 a1 : FVec Ideal S200000x1 .f32) (batch : IVec S200000 32) : FVec Ideal S200000x1 .f32 :=
  shapeCast S200000x1 (backToNodes batch (varTab a0 a1 batch)) shapeCasts_S200000_S200000x1
def vecCol (b1 : FVec Ideal S200000x1x1 .f32) (batch : IVec S200000 32) : FVec Ideal S200000x1x1 .f32 :=
  shapeCast S200000x1x1 (backToNodes batch (vecTab b1 batch)) shapeCasts_S200000_S200000x1x1
def asRow (w : FVec Ideal S256 .f32) : FVec Ideal S1x256 .f32 := shapeCast S1x256 w shapeCasts_S256_S1x256

variable (W : Valuation τ sig (Elt Ideal))

theorem after_v36 : StableHlo.after hostOps2 W (Proc.devRef .tc main_v36) = centreCol (W main_v0_0) (W main_arg4) := by
  after_results_simp
  rfl

theorem after_v44 : StableHlo.after hostOps2 W (Proc.devRef .tc main_v44) = varCol (W main_v0_0) (W main_v0_1) (W main_arg4) := by
  after_results_simp
  rfl

theorem after_v52 : StableHlo.after hostOps2 W (Proc.devRef .tc main_v52) = vecCol (W main_v1) (W main_arg4) := by
  after_results_simp
  rfl

theorem after_v53 : StableHlo.after hostOps2 W (Proc.devRef .tc main_v53) = asRow (W main_arg2) := by
  after_results_simp
  rfl

theorem after_v54 : StableHlo.after hostOps2 W (Proc.devRef .tc main_v54) = asRow (W main_arg3) := by
  after_results_simp
  rfl

/-- The operations write none of the argument arrays. -/
theorem after_arg0 : StableHlo.after hostOps2 W (Proc.devRef .tc main_arg0) = W main_arg0 := by
  after_results_simp

theorem after_arg1 : StableHlo.after hostOps2 W (Proc.devRef .tc main_arg1) = W main_arg1 := by
  after_results_simp

end Cert.KernelIdeal.HostGlue

end
-- ==== Proof.KValue.lean ====
/-
  The idealized kernel's two results as functions of the argument arrays.

  Region by region: the first region leaves the row means and the row means of squares of the scalar features, the
  second the per-node vector numbers; the array operations turn them into the gathered centre, variance and vector
  scale columns; the third region writes the normalised scalars and the fourth the scaled vectors. No stage writes
  an argument, so every stage reads the arguments as launched.
-/
import proofs.«149233_j2104533975136_1_alg».proof.Proof.KRun
import proofs.«149233_j2104533975136_1_alg».proof.Proof.Stats
import proofs.«149233_j2104533975136_1_alg».proof.Proof.VStats
import proofs.«149233_j2104533975136_1_alg».proof.Proof.SNorm
import proofs.«149233_j2104533975136_1_alg».proof.Proof.VNorm
import proofs.«149233_j2104533975136_1_alg».proof.Proof.HostGlue

set_option maxRecDepth 16384

noncomputable section

open Idealize.ShloMosaic Idealize.ShloMosaic.TcCoe Idealize.SL.Sem
open Idealize.ShloMosaic.Pipeline (Dat)

namespace Cert.KernelIdeal.Results

open Cert.KernelIdeal Cert.KernelIdeal.Gen

/-- The normalised scalar features, from the arguments. -/
def soutArr (s : S200000x256.Idx → EReal) (w b : S256.Idx → EReal) (batch : IVec S200000 32) : S200000x256.Idx → EReal :=
  SNorm.normRows s (HostGlue.centreCol (Stats.rowMean s) batch) (HostGlue.varCol (Stats.rowMean s) (Stats.rowSqMean s) batch)
    (HostGlue.asRow w) (HostGlue.asRow b)

/-- The scaled vector features, from the arguments. -/
def voutArr (v : S200000x3x128.Idx → EReal) (batch : IVec S200000 32) : S200000x3x128.Idx → EReal :=
  VNorm.divByNode v (HostGlue.vecCol (VStats.nodeSq v) batch)

variable (m : (ℓ : Loc nD τ sig) → Buf (Elt Ideal) ℓ) (ρ : Dev nD → PrngReg)

/-! ## After the first region -/

theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_mean (c : Dev nD) : W1 m ρ c (Proc.devRef .tc main_v0_0) = Stats.rowMean (m ((c : Thread nD τ).loc main_arg0)) :=
  (W1_arr m ρ c 1).trans (Stats.final_mean (V0 m ρ) c)
theorem W1_sqmean (c : Dev nD) : W1 m ρ c (Proc.devRef .tc main_v0_1) = Stats.rowSqMean (m ((c : Thread nD τ).loc main_arg0)) :=
  (W1_arr m ρ c 2).trans (Stats.final_sqmean (V0 m ρ) c)

/-! ## After the second region -/

theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  (W2_arr m ρ c 0).trans (((dat1 (V1 m ρ) c).arrAt_in 0 rfl _).trans ((A_eq1 (V1 m ρ) c 0).trans (W1_arg1 m ρ c)))
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_mean (c : Dev nD) : W2 m ρ c (Proc.devRef .tc main_v0_0) = Stats.rowMean (m ((c : Thread nD τ).loc main_arg0)) :=
  (W2_of_ne m ρ c main_v0_0 (by decide)).trans (W1_mean m ρ c)
theorem W2_sqmean (c : Dev nD) : W2 m ρ c (Proc.devRef .tc main_v0_1) = Stats.rowSqMean (m ((c : Thread nD τ).loc main_arg0)) :=
  (W2_of_ne m ρ c main_v0_1 (by decide)).trans (W1_sqmean m ρ c)
theorem W2_nodeSq (c : Dev nD) : W2 m ρ c (Proc.devRef .tc main_v1) = VStats.nodeSq (m ((c : Thread nD τ).loc main_arg1)) :=
  (W2_arr m ρ c 1).trans ((VStats.final (V1 m ρ) c).trans (congrArg VStats.nodeSq (W1_arg1 m ρ c)))

/-! ## After the array operations -/

theorem W3_arg0 (c : Dev nD) : W3 m ρ c (Proc.devRef .tc main_arg0) = m ((c : Thread nD τ).loc main_arg0) :=
  (HostGlue.after_arg0 (W2 m ρ c)).trans (W2_arg0 m ρ c)
theorem W3_arg1 (c : Dev nD) : W3 m ρ c (Proc.devRef .tc main_arg1) = m ((c : Thread nD τ).loc main_arg1) :=
  (HostGlue.after_arg1 (W2 m ρ c)).trans (W2_arg1 m ρ c)
theorem W3_centre (c : Dev nD) : W3 m ρ c (Proc.devRef .tc main_v36)
    = HostGlue.centreCol (Stats.rowMean (m ((c : Thread nD τ).loc main_arg0))) (m ((c : Thread nD τ).loc main_arg4)) :=
  (HostGlue.after_v36 (W2 m ρ c)).trans (by rw [W2_mean m ρ c, W2_arg4 m ρ c])
theorem W3_var (c : Dev nD) : W3 m ρ c (Proc.devRef .tc main_v44)
    = HostGlue.varCol (Stats.rowMean (m ((c : Thread nD τ).loc main_arg0))) (Stats.rowSqMean (m ((c : Thread nD τ).loc main_arg0))) (m ((c : Thread nD τ).loc main_arg4)) :=
  (HostGlue.after_v44 (W2 m ρ c)).trans (by rw [W2_mean m ρ c, W2_sqmean m ρ c, W2_arg4 m ρ c])
theorem W3_vec (c : Dev nD) : W3 m ρ c (Proc.devRef .tc main_v52)
    = HostGlue.vecCol (VStats.nodeSq (m ((c : Thread nD τ).loc main_arg1))) (m ((c : Thread nD τ).loc main_arg4)) :=
  (HostGlue.after_v52 (W2 m ρ c)).trans (by rw [W2_nodeSq m ρ c, W2_arg4 m ρ c])
theorem W3_weight (c : Dev nD) : W3 m ρ c (Proc.devRef .tc main_v53) = HostGlue.asRow (m ((c : Thread nD τ).loc main_arg2)) :=
  (HostGlue.after_v53 (W2 m ρ c)).trans (by rw [W2_arg2 m ρ c])
theorem W3_bias (c : Dev nD) : W3 m ρ c (Proc.devRef .tc main_v54) = HostGlue.asRow (m ((c : Thread nD τ).loc main_arg3)) :=
  (HostGlue.after_v54 (W2 m ρ c)).trans (by rw [W2_arg3 m ρ c])

/-! ## After the third and the fourth region -/

theorem W4_sout (c : Dev nD) : W4 m ρ c (Proc.devRef .tc main_v55)
    = soutArr (m ((c : Thread nD τ).loc main_arg0)) (m ((c : Thread nD τ).loc main_arg2)) (m ((c : Thread nD τ).loc main_arg3)) (m ((c : Thread nD τ).loc main_arg4)) := by
  refine (W4_arr m ρ c 5).trans ((SNorm.final (V3 m ρ) c).trans ?_)
  show SNorm.normRows (W3 m ρ c (Proc.devRef .tc main_arg0)) (W3 m ρ c (Proc.devRef .tc main_v36)) (W3 m ρ c (Proc.devRef .tc main_v44))
    (W3 m ρ c (Proc.devRef .tc main_v53)) (W3 m ρ c (Proc.devRef .tc main_v54)) = _
  rw [W3_arg0 m ρ c, W3_centre m ρ c, W3_var m ρ c, W3_weight m ρ c, W3_bias m ρ c]
  rfl

theorem W4_arg1 (c : Dev nD) : W4 m ρ c (Proc.devRef .tc main_arg1) = m ((c : Thread nD τ).loc main_arg1) :=
  (W4_of_ne m ρ c main_arg1 (by decide)).trans (W3_arg1 m ρ c)
theorem W4_vec (c : Dev nD) : W4 m ρ c (Proc.devRef .tc main_v52)
    = HostGlue.vecCol (VStats.nodeSq (m ((c : Thread nD τ).loc main_arg1))) (m ((c : Thread nD τ).loc main_arg4)) :=
  (W4_of_ne m ρ c main_v52 (by decide)).trans (W3_vec m ρ c)

theorem W5_sout (c : Dev nD) : W5 m ρ c (Proc.devRef .tc main_v55)
    = soutArr (m ((c : Thread nD τ).loc main_arg0)) (m ((c : Thread nD τ).loc main_arg2)) (m ((c : Thread nD τ).loc main_arg3)) (m ((c : Thread nD τ).loc main_arg4)) :=
  (W5_of_ne m ρ c main_v55 (by decide)).trans (W4_sout m ρ c)

theorem W5_vout (c : Dev nD) : W5 m ρ c (Proc.devRef .tc main_v56)
    = voutArr (m ((c : Thread nD τ).loc main_arg1)) (m ((c : Thread nD τ).loc main_arg4)) := by
  refine (W5_arr m ρ c 2).trans ((VNorm.final (V4 m ρ) c).trans ?_)
  show VNorm.divByNode (W4 m ρ c (Proc.devRef .tc main_arg1)) (W4 m ρ c (Proc.devRef .tc main_v52)) = _
  rw [W4_arg1 m ρ c, W4_vec m ρ c]
  rfl

/-- The run: both results at their functions of the arguments, the arguments unchanged. -/
theorem run_values : θ_run defs (onTc (τ := τ) (main (F := Ideal))) ⟨m, fun _ => 0, ρ⟩ (fun r => ∀ c : Dev nD,
      r.2.mem ((c.tc : Thread nD τ).loc main_v55) = soutArr (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v56) = voutArr (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W5_sout m ρ c), (h c).2.1.trans (W5_vout m ρ c), (h c).2.2⟩)
    (run_results m ρ)

end Cert.KernelIdeal.Results

end
-- ==== Proof.SegVariance.lean ====
import Mathlib.Tactic
import Idealize.ShloMosaic.PureOps.Ideal
noncomputable section
open scoped BigOperators
namespace Cert.SegVariance
open Idealize.ShloMosaic

/-! # Variance over a segment: mean of squared deviations = mean of squares − square of the mean

All quantities are extended reals that happen to be finite; the "mean over a segment" divides
by max(count, 1), so that an empty segment gives 0 everywhere. -/

/-- A finite sum of coerced reals is the coercion of the real sum. -/
theorem coe_sum {α : Type} (S : Finset α) (f : α → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The clamped count max(∑ 1, 1) is the real number max(|S|, 1). -/
theorem count_real {ι : Type} (S : Finset ι) :
    max (∑ _e ∈ S, (1 : EReal)) 1 = ((max (S.card : ℝ) 1 : ℝ) : EReal) := by
  have h : ∑ _e ∈ S, (1 : EReal) = ((S.card : ℝ) : EReal) := by
    have h1 := coe_sum S (fun _ => (1 : ℝ))
    have h2 : (∑ _i ∈ S, (1 : ℝ)) = (S.card : ℝ) := by simp
    rw [h2] at h1
    exact h1
  rw [h, EReal.coe_strictMono.monotone.map_max, EReal.coe_one]

/-- The clamped count is at least one, hence nonzero. -/
theorem count_ne_zero {ι : Type} (S : Finset ι) : max (S.card : ℝ) 1 ≠ 0 := by
  have : (1 : ℝ) ≤ max (S.card : ℝ) 1 := le_max_right _ _
  linarith

/-- Dividing a finite value by a nonzero finite value is real division. -/
theorem div_coe_coe (a : ℝ) {y : ℝ} (h : y ≠ 0) :
    Ideal.div (a : EReal) (y : EReal) = ((a / y : ℝ) : EReal) := by
  rw [Ideal.div_coe h, ← EReal.coe_mul, mul_one_div]

/-- The identity over the reals. With a e, q e the row means of x and of x², the row mean
of (x - m)² is q e - 2 m a e + m²; summing over the segment and dividing by the clamped count
c, the cross term is -2 m² and the last term is (|S| / c) m², which is m² both for a
nonempty segment (c = |S|) and for an empty one (m = 0). -/
theorem real_identity {ι κ : Type} [Fintype κ] (S : Finset ι) (x : ι → κ → ℝ) (D : ℝ)
    (hD : (Fintype.card κ : ℝ) = D) (hD0 : D ≠ 0) (c m : ℝ) (hc : c = max (S.card : ℝ) 1)
    (hm : m = (∑ e ∈ S, (∑ k, x e k) / D) / c) :
    (∑ e ∈ S, (∑ k, (x e k - m) * (x e k - m)) / D) / c
      = (∑ e ∈ S, (∑ k, x e k * x e k) / D) / c - m * m := by
  have hpt : ∀ e, (∑ k, (x e k - m) * (x e k - m)) / D
      = (∑ k, x e k * x e k) / D - 2 * m * ((∑ k, x e k) / D) + m * m := by
    intro e
    have h1 : ∑ k, (x e k - m) * (x e k - m)
        = ∑ k, x e k * x e k - 2 * m * ∑ k, x e k + D * (m * m) := by
      have h2 : ∀ k, (x e k - m) * (x e k - m) = x e k * x e k - 2 * m * x e k + m * m :=
        fun k => by ring
      simp only [h2, Finset.sum_add_distrib, Finset.sum_sub_distrib, ← Finset.mul_sum,
        Finset.sum_const, Finset.card_univ, nsmul_eq_mul, hD]
      ring
    rw [h1]; field_simp
  simp only [hpt, Finset.sum_add_distrib, Finset.sum_sub_distrib, ← Finset.mul_sum,
    Finset.sum_const, nsmul_eq_mul]
  rcases S.eq_empty_or_nonempty with hS | hS
  · subst hS
    have hm0 : m = 0 := by rw [hm]; simp
    simp [hm0]
  · have hcard : (1 : ℝ) ≤ (S.card : ℝ) := by exact_mod_cast hS.card_pos
    have hc' : c = (S.card : ℝ) := by rw [hc, max_eq_left hcard]
    have hne : (S.card : ℝ) ≠ 0 := by linarith
    rw [hm, hc']; field_simp; ring

variable {ι κ : Type} [Fintype κ] [DecidableEq ι]

/-- The mean over a segment of finite values is finite. -/
theorem segment_mean_real (S : Finset ι) (s : ι → κ → EReal)
    (hs : ∀ e k, ∃ x : ℝ, s e k = (x : EReal)) (D : ℝ) (hD0 : D ≠ 0)
    (cnt : EReal) (hcnt : cnt = max (∑ _e ∈ S, (1 : EReal)) 1) :
    ∃ y : ℝ, Ideal.div (∑ e ∈ S, Ideal.div (∑ k, s e k) (D : EReal)) cnt = (y : EReal) := by
  choose x hx using hs
  refine ⟨(∑ e ∈ S, (∑ k, x e k) / D) / max (S.card : ℝ) 1, ?_⟩
  have h1 : ∀ e, Ideal.div (∑ k, s e k) (D : EReal) = (((∑ k, x e k) / D : ℝ) : EReal) := by
    intro e
    simp only [hx]
    rw [coe_sum, div_coe_coe _ hD0]
  simp only [h1]
  rw [coe_sum, hcnt, count_real, div_coe_coe _ (count_ne_zero S)]

/-- Mean of the squared deviations from the segment mean = mean of the squares − (mean)². -/
theorem segment_variance (S : Finset ι) (s : ι → κ → EReal)
    (hs : ∀ e k, ∃ x : ℝ, s e k = (x : EReal)) (D : ℝ) (hD : (Fintype.card κ : ℝ) = D) (hD0 : D ≠ 0)
    (cnt μ : EReal) (hcnt : cnt = max (∑ _e ∈ S, (1 : EReal)) 1)
    (hμ : μ = Ideal.div (∑ e ∈ S, Ideal.div (∑ k, s e k) (D : EReal)) cnt) :
    Ideal.div (∑ e ∈ S, Ideal.div (∑ k, (s e k - μ) * (s e k - μ)) (D : EReal)) cnt
      = Ideal.div (∑ e ∈ S, Ideal.div (∑ k, s e k * s e k) (D : EReal)) cnt - μ * μ := by
  choose x hx using hs
  set c : ℝ := max (S.card : ℝ) 1 with hc
  have hc0 : c ≠ 0 := count_ne_zero S
  have hcnt' : cnt = (c : EReal) := by rw [hcnt, count_real]
  set m : ℝ := (∑ e ∈ S, (∑ k, x e k) / D) / c with hm
  have ha : ∀ e, Ideal.div (∑ k, s e k) (D : EReal) = (((∑ k, x e k) / D : ℝ) : EReal) := by
    intro e
    simp only [hx]
    rw [coe_sum, div_coe_coe _ hD0]
  have hμ' : μ = (m : EReal) := by
    rw [hμ, hcnt']
    simp only [ha]
    rw [coe_sum, div_coe_coe _ hc0]
  have hq : ∀ e, Ideal.div (∑ k, s e k * s e k) (D : EReal)
      = (((∑ k, x e k * x e k) / D : ℝ) : EReal) := by
    intro e
    simp only [hx, ← EReal.coe_mul]
    rw [coe_sum, div_coe_coe _ hD0]
  have hv : ∀ e, Ideal.div (∑ k, (s e k - μ) * (s e k - μ)) (D : EReal)
      = (((∑ k, (x e k - m) * (x e k - m)) / D : ℝ) : EReal) := by
    intro e
    simp only [hx, hμ', ← EReal.coe_sub, ← EReal.coe_mul]
    rw [coe_sum, div_coe_coe _ hD0]
  simp only [hq, hv]
  rw [coe_sum, coe_sum, hcnt', div_coe_coe _ hc0, div_coe_coe _ hc0, hμ', ← EReal.coe_mul,
    ← EReal.coe_sub, real_identity S x D hD hD0 c m hc hm]

end Cert.SegVariance
-- ==== Proof.LibSegmentScale.lean ====
/-
  Messages sent along the edges of a graph and summed at their target nodes, with a factor per node — over the extended reals.

  Node `r` carries a feature row `H[r, ·]` and a factor `D r`. Every edge `k` names a source node and a target node by
  two integer words. The message of edge `k` is the source's row; the value at node `c` is the sum of the messages of the
  edges whose target is `c`. A symmetric normalisation weighs edge `k`'s message by `D (source k) · D (target k)`.
  It can be applied edge by edge, or split: every row scaled by its own node's factor BEFORE it is sent, and every
  sum scaled by the target node's factor AFTER it is formed. The two agree because every edge summed at `c` has target
  `c`, so the second factor is the same in every term and moves out of the sum — which on the extended reals is sound
  for a factor that is a nonnegative finite number (`sum_mul_of_nonneg_ne_top`), whatever the terms are.

  The array operations that spell this: a gather of rows at clamped start indices (`rowsGather`), a gather of
  entries (`entryGather`), and a scatter that adds each update row at the row its start index names and drops it
  when that row does not exist (`rowsScatter`); each is read here at an index given by coordinates.
  Last, the factor itself when it is the inverse square root of a count guarded against zero: nonnegative and finite.
-/
import Idealize.ShloMosaic.PureOps.Ideal
import Idealize.ShloMosaic.PureOps.Ideal.Laws
import Idealize.ShloMosaic.Lib.ValueIdx

noncomputable section

namespace Cert.SegmentScale

open Idealize.ShloMosaic Idealize.ShloMosaic.ValueIdx

/-! ## A nonnegative finite factor moves out of a sum of extended reals -/

/-- `(∑ a j) · d = ∑ (a j · d)` when `0 ≤ d < ⊤`: right distributivity holds for such a factor whatever the two
    summands are (an infinite summand times `d` keeps its sign, or vanishes with `d`), hence for every finite sum. -/
theorem sum_mul_of_nonneg_ne_top {ι : Type*} (s : Finset ι) (a : ι → EReal) {d : EReal} (h0 : 0 ≤ d) (ht : d ≠ ⊤) :
    (∑ j ∈ s, a j) * d = ∑ j ∈ s, a j * d := by
  classical
  induction s using Finset.induction_on with
  | empty => simp
  | insert j s hj ih =>
    rw [Finset.sum_insert hj, Finset.sum_insert hj, EReal.right_distrib_of_nonneg_of_ne_top h0 ht, ih]

/-! ## The inverse square root of a count, guarded against zero, is a nonnegative finite number -/

/-- `if 0 < v then 1/√v else 0` on the extended reals: at `v = ⊤` the inverse root is `0`, at a positive real it is a
    positive real, and otherwise the guard answers `0`. -/
theorem guardedRsqrt_nonneg_ne_top (v : EReal) :
    (0 : EReal) ≤ Scalar.select (Ideal.cmp .ogt v 0) (Ideal.rsqrt v) 0
      ∧ Scalar.select (Ideal.cmp .ogt v 0) (Ideal.rsqrt v) 0 ≠ (⊤ : EReal) := by
  unfold Scalar.select Ideal.cmp
  by_cases h : (0 : EReal) < v
  · have hb : BitVec.ofBool (decide ((0 : EReal) < v)) = 1 := by rw [decide_eq_true h]; rfl
    rw [if_pos hb]
    induction v using EReal.rec with
    | bot => exact absurd h (by simp)
    | top => exact ⟨le_refl _, by simp⟩
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have hb : ¬ BitVec.ofBool (decide ((0 : EReal) < v)) = 1 := by rw [decide_eq_false h]; decide
    rw [if_neg hb]
    exact ⟨le_refl _, by simp⟩

/-- The same for a whole vector of counts as the array operations spell it: compare with a zero vector, take the
    host's inverse square root, select it or a zero. -/
theorem guardedRsqrt_vec {s : Shape} (deg z z' : FVec Ideal s .f32) (hz : ∀ k, z k = (0 : EReal)) (hz' : ∀ k, z' k = (0 : EReal))
    (k : s.Idx) :
    (0 : EReal) ≤ select (cmpf .ogt deg z) (Host.rsqrt deg) z' k ∧ select (cmpf .ogt deg z) (Host.rsqrt deg) z' k ≠ (⊤ : EReal) := by
  have e : select (cmpf .ogt deg z) (Host.rsqrt deg) z' k = Scalar.select (Ideal.cmp .ogt (deg k) 0) (Ideal.rsqrt (deg k)) 0 := by
    show Scalar.select (Ideal.cmp .ogt (deg k) (z k)) (Ideal.rsqrt (deg k)) (z' k) = _
    rw [hz k, hz' k]
  rw [e]
  exact guardedRsqrt_nonneg_ne_top (deg k)

/-! ## Coordinates of edges and nodes -/

section Dims
variable {n e f : ℕ}

/-- The node (row) coordinate of an index of an `[n, f]` array. -/
def nodeOf (p : (⟨2, ![n, f]⟩ : Shape).Idx) : Fin n := ⟨(p 0).val, idx2_lt0 p⟩
/-- The feature (column) coordinate of an index of an `[a, f]` array. -/
def featOf {a : ℕ} (p : (⟨2, ![a, f]⟩ : Shape).Idx) : Fin f := ⟨(p 1).val, idx2_lt1 p⟩
/-- The edge (row) coordinate of an index of an `[e, f]` array of messages. -/
def edgeOf (j : (⟨2, ![e, f]⟩ : Shape).Idx) : Fin e := ⟨(j 0).val, idx2_lt0 j⟩
/-- Where edge `k`'s one start-index word sits in the `[e, 1]` array of start indices. -/
abbrev edgeIdx (k : Fin e) : (⟨2, ![e, 1]⟩ : Shape).Idx := ix2 k (0 : Fin 1)

theorem nodeOf_ix2 (r : Fin n) (q : Fin f) : nodeOf (ix2 r q) = r := rfl
theorem featOf_ix2 {a : ℕ} (r : Fin a) (q : Fin f) : featOf (ix2 r q) = q := rfl
theorem eq_ix2_node_feat (p : (⟨2, ![n, f]⟩ : Shape).Idx) : p = ix2 (nodeOf p) (featOf p) := by
  funext a; match a with | ⟨0, _⟩ => rfl | ⟨1, _⟩ => rfl

/-- A start-index word read as a signed integer and clamped into `[0, n − 1]`: the node a gather reads. -/
def clampNode {w : ℕ} (hn : 0 < n) (v : BitVec w) : Fin n := ⟨min v.toInt.toNat (n - 1), by omega⟩

/-- A word whose signed value is a node's number clamps to that node. -/
theorem clampNode_of_toInt {w : ℕ} (hn : 0 < n) (v : BitVec w) (c : Fin n) (h : v.toInt = (c.val : ℤ)) : clampNode hn v = c := by
  apply Fin.ext
  show min v.toInt.toNat (n - 1) = c.val
  rw [h, Int.toNat_natCast]
  have := c.isLt
  omega

/-! ## The three array operations' dimension numbers -/

/-- Rows of an `[n, f]` array gathered at `[e, 1]` start indices into `[e, f]`: row `k` of the result is the operand's row
    at the clamped start index of `k`. -/
abbrev rowsGather (wf : GatherDims.WF ⟨2, ![n, f]⟩ ⟨2, ![e, 1]⟩ ⟨2, ![e, f]⟩ [1] [0] [] [0] [] 1 ![1, f]) :
    GatherDims ⟨2, ![n, f]⟩ ⟨2, ![e, 1]⟩ ⟨2, ![e, f]⟩ where
  offsetDims := [1]
  collapsedSliceDims := [0]
  operandBatchingDims := []
  startIndicesBatchingDims := []
  startIndexMap := [0]
  indexVectorDim := 1
  sliceSizes := ![1, f]
  wf := wf

/-- Entries of an `[n]` array gathered at `[e, 1]` start indices into `[e]`. -/
abbrev entryGather (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- Rows of an `[e, f]` array of updates added into an `[n, f]` array at the rows `[e, 1]` start indices name. -/
abbrev rowsScatter (wf : ScatterDims.WF ⟨2, ![n, f]⟩ ⟨2, ![e, 1]⟩ ⟨2, ![e, f]⟩ [1] [0] [0] 1) :
    ScatterDims ⟨2, ![n, f]⟩ ⟨2, ![e, 1]⟩ ⟨2, ![e, f]⟩ where
  updateWindowDims := [1]
  insertedWindowDims := [0]
  scatterDimsToOperandDims := [0]
  indexVectorDim := 1
  wf := wf

/-! ## The gathers read at an index -/

/-- THE ROW GATHER AT `(k, q)`: the operand at the clamped start index of edge `k`, column `q`. -/
theorem rowsGather_apply {α : Type} {w : ℕ} (hn : 0 < n)
    (wf : GatherDims.WF ⟨2, ![n, f]⟩ ⟨2, ![e, 1]⟩ ⟨2, ![e, f]⟩ [1] [0] [] [0] [] 1 ![1, f])
    (X : (⟨2, ![n, f]⟩ : Shape).Idx → α) (idx : IVec ⟨2, ![e, 1]⟩ w) (j : (⟨2, ![e, f]⟩ : Shape).Idx) :
    Host.gather (rowsGather wf) X idx j = X (ix2 (clampNode hn (idx (edgeIdx (edgeOf j)))) (featOf j)) := by
  unfold Host.gather
  congr 1
  funext a
  refine Fin.ext ?_
  have hsi : (rowsGather wf).siIdx j ⟨List.idxOf (0 : Fin 2) (rowsGather wf).startIndexMap,
      List.idxOf_lt_length_iff.2 (List.mem_singleton.mpr rfl)⟩ = edgeIdx (edgeOf j) := by
    funext b; refine Fin.ext ?_
    match b with
    | ⟨0, _⟩ => rfl
    | ⟨1, _⟩ => rfl
  match a with
  | ⟨0, _⟩ =>
    show (rowsGather wf).start j idx 0 + (rowsGather wf).batchCoord j 0 + (rowsGather wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather wf).startIndexMap from List.mem_singleton.mpr rfl), hsi]
    rfl
  | ⟨1, _⟩ =>
    show (rowsGather wf).start j idx 1 + (rowsGather wf).batchCoord j 1 + (rowsGather wf).offCoord j 1 = (j 1).val
    rw [GatherDims.batchCoord_eq_zero _ _ _ List.not_mem_nil]
    unfold GatherDims.start
    rw [dif_neg (show (1 : Fin 2) ∉ (rowsGather wf).startIndexMap from fun h => Nat.one_ne_zero (congrArg Fin.val (List.mem_singleton.mp h)))]
    unfold GatherDims.offCoord
    rw [dif_pos (show (1 : Fin 2) ∈ (rowsGather wf).sKept from (GatherDims.mem_sKept _ _).mpr
      ⟨fun h => Nat.one_ne_zero (congrArg Fin.val (List.mem_singleton.mp h)), List.not_mem_nil⟩)]
    simp only [Nat.zero_add, Nat.add_zero]
    rfl

/-- THE ENTRY GATHER AT `k`: the operand at the clamped start index of edge `k`. -/
theorem entryGather_apply {α : Type} {w : ℕ} (hn : 0 < n)
    (wf : GatherDims.WF ⟨1, ![n]⟩ ⟨2, ![e, 1]⟩ ⟨1, ![e]⟩ [] [0] [] [0] [] 1 ![1])
    (D : (⟨1, ![n]⟩ : Shape).Idx → α) (idx : IVec ⟨2, ![e, 1]⟩ w) (k : Fin e) :
    Host.gather (entryGather wf) D idx (ix1 k) = D (ix1 (clampNode hn (idx (edgeIdx k)))) := by
  unfold Host.gather
  congr 1
  funext a
  obtain rfl : a = 0 := Subsingleton.elim _ _
  refine Fin.ext ?_
  show (entryGather wf).start (ix1 k) idx 0 + (entryGather wf).batchCoord (ix1 k) 0 + (entryGather wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather wf).startIndexMap from List.mem_singleton.mpr rfl)]
  have hsi : (entryGather wf).siIdx (ix1 k) ⟨List.idxOf (0 : Fin 1) (entryGather wf).startIndexMap,
      List.idxOf_lt_length_iff.2 (List.mem_singleton.mpr rfl)⟩ = edgeIdx k := by
    funext b; refine Fin.ext ?_
    match b with
    | ⟨0, _⟩ => rfl
    | ⟨1, _⟩ => rfl
  rw [hsi]
  rfl

/-! ## Where the scatter puts an update row -/

/-- An update of edge `j`'s row that lands at index `i` lands on the row its start-index word names: the word, read
    signed, IS row `i`'s number (in particular it is not negative and is below `n`; otherwise the update is dropped). -/
theorem rowsScatter_some {w : ℕ} (wf : ScatterDims.WF ⟨2, ![n, f]⟩ ⟨2, ![e, 1]⟩ ⟨2, ![e, f]⟩ [1] [0] [0] 1)
    (idx : IVec ⟨2, ![e, 1]⟩ w) (j : (⟨2, ![e, f]⟩ : Shape).Idx) (i : (⟨2, ![n, f]⟩ : Shape).Idx)
    (h : (rowsScatter wf).resultIdx? j idx = some i) : (idx (edgeIdx (edgeOf j))).toInt = ((nodeOf i).val : ℤ) := by
  have hsi : (rowsScatter wf).siIdx j ⟨List.idxOf (0 : Fin 2) (rowsScatter wf).scatterDimsToOperandDims,
      List.idxOf_lt_length_iff.2 (List.mem_singleton.mpr rfl)⟩ = edgeIdx (edgeOf j) := by
    funext b; refine Fin.ext ?_
    match b with
    | ⟨0, _⟩ => rfl
    | ⟨1, _⟩ => rfl
  have hstart : (rowsScatter wf).start j idx 0 = (idx (edgeIdx (edgeOf j))).toInt := by
    unfold ScatterDims.start
    rw [dif_pos (show (0 : Fin 2) ∈ (rowsScatter wf).scatterDimsToOperandDims from List.mem_singleton.mpr rfl), hsi]
  have hwin : (rowsScatter wf).window j 0 = 0 := by
    unfold ScatterDims.window
    rw [dif_neg (show (0 : Fin 2) ∉ (rowsScatter wf).sKept from fun h => by
      have h2 := (List.mem_filter.mp h).2
      simp at h2)]
  unfold ScatterDims.resultIdx? at h
  split at h
  · rename_i hh
    have hi := Option.some.inj h
    have h0 := (hh 0).1
    rw [hstart, hwin] at h0
    subst hi
    show (idx (edgeIdx (edgeOf j))).toInt = (((rowsScatter wf).start j idx 0 + ((rowsScatter wf).window j 0 : ℕ)).toNat : ℤ)
    rw [hstart, hwin]
    simp only [Nat.cast_zero, add_zero] at h0 ⊢
    exact (Int.toNat_of_nonneg h0).symm
  · exact absurd h (by simp)

/-! ## Scaling before the messages are sent and after they are summed, against scaling edge by edge -/

/-- THE NORMALISATION SPLIT. `H` the nodes' rows, `D` a nonnegative finite factor per node, `Z` a zero array to add into.
    Left: rows scaled by their own node's factor, gathered at the sources, summed at the targets, the sum at node
    `c` scaled by `D c`. Right: rows gathered at the sources, each edge's row scaled by the product of the factor gathered
    at its source and the factor gathered at its target — the target read through start indices `colIN` that agree
    with the scatter's `colI` wherever the latter is not negative —, then summed at the targets. Equal at every index:
    an edge summed at `c` has the word `c` as its target, which is not negative, so both readings of its target are
    `c`, the second factor is `D c` in every term, and it moves out of the sum. -/
theorem scale_split (hn : 0 < n)
    (ws : ScatterDims.WF ⟨2, ![n, f]⟩ ⟨2, ![e, 1]⟩ ⟨2, ![e, f]⟩ [1] [0] [0] 1)
    (wg : GatherDims.WF ⟨2, ![n, f]⟩ ⟨2, ![e, 1]⟩ ⟨2, ![e, f]⟩ [1] [0] [] [0] [] 1 ![1, f])
    (we : GatherDims.WF ⟨1, ![n]⟩ ⟨2, ![e, 1]⟩ ⟨1, ![e]⟩ [] [0] [] [0] [] 1 ![1])
    (H Z : FVec Ideal ⟨2, ![n, f]⟩ .f32) (D : FVec Ideal ⟨1, ![n]⟩ .f32) (rowI colI colIN : IVec ⟨2, ![e, 1]⟩ 32)
    (hZ : ∀ i, Z i = (0 : EReal)) (hD : ∀ k, (0 : EReal) ≤ D k ∧ D k ≠ (⊤ : EReal))
    (hN : ∀ k : Fin e, 0 ≤ (colI (edgeIdx k)).toInt → colIN (edgeIdx k) = colI (edgeIdx k))
    (i : (⟨2, ![n, f]⟩ : Shape).Idx) :
    (Host.scatterAdd (F := Ideal) (rowsScatter ws) Z colI
        (Host.gather (rowsGather wg) (fun p => (H p * D (ix1 (nodeOf p)) : EReal)) rowI) i : EReal) * D (ix1 (nodeOf i))
      = Host.scatterAdd (F := Ideal) (rowsScatter ws) Z colI
          (fun j => (Host.gather (rowsGather wg) H rowI j
            * (Host.gather (entryGather we) D rowI (ix1 (edgeOf j)) * Host.gather (entryGather we) D colIN (ix1 (edgeOf j))) : EReal)) i := by
  show ((Z i + ∑ j ∈ Finset.univ.filter (fun j => (rowsScatter ws).resultIdx? j colI = some i),
          Host.gather (rowsGather wg) (fun p => (H p * D (ix1 (nodeOf p)) : EReal)) rowI j : EReal)) * D (ix1 (nodeOf i))
      = Z i + ∑ j ∈ Finset.univ.filter (fun j => (rowsScatter ws).resultIdx? j colI = some i),
          (Host.gather (rowsGather wg) H rowI j
            * (Host.gather (entryGather we) D rowI (ix1 (edgeOf j)) * Host.gather (entryGather we) D colIN (ix1 (edgeOf j))) : EReal)
  rw [hZ i, zero_add, zero_add, sum_mul_of_nonneg_ne_top _ _ (hD _).1 (hD _).2]
  refine Finset.sum_congr rfl fun j hj => ?_
  have hj' : (rowsScatter ws).resultIdx? j colI = some i := (Finset.mem_filter.mp hj).2
  have ht := rowsScatter_some ws colI j i hj'
  have hnn : 0 ≤ (colI (edgeIdx (edgeOf j))).toInt := by rw [ht]; exact Int.natCast_nonneg _
  rw [rowsGather_apply hn wg, rowsGather_apply hn wg, entryGather_apply hn we, entryGather_apply hn we,
    hN (edgeOf j) hnn, clampNode_of_toInt hn _ (nodeOf i) ht, nodeOf_ix2]
  exact mul_assoc _ _ _

end Dims

end Cert.SegmentScale

end
-- ==== Proof.Spec.lean ====
/-
  Per-segment statistics over the extended reals, and the identity that joins the two programs.

  200000 nodes carry a segment number each (a 32-bit word; a node belongs to segment g < 2048 when its word, read as a
  signed integer, is g; other words belong to no segment). A segment's count is its number of nodes, at least one; a
  segment mean of a per-node quantity is the sum over the segment's nodes divided by the count. A node looks a table up
  at its own word, a negative word first moved up by 2048, clamped into [0, 2047]: for a node of segment g that is g.

  For real-valued features the segment mean of the per-node mean squared deviation from the segment's mean equals the
  segment mean of the per-node mean squares minus the squared segment mean.
-/
import Mathlib.Tactic
import Idealize.ShloMosaic.PureOps.Ideal
import Idealize.ShloMosaic.Lib.ValueIdx
import proofs.«149233_j2104533975136_1_alg».proof.Proof.SegVariance
import proofs.«149233_j2104533975136_1_alg».proof.Proof.LibSegmentScale

noncomputable section

open scoped BigOperators

namespace Cert.Spec

open Idealize.ShloMosaic Idealize.ShloMosaic.ValueIdx

/-! ## The three float patterns whose values the identity needs -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

/-! ## Segments -/

/-- The nodes of segment g. -/
def seg (batch : (⟨1, ![200000]⟩ : Shape).Idx → BitVec 32) (g : Fin 2048) : Finset (Fin 200000) :=
  Finset.univ.filter fun e => (batch (ix1 e)).toInt = (g.val : ℤ)

/-- The segment's number of nodes, at least one. -/
def count (batch : (⟨1, ![200000]⟩ : Shape).Idx → BitVec 32) (g : Fin 2048) : EReal :=
  max (∑ _e ∈ seg batch g, (1 : EReal)) 1

/-- The segment mean of a per-node quantity. -/
def segMean (batch : (⟨1, ![200000]⟩ : Shape).Idx → BitVec 32) (x : Fin 200000 → EReal) (g : Fin 2048) : EReal :=
  Ideal.div (∑ e ∈ seg batch g, x e) (count batch g)

/-- The table position a node reads, from the column of wrapped words. -/
def node (idxcol : (⟨2, ![200000, 1]⟩ : Shape).Idx → BitVec 32) (e : Fin 200000) : Fin 2048 :=
  Cert.SegmentScale.clampNode (by decide) (idxcol (ix2 e (0 : Fin 1)))

/-- A node of segment g reads position g, when the wrapping leaves nonnegative words alone. -/
theorem node_of_mem (batch : (⟨1, ![200000]⟩ : Shape).Idx → BitVec 32) (idxcol : (⟨2, ![200000, 1]⟩ : Shape).Idx → BitVec 32)
    (hwrap : ∀ e : Fin 200000, 0 ≤ (batch (ix1 e)).toInt → idxcol (ix2 e (0 : Fin 1)) = batch (ix1 e))
    (g : Fin 2048) (e : Fin 200000) (he : e ∈ seg batch g) : node idxcol e = g := by
  have h : (batch (ix1 e)).toInt = (g.val : ℤ) := (Finset.mem_filter.mp he).2
  unfold node
  rw [hwrap e (by rw [h]; exact Int.natCast_nonneg _)]
  exact Cert.SegmentScale.clampNode_of_toInt _ _ g h

/-! ## Per-node quantities of the scalar features -/

/-- Node e's mean over the 256 channels. -/
def rowMeanAt (s : (⟨2, ![200000, 256]⟩ : Shape).Idx → EReal) (e : Fin 200000) : EReal :=
  Ideal.div (∑ k : Fin 256, s (ix2 e k)) ((256 : ℝ) : EReal)

/-- Node e's mean square over the 256 channels. -/
def rowSqAt (s : (⟨2, ![200000, 256]⟩ : Shape).Idx → EReal) (e : Fin 200000) : EReal :=
  Ideal.div (∑ k : Fin 256, s (ix2 e k) * s (ix2 e k)) ((256 : ℝ) : EReal)

/-- Node e's mean squared deviation from a per-node centre. -/
def rowDevAt (s : (⟨2, ![200000, 256]⟩ : Shape).Idx → EReal) (M : Fin 200000 → EReal) (e : Fin 200000) : EReal :=
  Ideal.div (∑ k : Fin 256, (s (ix2 e k) - M e) * (s (ix2 e k) - M e)) ((256 : ℝ) : EReal)

/-- THE IDENTITY: centring every node at the mean of the segment it reads, the segment mean of the squared
    deviations is the segment mean of the squares minus the square of the segment mean. -/
theorem segMean_dev (batch : (⟨1, ![200000]⟩ : Shape).Idx → BitVec 32) (idxcol : (⟨2, ![200000, 1]⟩ : Shape).Idx → BitVec 32)
    (hwrap : ∀ e : Fin 200000, 0 ≤ (batch (ix1 e)).toInt → idxcol (ix2 e (0 : Fin 1)) = batch (ix1 e))
    (s : (⟨2, ![200000, 256]⟩ : Shape).Idx → EReal) (hs : ∀ i, ∃ x : ℝ, s i = (x : EReal)) (g : Fin 2048) :
    segMean batch (rowDevAt s fun e => segMean batch (rowMeanAt s) (node idxcol e)) g
      = segMean batch (rowSqAt s) g - segMean batch (rowMeanAt s) g * segMean batch (rowMeanAt s) g := by
  have hc : ∑ e ∈ seg batch g, rowDevAt s (fun e => segMean batch (rowMeanAt s) (node idxcol e)) e
      = ∑ e ∈ seg batch g, Ideal.div (∑ k : Fin 256, (s (ix2 e k) - segMean batch (rowMeanAt s) g) * (s (ix2 e k) - segMean batch (rowMeanAt s) g)) ((256 : ℝ) : EReal) :=
    Finset.sum_congr rfl fun e he => by
      show Ideal.div (∑ k : Fin 256, (s (ix2 e k) - segMean batch (rowMeanAt s) (node idxcol e)) * (s (ix2 e k) - segMean batch (rowMeanAt s) (node idxcol e))) _ = _
      rw [node_of_mem batch idxcol hwrap g e he]
  show Ideal.div (∑ e ∈ seg batch g, rowDevAt s (fun e => segMean batch (rowMeanAt s) (node idxcol e)) e) (count batch g) = _
  rw [hc]
  exact Cert.SegVariance.segment_variance (seg batch g) (fun e k => s (ix2 e k)) (fun e k => hs _) 256
    (by simp) (by norm_num) (count batch g) (segMean batch (rowMeanAt s) g) rfl rfl

/-! ## The tables and the two results -/

/-- The floor of the variance and of the vector scale: the number whose pattern both programs spell. -/
def eps : EReal := Ideal.ofBits .f32 0x358637BD#32

/-- Node e's squared vector length summed over the lanes, over the number whose pattern is 128.0. -/
def nodeSqAt (v : (⟨3, ![200000, 3, 128]⟩ : Shape).Idx → EReal) (e : Fin 200000) : EReal :=
  Ideal.div (∑ l : Fin 128, ∑ j : Fin 3, v (ix3 e j l) * v (ix3 e j l)) (Ideal.ofBits .f32 0x43000000#32)

/-- The segment means of the node means. -/
def meanTab (batch : (⟨1, ![200000]⟩ : Shape).Idx → BitVec 32) (s : (⟨2, ![200000, 256]⟩ : Shape).Idx → EReal) (g : Fin 2048) : EReal :=
  segMean batch (rowMeanAt s) g

/-- The variance table as mean of squares minus squared mean, floored. -/
def varTabK (batch : (⟨1, ![200000]⟩ : Shape).Idx → BitVec 32) (s : (⟨2, ![200000, 256]⟩ : Shape).Idx → EReal) (g : Fin 2048) : EReal :=
  max (segMean batch (rowSqAt s) g - meanTab batch s g * meanTab batch s g) eps

/-- The variance table as mean squared deviation from the mean each node reads, floored. -/
def varTabR (batch : (⟨1, ![200000]⟩ : Shape).Idx → BitVec 32) (idxcol : (⟨2, ![200000, 1]⟩ : Shape).Idx → BitVec 32)
    (s : (⟨2, ![200000, 256]⟩ : Shape).Idx → EReal) (g : Fin 2048) : EReal :=
  max (segMean batch (rowDevAt s fun e => meanTab batch s (node idxcol e)) g) eps

/-- The vector scale table. -/
def vecTab (batch : (⟨1, ![200000]⟩ : Shape).Idx → BitVec 32) (v : (⟨3, ![200000, 3, 128]⟩ : Shape).Idx → EReal) (g : Fin 2048) : EReal :=
  max (segMean batch (nodeSqAt v) g) eps

/-- A normalised scalar feature from a mean table and a variance table. -/
def soutAt (mt vt : Fin 2048 → EReal) (idxcol : (⟨2, ![200000, 1]⟩ : Shape).Idx → BitVec 32)
    (s : (⟨2, ![200000, 256]⟩ : Shape).Idx → EReal) (w b : (⟨1, ![256]⟩ : Shape).Idx → EReal) (r : Fin 200000) (k : Fin 256) : EReal :=
  Ideal.div (s (ix2 r k) - mt (node idxcol r)) (vt (node idxcol r)) * w (ix1 k) + b (ix1 k)

/-- A scaled vector feature from a vector scale table. -/
def voutAt (vt : Fin 2048 → EReal) (idxcol : (⟨2, ![200000, 1]⟩ : Shape).Idx → BitVec 32)
    (v : (⟨3, ![200000, 3, 128]⟩ : Shape).Idx → EReal) (r : Fin 200000) (j : Fin 3) (l : Fin 128) : EReal :=
  Ideal.div (v (ix3 r j l)) (vt (node idxcol r))

/-- The two variance tables are one table on real-valued features. -/
theorem varTab_agree (batch : (⟨1, ![200000]⟩ : Shape).Idx → BitVec 32) (idxcol : (⟨2, ![200000, 1]⟩ : Shape).Idx → BitVec 32)
    (hwrap : ∀ e : Fin 200000, 0 ≤ (batch (ix1 e)).toInt → idxcol (ix2 e (0 : Fin 1)) = batch (ix1 e))
    (s : (⟨2, ![200000, 256]⟩ : Shape).Idx → EReal) (hs : ∀ i, ∃ x : ℝ, s i = (x : EReal)) (g : Fin 2048) :
    varTabR batch idxcol s g = varTabK batch s g := by
  unfold varTabR varTabK meanTab
  rw [segMean_dev batch idxcol hwrap s hs g]

end Cert.Spec

end
-- ==== Proof.LibRowGatherScatter.lean ====
/-
  Rows of a table gathered and scatter-added along an edge list, read at one entry.

  A table [N, C] indexed by a column [E, 1] of integer row numbers:
  * the gather of whole rows (x[idx]): entry (e, q) of the result is the table at row idx[e] — read as a
    signed integer and clamped into [0, N-1] — and column q;
  * the accumulating scatter of whole rows at the extended reals (segment_sum): entry (n, q) of the result
    is the operand's plus the sum, over the edges e whose row number read as a signed integer is exactly n,
    of the update at (e, q); an edge whose number is outside [0, N) adds nothing.
  In both the column is carried through untouched, so the operations act on each column of the table by itself,
  whatever the number C of columns: this is what lets one wide table stand for two narrow ones side by side.
-/
import Idealize.ShloMosaic.Lib.ValueIdx
import Idealize.ShloMosaic.PureOps.Ideal.Laws

noncomputable section

open scoped BigOperators

namespace Idealize.ShloMosaic.RowOps

open Idealize.ShloMosaic Idealize.ShloMosaic.ValueIdx

/-! ## The gather of whole rows -/

section Gather
variable {α : Type}

/-- The dimension numbers of x[idx] for a table [N, C] and row numbers [E, 1]: the row axis is collapsed and
    addressed by the one component of the start index, the column axis is the offset axis, slices are 1 × C. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its row number as a signed integer, clamped into [0, N-1]. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER AT (e, q): the table at edge e's row and the same column q. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    have ho : (rowGatherDims N E C wf).offCoord (ix2 e q) 1 = q.val := by
      unfold GatherDims.offCoord
      rw [dif_pos ((GatherDims.mem_sKept (rowGatherDims N E C wf) 1).mpr ⟨(by decide : (1 : Fin 2) ∉ ([0] : List (Fin 2))), List.not_mem_nil⟩)]
      rfl
    rw [hs, ho]; omega

end Gather

/-! ## The accumulating scatter of whole rows, at the extended reals -/

section Scatter

/-- The dimension numbers of segment_sum of rows [E, C] into a table [N, C] at row numbers [E, 1]: the row
    axis is inserted and addressed by the one component of the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (idx : IVec ⟨2, ![E, 1]⟩ w) (e : Fin E) (q' : Fin C) :
    (rowScatterDims N E C wf).start (ix2 e q') idx 1 = 0 := by
  unfold ScatterDims.start
  rw [dif_neg (show ¬ (1 : Fin 2) ∈ ([0] : List (Fin 2)) by decide)]

theorem window_row (e : Fin E) (q' : Fin C) : (rowScatterDims N E C wf).window (ix2 e q') 0 = 0 := by
  unfold ScatterDims.window
  rw [dif_neg (show ¬ (0 : Fin 2) ∈ (rowScatterDims N E C wf).sKept by simp [ScatterDims.sKept, Shape.kept, List.mem_filter, List.mem_finRange])]

theorem window_col (e : Fin E) (q' : Fin C) : (rowScatterDims N E C wf).window (ix2 e q') 1 = q'.val := by
  unfold ScatterDims.window
  rw [dif_pos (show (1 : Fin 2) ∈ (rowScatterDims N E C wf).sKept by simp [ScatterDims.sKept, Shape.kept, List.mem_filter, List.mem_finRange])]
  rfl

/-- WHERE AN UPDATE LANDS: the update at (e, q') lands on (n, q) exactly when edge e's row number, read as a
    signed integer, is n, and the columns agree. -/
theorem resultIdx?_rows (idx : IVec ⟨2, ![E, 1]⟩ w) (e : Fin E) (q' : Fin C) (n : Fin N) (q : Fin C) :
    (rowScatterDims N E C wf).resultIdx? (ix2 e q') idx = some (ix2 n q)
      ↔ (idx (ix2 e (0 : Fin 1))).toInt = (n.val : ℤ) ∧ q' = q := by
  have h0 := start_row wf idx e q'
  have h1 := start_col wf idx e q'
  have w0 := window_row wf e q'
  have w1 := window_col wf e q'
  unfold ScatterDims.resultIdx?
  split
  · rename_i h
    rw [Option.some.injEq]
    constructor
    · intro hf
      have e0 := congrArg (fun f => (f 0).val) hf
      have e1 := congrArg (fun f => (f 1).val) hf
      have b0 := h 0
      rw [h0, w0] at b0
      have e0' : ((rowScatterDims N E C wf).start (ix2 e q') idx 0 + ((rowScatterDims N E C wf).window (ix2 e q') 0 : ℤ)).toNat = n.val := e0
      have e1' : ((rowScatterDims N E C wf).start (ix2 e q') idx 1 + ((rowScatterDims N E C wf).window (ix2 e q') 1 : ℤ)).toNat = q.val := e1
      rw [h0, w0] at e0'
      rw [h1, w1] at e1'
      refine ⟨by omega, Fin.ext (by omega)⟩
    · rintro ⟨hr, rfl⟩
      funext a; refine Fin.ext ?_
      match a with
      | ⟨0, _⟩ =>
        show ((rowScatterDims N E C wf).start (ix2 e q') idx 0 + ((rowScatterDims N E C wf).window (ix2 e q') 0 : ℤ)).toNat = n.val
        rw [h0, w0]; omega
      | ⟨1, _⟩ =>
        show ((rowScatterDims N E C wf).start (ix2 e q') idx 1 + ((rowScatterDims N E C wf).window (ix2 e q') 1 : ℤ)).toNat = q'.val
        rw [h1, w1]; omega
  · rename_i h
    constructor
    · intro hf; exact absurd hf (by simp)
    · rintro ⟨hr, rfl⟩
      exfalso; apply h
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < (N : ℤ)
        rw [h0, w0]; have := n.isLt; omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < (C : ℤ)
        rw [h1, w1]; have := q'.isLt; omega

/-- THE ACCUMULATING SCATTER AT (n, q), over the extended reals: the operand's entry plus the sum, over the edges
    whose row number is n, of the update's entry in the same column. -/
theorem scatterAdd_rows_apply {φ : FTy} (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := φ) (rowScatterDims N E C wf) x idx upd (ix2 n q)
      = x (ix2 n q) + ∑ e ∈ Finset.univ.filter (fun e : Fin E => (idx (ix2 e (0 : Fin 1))).toInt = (n.val : ℤ)), upd (ix2 e q) := by
  show x (ix2 n q) + ∑ j ∈ Finset.univ.filter (fun j => (rowScatterDims N E C wf).resultIdx? j idx = some (ix2 n q)), upd j = _
  congr 1
  rw [Finset.sum_filter, sum_idx2, Finset.sum_filter]
  refine Finset.sum_congr rfl fun e _ => ?_
  simp only [resultIdx?_rows wf idx e _ n q]
  by_cases he : (idx (ix2 e (0 : Fin 1))).toInt = (n.val : ℤ)
  · simp only [he, true_and, if_true]
    rw [Finset.sum_ite_eq' Finset.univ q (fun b => upd (ix2 e b))]
    simp
  · simp only [he, false_and, if_false]
    exact Finset.sum_const_zero

end Scatter

end Idealize.ShloMosaic.RowOps

end
-- ==== Proof.LibSelfLoopSplit.lean ====
/-
  Self-loops handled analytically: a graph whose edge list is extended by one loop per node, against the bare edge list
  plus one extra term per node — over the extended reals.

  A graph convolution with symmetric normalisation adds a loop at every node before it counts degrees and before it
  sums messages. Spelt with arrays, the loops are n extra entries appended to the e real edges: entry e + i of the
  extended list has source i and target i. Every sum "over the extended edges whose target is node c" therefore splits
  into the same sum over the real edges plus exactly ONE more term, the loop at c (`sum_filter_split`, `sum_filter_self`):
  * the degree (a sum of ones) is the real edges' count plus one (`degree_split`), so it is positive, its inverse
    square root needs no guard against zero, and that root is a nonnegative finite number (`rsqrt_of_pos`);
  * a layer's sum of messages, each weighed by the factors of its two ends, is the sum over the real edges of the
    messages weighed at the source only, plus the node's own weighed row, all times the node's own factor
    (`layer_split`) — the target's factor is the same in every term summed at c and moves out of the sum, which on the
    extended reals is sound for a nonnegative finite factor whatever the terms are.
  Also here: the accumulating scatter of single entries into a vector, read at a node (`scatterAdd_entries_apply`).
-/
import Idealize.ShloMosaic.PureOps.Ideal
import Idealize.ShloMosaic.PureOps.Ideal.Laws
import Idealize.ShloMosaic.Lib.ValueIdx
import proofs.«149233_j2104533975136_1_alg».proof.Proof.LibSegmentScale
import proofs.«149233_j2104533975136_1_alg».proof.Proof.LibRowGatherScatter

noncomputable section

open scoped BigOperators

namespace Cert.SelfLoops

open Idealize.ShloMosaic Idealize.ShloMosaic.ValueIdx Idealize.ShloMosaic.RowOps

/-! ## Sums over a rank-1 index set -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## The accumulating scatter of single entries into a vector -/

section EntryScatter

/-- The dimension numbers of a segment sum of a vector [E] into a vector [N] at positions [E, 1]: the one operand
    axis is inserted and addressed by the one component of the scatter index; there is no window axis. -/
abbrev entryScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : ℕ} (wf : ScatterDims.WF ⟨1, ![N]⟩ ⟨2, ![E, 1]⟩ ⟨1, ![E]⟩ [] [0] [0] 1)

theorem start_entry (idx : IVec ⟨2, ![E, 1]⟩ w) (k : Fin E) :
    (entryScatterDims N E wf).start (ix1 k) idx 0 = (idx (ix2 k (0 : Fin 1))).toInt := by
  unfold ScatterDims.start
  rw [dif_pos (show (0 : Fin 1) ∈ (entryScatterDims N E wf).scatterDimsToOperandDims from List.mem_singleton.mpr rfl)]
  have hsi : (entryScatterDims N E wf).siIdx (ix1 k) ⟨List.idxOf (0 : Fin 1) (entryScatterDims N E wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

theorem window_entry (k : Fin E) : (entryScatterDims N E wf).window (ix1 k) 0 = 0 := by
  unfold ScatterDims.window
  rw [dif_neg (show ¬ (0 : Fin 1) ∈ (entryScatterDims N E wf).sKept by simp [ScatterDims.sKept, Shape.kept, List.mem_filter, List.mem_finRange])]

/-- WHERE AN UPDATE LANDS: edge k's entry lands on node c exactly when k's position word, read signed, is c. -/
theorem resultIdx?_entries (idx : IVec ⟨2, ![E, 1]⟩ w) (k : Fin E) (c : Fin N) :
    (entryScatterDims N E wf).resultIdx? (ix1 k) idx = some (ix1 c) ↔ (idx (ix2 k (0 : Fin 1))).toInt = (c.val : ℤ) := by
  have h0 := start_entry wf idx k
  have w0 := window_entry wf k
  unfold ScatterDims.resultIdx?
  split
  · rename_i h
    rw [Option.some.injEq]
    constructor
    · intro hf
      have e0 := congrArg (fun f => (f 0).val) hf
      have b0 := h 0
      rw [h0, w0] at b0
      have e0' : ((entryScatterDims N E wf).start (ix1 k) idx 0 + ((entryScatterDims N E wf).window (ix1 k) 0 : ℤ)).toNat = c.val := e0
      rw [h0, w0] at e0'
      omega
    · intro hr
      funext a; refine Fin.ext ?_
      match a with
      | ⟨0, _⟩ =>
        show ((entryScatterDims N E wf).start (ix1 k) idx 0 + ((entryScatterDims N E wf).window (ix1 k) 0 : ℤ)).toNat = c.val
        rw [h0, w0]; omega
  · rename_i h
    constructor
    · intro hf; exact absurd hf (by simp)
    · intro hr
      exfalso; apply h
      intro a
      match a with
      | ⟨0, _⟩ =>
        show 0 ≤ (entryScatterDims N E wf).start (ix1 k) idx 0 + ((entryScatterDims N E wf).window (ix1 k) 0 : ℤ)
          ∧ (entryScatterDims N E wf).start (ix1 k) idx 0 + ((entryScatterDims N E wf).window (ix1 k) 0 : ℤ) < (N : ℤ)
        rw [h0, w0]; have := c.isLt; omega

/-- THE ACCUMULATING SCATTER OF ENTRIES AT NODE c, over the extended reals: the operand's entry plus the sum, over the
    edges whose position is c, of the update's entry. -/
theorem scatterAdd_entries_apply {φ : FTy} (x : (⟨1, ![N]⟩ : Shape).Idx → EReal) (idx : IVec ⟨2, ![E, 1]⟩ w)
    (upd : (⟨1, ![E]⟩ : Shape).Idx → EReal) (c : Fin N) :
    Host.scatterAdd (F := Ideal) (φ := φ) (entryScatterDims N E wf) x idx upd (ix1 c)
      = x (ix1 c) + ∑ k ∈ Finset.univ.filter (fun k : Fin E => (idx (ix2 k (0 : Fin 1))).toInt = (c.val : ℤ)), upd (ix1 k) := by
  show x (ix1 c) + ∑ j ∈ Finset.univ.filter (fun j => (entryScatterDims N E wf).resultIdx? j idx = some (ix1 c)), upd j = _
  congr 1
  rw [Finset.sum_filter, sum_idx1, Finset.sum_filter]
  refine Finset.sum_congr rfl fun k _ => ?_
  simp only [resultIdx?_entries wf idx k c]

end EntryScatter

/-! ## An edge list extended by one loop per node -/

section Split
variable {e n en : ℕ}

/-- Where real edge k sits in the extended list. -/
def realEdge (h : en = e + n) (k : Fin e) : Fin en := ⟨k.val, by omega⟩
/-- Where node i's loop sits in the extended list. -/
def loopEdge (h : en = e + n) (i : Fin n) : Fin en := ⟨e + i.val, by omega⟩

/-- A sum over the extended list is the sum over the real edges plus the sum over the loops. -/
theorem sum_split (h : en = e + n) (g : Fin en → EReal) :
    ∑ k, g k = ∑ k : Fin e, g (realEdge h k) + ∑ i : Fin n, g (loopEdge h i) := by
  subst h
  rw [Fin.sum_univ_add]
  rfl

/-- The same for the entries that satisfy a condition. -/
theorem sum_filter_split (h : en = e + n) (P : Fin en → Prop) [DecidablePred P] (g : Fin en → EReal) :
    ∑ k ∈ Finset.univ.filter P, g k
      = ∑ k ∈ Finset.univ.filter (fun k : Fin e => P (realEdge h k)), g (realEdge h k)
        + ∑ i ∈ Finset.univ.filter (fun i : Fin n => P (loopEdge h i)), g (loopEdge h i) := by
  simp only [Finset.sum_filter]
  exact sum_split h _

/-- Among the loops, the one whose target is node c is the loop at c, and it is the only one. -/
theorem sum_filter_self (W : Fin n → ℤ) (hW : ∀ i, W i = (i.val : ℤ)) (c : Fin n) (g : Fin n → EReal) :
    ∑ i ∈ Finset.univ.filter (fun i => W i = (c.val : ℤ)), g i = g c := by
  have hset : Finset.univ.filter (fun i : Fin n => W i = (c.val : ℤ)) = {c} := by
    ext i
    simp only [Finset.mem_filter, Finset.mem_univ, true_and, Finset.mem_singleton, hW]
    constructor
    · intro hi; exact Fin.ext (by exact_mod_cast hi)
    · rintro rfl; rfl
  rw [hset, Finset.sum_singleton]

end Split

/-! ## The degree: the real edges' count plus one -/

section Degree
variable {e n en : ℕ}

/-- The extended list's count at node c is the real edges' count plus the loop's one: every update entry is the same
    number `o`, the loops' targets are the nodes themselves. -/
theorem degree_split (h : en = e + n)
    (ws : ScatterDims.WF ⟨1, ![n]⟩ ⟨2, ![e, 1]⟩ ⟨1, ![e]⟩ [] [0] [0] 1)
    (ws' : ScatterDims.WF ⟨1, ![n]⟩ ⟨2, ![en, 1]⟩ ⟨1, ![en]⟩ [] [0] [0] 1)
    (Z Z' O : (⟨1, ![n]⟩ : Shape).Idx → EReal) (U : (⟨1, ![e]⟩ : Shape).Idx → EReal) (U' : (⟨1, ![en]⟩ : Shape).Idx → EReal)
    (tgt : IVec ⟨2, ![e, 1]⟩ 32) (tgt' : IVec ⟨2, ![en, 1]⟩ 32) (o : EReal)
    (hZ : ∀ i, Z' i = Z i) (hU : ∀ k, U k = o) (hU' : ∀ k, U' k = o) (hO : ∀ i, O i = o)
    (hreal : ∀ k : Fin e, tgt' (ix2 (realEdge h k) (0 : Fin 1)) = tgt (ix2 k (0 : Fin 1)))
    (hloop : ∀ i : Fin n, (tgt' (ix2 (loopEdge h i) (0 : Fin 1))).toInt = (i.val : ℤ)) (c : Fin n) :
    Host.scatterAdd (F := Ideal) (φ := .f32) (entryScatterDims n en ws') Z' tgt' U' (ix1 c)
      = Host.scatterAdd (F := Ideal) (φ := .f32) (entryScatterDims n e ws) Z tgt U (ix1 c) + O (ix1 c) := by
  rw [scatterAdd_entries_apply, scatterAdd_entries_apply, hZ, hO, add_assoc]
  congr 1
  rw [sum_filter_split h]
  congr 1
  · simp only [hreal]
    exact Finset.sum_congr rfl fun k _ => by rw [hU', hU]
  · rw [sum_filter_self (fun i => (tgt' (ix2 (loopEdge h i) (0 : Fin 1))).toInt) hloop c (fun i => U' (ix1 (loopEdge h i))), hU']

/-- A zero plus a sum of copies of a nonnegative number, plus a positive number, is positive. -/
theorem count_pos {ι : Type*} (s : Finset ι) (z o : EReal) (u : ι → EReal) (hz : z = 0) (hu : ∀ k, u k = o) (ho : 0 < o) :
    0 < (z + ∑ k ∈ s, u k) + o := by
  have h1 : (0 : EReal) ≤ z + ∑ k ∈ s, u k := by
    rw [hz, zero_add]
    exact Finset.sum_nonneg fun k _ => by rw [hu]; exact ho.le
  exact lt_of_lt_of_le ho (le_add_of_nonneg_left h1)

end Degree

/-! ## The inverse square root of a positive number needs no guard, and is a nonnegative finite number -/

/-- The pattern of the float 1.0 denotes a positive number. -/
theorem one_pattern_pos : (0 : EReal) < Ideal.ofBits .f32 0x3F800000#32 := by
  have h1 : Ideal.ofBits .f32 0x3F800000#32 = 1 := by
    simp [Ideal.ofBits, Ideal.ieee, -EReal.coe_mul]; norm_num
  rw [h1]; exact zero_lt_one

/-- Where the argument is positive the guard "if 0 < v then 1/√v else 0" answers 1/√v. -/
theorem guarded_eq_of_pos (v : EReal) (hv : 0 < v) :
    Scalar.select (Ideal.cmp .ogt v 0) (Ideal.rsqrt v) 0 = Ideal.rsqrt v := by
  unfold Scalar.select Ideal.cmp
  have hb : BitVec.ofBool (decide ((0 : EReal) < v)) = 1 := by rw [decide_eq_true hv]; rfl
  rw [if_pos hb]

/-- 1/√v of a positive v is a nonnegative finite number. -/
theorem rsqrt_of_pos (v : EReal) (hv : 0 < v) : (0 : EReal) ≤ Ideal.rsqrt v ∧ Ideal.rsqrt v ≠ (⊤ : EReal) := by
  have := Cert.SegmentScale.guardedRsqrt_nonneg_ne_top v
  rwa [guarded_eq_of_pos v hv] at this

/-! ## One layer: both ends' factors edge by edge over the extended list, against the source's factor edge by edge
     over the real edges, the node's own row, and the node's factor once on the whole -/

section Layer
variable {e n en f : ℕ}

/-- THE LAYER IDENTITY at node c, feature q. `Hm` the projected rows, `D` a nonnegative finite factor per node.
    Right: over the real edges, the message of edge k is the source's row times the source's factor; the sum at c,
    plus c's own row times c's factor, is scaled by c's factor. Left: over the extended list, the message of entry k is
    the source's row times the product of the factors of its two ends. The loops' ends are the node itself; an entry
    summed at c has c as its target. -/
theorem layer_split (h : en = e + n)
    (ws : ScatterDims.WF ⟨2, ![n, f]⟩ ⟨2, ![e, 1]⟩ ⟨2, ![e, f]⟩ [1] [0] [0] 1)
    (ws' : ScatterDims.WF ⟨2, ![n, f]⟩ ⟨2, ![en, 1]⟩ ⟨2, ![en, f]⟩ [1] [0] [0] 1)
    (Z Z' : (⟨2, ![n, f]⟩ : Shape).Idx → EReal) (hZ : ∀ p, Z p = 0) (hZ' : ∀ p, Z' p = 0)
    (tgt : IVec ⟨2, ![e, 1]⟩ 32) (tgt' : IVec ⟨2, ![en, 1]⟩ 32)
    (hreal : ∀ k : Fin e, tgt' (ix2 (realEdge h k) (0 : Fin 1)) = tgt (ix2 k (0 : Fin 1)))
    (hloop : ∀ i : Fin n, (tgt' (ix2 (loopEdge h i) (0 : Fin 1))).toInt = (i.val : ℤ))
    (Hm : (⟨2, ![n, f]⟩ : Shape).Idx → EReal) (D : Fin n → EReal) (hD : ∀ i, (0 : EReal) ≤ D i ∧ D i ≠ (⊤ : EReal))
    (sN : Fin e → Fin n) (sN' tN' : Fin en → Fin n)
    (hs : ∀ k, sN' (realEdge h k) = sN k) (hsl : ∀ i, sN' (loopEdge h i) = i)
    (ht : ∀ (k : Fin en) (c : Fin n), (tgt' (ix2 k (0 : Fin 1))).toInt = (c.val : ℤ) → tN' k = c)
    (M : (⟨2, ![e, f]⟩ : Shape).Idx → EReal) (hM : ∀ k q, M (ix2 k q) = Hm (ix2 (sN k) q) * D (sN k))
    (M' : (⟨2, ![en, f]⟩ : Shape).Idx → EReal)
    (hM' : ∀ k q, M' (ix2 k q) = Hm (ix2 (sN' k) q) * (D (sN' k) * D (tN' k)))
    (c : Fin n) (q : Fin f) :
    Host.scatterAdd (F := Ideal) (φ := .f32) (rowScatterDims n en f ws') Z' tgt' M' (ix2 c q)
      = (Host.scatterAdd (F := Ideal) (φ := .f32) (rowScatterDims n e f ws) Z tgt M (ix2 c q) + Hm (ix2 c q) * D c) * D c := by
  rw [scatterAdd_rows_apply, scatterAdd_rows_apply, hZ, hZ', zero_add, zero_add,
    EReal.right_distrib_of_nonneg_of_ne_top (hD c).1 (hD c).2,
    Cert.SegmentScale.sum_mul_of_nonneg_ne_top _ _ (hD c).1 (hD c).2, sum_filter_split h]
  congr 1
  · simp only [hreal]
    refine Finset.sum_congr rfl fun k hk => ?_
    have hk' : (tgt (ix2 k (0 : Fin 1))).toInt = (c.val : ℤ) := (Finset.mem_filter.mp hk).2
    rw [hM', hM, hs, ht (realEdge h k) c (by rw [hreal]; exact hk'), mul_assoc]
  · rw [sum_filter_self (fun i => (tgt' (ix2 (loopEdge h i) (0 : Fin 1))).toInt) hloop c (fun i => M' (ix2 (loopEdge h i) q)),
      hM', hsl, ht (loopEdge h c) c (hloop c), mul_assoc]

end Layer

end Cert.SelfLoops

end
-- ==== Proof.LibExtendedEdges.lean ====
/-
  The extended edge list as arrays of words, and one layer of the reference's form.

  The reference appends the node numbers 0 … n−1 to the e source words and to the e target words (a concatenation with an
  iota), reads a word below zero from the end (a select on "word < 0" that adds n), and gathers with clamping. Read at
  an entry:
  * the concatenation at a real edge is that edge's word, at node i's loop it is the word of the number i, whose signed
    value is i (`concat_real`, `concat_loop`, `toInt_ofNat_of_lt`);
  * the select leaves a word alone whose signed value is not negative (`select_slt_zero_of_nonneg`) — so a loop's
    words, and the target word of any entry that the scatter keeps, are read as they are;
  * a vector viewed as a column [m, 1] reads the vector's entry (`column_apply`).
  With these, one layer of the reference — rows gathered at the sources, each scaled by the factors gathered at its two
  ends, summed at the targets over the extended list — is the bare edge list's sum of rows scaled at the source, plus
  the node's own scaled row, times the node's factor (`reference_layer`: the layer identity of the loops' split, with
  the gathers read at an entry).
-/
import Idealize.ShloMosaic.PureOps.Ideal
import Idealize.ShloMosaic.Lib.ValueIdx
import Idealize.ShloMosaic.Lib.Pipeline.Value
import proofs.«149233_j2104533975136_1_alg».proof.Proof.LibSegmentScale
import proofs.«149233_j2104533975136_1_alg».proof.Proof.LibRowGatherScatter
import proofs.«149233_j2104533975136_1_alg».proof.Proof.LibSelfLoopSplit

noncomputable section

open scoped BigOperators

namespace Cert.ExtendedEdges

open Idealize.ShloMosaic Idealize.ShloMosaic.ValueIdx Idealize.ShloMosaic.RowOps Cert.SegmentScale Cert.SelfLoops

/-! ## Words -/

/-- The 32-bit word of a number below 2³¹ has that number as its signed value. -/
theorem toInt_ofNat_of_lt (k : ℕ) (hk : k < 2 ^ 31) : (BitVec.ofNat 32 k).toInt = (k : ℤ) := by
  unfold BitVec.toInt
  have hm : k % 2 ^ 32 = k := Nat.mod_eq_of_lt (by omega)
  rw [BitVec.toNat_ofNat, hm, if_pos (by omega)]

/-- A select on "word < 0" answers the word itself when the word's signed value is not negative. -/
theorem select_slt_zero_of_nonneg (w a : BitVec 32) (h : 0 ≤ w.toInt) :
    Scalar.select (IntOp.cmpi .slt w 0#32) a w = w := by
  have hs : w.slt 0#32 = false := by
    rw [BitVec.slt]
    simpa using h
  unfold Scalar.select IntOp.cmpi
  simp only [hs]
  rfl

/-! ## Arrays of words read at an entry -/

section Reads
variable {α : Type}

/-- A vector [m] viewed as a column [m, 1]: entry (k, 0) is the vector's entry k. -/
theorem column_apply {m : ℕ} (v : (⟨1, ![m]⟩ : Shape).Idx → α) (h : (⟨1, ![m]⟩ : Shape).BroadcastsInDim ⟨2, ![m, 1]⟩ ![0]) (k : Fin m) :
    broadcastInDim ⟨2, ![m, 1]⟩ ![0] h v (ix2 k (0 : Fin 1)) = v (ix1 k) :=
  broadcastInDim_apply ![0] h v (ix2 k (0 : Fin 1)) (ix1 k) (fun a => by
    match a with
    | ⟨0, _⟩ =>
      show k.val = if m = 1 then 0 else k.val
      split
      · have := k.isLt; omega
      · rfl)

variable {e n en : ℕ}

/-- The concatenation of [e] and [n] at a real edge's place is the first array's entry. -/
theorem concat_real (hen : en = e + n) (x : (⟨1, ![e]⟩ : Shape).Idx → α) (y : (⟨1, ![n]⟩ : Shape).Idx → α)
    (h : Shape.Concatenates [(⟨1, ![e]⟩ : Shape), ⟨1, ![n]⟩] ⟨1, ![en]⟩ 0) (k : Fin e) :
    concatenate ⟨1, ![en]⟩ 0 [⟨⟨1, ![e]⟩, x⟩, ⟨⟨1, ![n]⟩, y⟩] h (ix1 (realEdge hen k)) = x (ix1 k) :=
  concatenate_pair_apply_left 0 x y h (ix1 (realEdge hen k)) rfl (ix1 k) (fun b => by
    match b with
    | ⟨0, _⟩ => rfl)

/-- The concatenation of [e] and [n] at node i's loop is the second array's entry i. -/
theorem concat_loop (hen : en = e + n) (x : (⟨1, ![e]⟩ : Shape).Idx → α) (y : (⟨1, ![n]⟩ : Shape).Idx → α)
    (h : Shape.Concatenates [(⟨1, ![e]⟩ : Shape), ⟨1, ![n]⟩] ⟨1, ![en]⟩ 0) (i : Fin n) :
    concatenate ⟨1, ![en]⟩ 0 [⟨⟨1, ![e]⟩, x⟩, ⟨⟨1, ![n]⟩, y⟩] h (ix1 (loopEdge hen i)) = y (ix1 i) :=
  concatenate_pair_apply_right 0 x y h (ix1 (loopEdge hen i)) rfl rfl (ix1 i)
    (fun b hne => by
      match b with
      | ⟨0, _⟩ => exact absurd rfl hne)
    (by show i.val + e = e + i.val; omega)

end Reads

/-! ## One layer in the reference's form -/

section Layer
variable {e n en f : ℕ}

/-- THE REFERENCE'S LAYER at node c, feature q, against the bare edge list's. `Hm` the projected rows, `Dv` the
    nonnegative finite factor per node (a vector). `tgt`, `src` the bare list's target and source columns; over the
    extended list `tgt'` the raw target column, `srcA` / `srcB` two copies of the source column as the gathers read it,
    `tgtN'` the target column as the factor's gather reads it (equal to the raw one wherever that is not negative). -/
theorem reference_layer (hen : en = e + n) (hn : 0 < n)
    (ws : ScatterDims.WF ⟨2, ![n, f]⟩ ⟨2, ![e, 1]⟩ ⟨2, ![e, f]⟩ [1] [0] [0] 1)
    (ws' : ScatterDims.WF ⟨2, ![n, f]⟩ ⟨2, ![en, 1]⟩ ⟨2, ![en, f]⟩ [1] [0] [0] 1)
    (wg : GatherDims.WF ⟨2, ![n, f]⟩ ⟨2, ![e, 1]⟩ ⟨2, ![e, f]⟩ [1] [0] [] [0] [] 1 ![1, f])
    (wg' : GatherDims.WF ⟨2, ![n, f]⟩ ⟨2, ![en, 1]⟩ ⟨2, ![en, f]⟩ [1] [0] [] [0] [] 1 ![1, f])
    (we' : GatherDims.WF ⟨1, ![n]⟩ ⟨2, ![en, 1]⟩ ⟨1, ![en]⟩ [] [0] [] [0] [] 1 ![1])
    (Z Z' : (⟨2, ![n, f]⟩ : Shape).Idx → EReal) (hZ : ∀ p, Z p = 0) (hZ' : ∀ p, Z' p = 0)
    (Hm : (⟨2, ![n, f]⟩ : Shape).Idx → EReal) (Dv : (⟨1, ![n]⟩ : Shape).Idx → EReal)
    (hD : ∀ i : Fin n, (0 : EReal) ≤ Dv (ix1 i) ∧ Dv (ix1 i) ≠ (⊤ : EReal))
    (tgt src : IVec ⟨2, ![e, 1]⟩ 32) (tgt' srcA srcB tgtN' : IVec ⟨2, ![en, 1]⟩ 32)
    (hreal : ∀ k : Fin e, tgt' (ix2 (realEdge hen k) (0 : Fin 1)) = tgt (ix2 k (0 : Fin 1)))
    (hloop : ∀ i : Fin n, (tgt' (ix2 (loopEdge hen i) (0 : Fin 1))).toInt = (i.val : ℤ))
    (hsA : ∀ k : Fin e, srcA (ix2 (realEdge hen k) (0 : Fin 1)) = src (ix2 k (0 : Fin 1)))
    (hsAl : ∀ i : Fin n, (srcA (ix2 (loopEdge hen i) (0 : Fin 1))).toInt = (i.val : ℤ))
    (hsB : ∀ k : Fin en, srcB (ix2 k (0 : Fin 1)) = srcA (ix2 k (0 : Fin 1)))
    (htN : ∀ k : Fin en, 0 ≤ (tgt' (ix2 k (0 : Fin 1))).toInt → tgtN' (ix2 k (0 : Fin 1)) = tgt' (ix2 k (0 : Fin 1)))
    (M' : (⟨2, ![en, f]⟩ : Shape).Idx → EReal)
    (hM' : ∀ (k : Fin en) (q : Fin f), M' (ix2 k q)
      = Host.gather (rowGatherDims n en f wg') Hm srcA (ix2 k q)
        * (Host.gather (entryGather we') Dv srcB (ix1 k) * Host.gather (entryGather we') Dv tgtN' (ix1 k)))
    (c : Fin n) (q : Fin f) :
    Host.scatterAdd (F := Ideal) (φ := .f32) (rowScatterDims n en f ws') Z' tgt' M' (ix2 c q)
      = (Host.scatterAdd (F := Ideal) (φ := .f32) (rowScatterDims n e f ws) Z tgt
            (Host.gather (rowGatherDims n e f wg) (fun p => Hm p * Dv (ix1 (p 0))) src) (ix2 c q)
          + Hm (ix2 c q) * Dv (ix1 c)) * Dv (ix1 c) := by
  refine layer_split hen ws ws' Z Z' hZ hZ' tgt tgt' hreal hloop Hm (fun i => Dv (ix1 i)) hD
    (fun k => gatherRow hn src k) (fun k => gatherRow hn srcA k) (fun k => clampNode hn (tgtN' (ix2 k (0 : Fin 1))))
    ?_ ?_ ?_ _ ?_ M' ?_ c q
  · intro k
    refine Fin.ext ?_
    show min (srcA (ix2 (realEdge hen k) (0 : Fin 1))).toInt.toNat (n - 1) = min (src (ix2 k (0 : Fin 1))).toInt.toNat (n - 1)
    rw [hsA k]
  · intro i
    exact clampNode_of_toInt hn _ i (hsAl i)
  · intro k c' hk
    rw [htN k (by rw [hk]; exact Int.natCast_nonneg _)]
    exact clampNode_of_toInt hn _ c' hk
  · intro k q'
    rw [gather_rows_apply hn wg]
    rfl
  · intro k q'
    rw [hM' k q', gather_rows_apply hn wg', entryGather_apply hn we', entryGather_apply hn we', hsB k]
    rfl

end Layer

end Cert.ExtendedEdges

end
-- ==== Proof.KRead.lean ====
/-
  The idealized kernel's results read at an index.

  Every array of the kernel's pipeline is read at one index and named in the terms of the specification: a segment
  sum is the sum over the segment's nodes, the count is the number of nodes (at least one), the mean, variance and
  vector tables are the specification's, a table gathered back to the nodes is read at the node's segment, and the
  two results are the specification's expressions over these tables.
-/
import proofs.«149233_j2104533975136_1_alg».proof.Proof.KValue
import proofs.«149233_j2104533975136_1_alg».proof.Proof.Spec
import proofs.«149233_j2104533975136_1_alg».proof.Proof.LibSelfLoopSplit
import proofs.«149233_j2104533975136_1_alg».proof.Proof.LibSegmentScale
import proofs.«149233_j2104533975136_1_alg».proof.Proof.LibExtendedEdges
import proofs.«149233_j2104533975136_1_alg».proof.Proof.LibColumnForms
import Idealize.ShloMosaic.Lib.ValueLayout

set_option maxRecDepth 16384

noncomputable section

open scoped BigOperators
open Idealize.ShloMosaic Idealize.ShloMosaic.TcCoe Idealize.ShloMosaic.ValueIdx

namespace Cert.KernelIdeal.KRead

open Cert.KernelIdeal

/-! ## Three views of a per-node array -/

/-- An [a, 1] array viewed [a]. -/
theorem col_to_vec {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, 1, 1] array viewed [a]. -/
theorem planes_to_vec {α : Type} {a : ℕ} (x : (⟨3, ![a, 1, 1]⟩ : Shape).Idx → α) (h : (⟨3, ![a, 1, 1]⟩ : Shape).ShapeCasts ⟨1, ![a]⟩)
    (i : Fin a) : shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    omega)

/-- An [a] array viewed [a, 1, 1]. -/
theorem vec_to_planes {α : Type} {a : ℕ} (x : (⟨1, ![a]⟩ : Shape).Idx → α) (h : (⟨1, ![a]⟩ : Shape).ShapeCasts ⟨3, ![a, 1, 1]⟩)
    (i : Fin a) (u u' : Fin 1) : shapeCast ⟨3, ![a, 1, 1]⟩ x h (ix3 i u u') = x (ix1 i) :=
  shapeCast_apply x h _ _ (by
    have hu : u.val = 0 := by omega
    have hu' : u'.val = 0 := by omega
    rw [Shape.rowMajor_val_one, Shape.rowMajor_val_three]
    show i.val = (i.val * 1 + u.val) * 1 + u'.val
    omega)

variable (batch : IVec S200000 32)

/-! ## The wrapped segment numbers and the constants -/

/-- The wrapping leaves a nonnegative word alone. -/
theorem wrap_nonneg (e : Fin 200000) (h : 0 ≤ (batch (ix1 e)).toInt) : HostGlue.wrapCol batch (ix2 e (0 : Fin 1)) = batch (ix1 e) := by
  unfold HostGlue.wrapCol HostGlue.col
  refine (Cert.ExtendedEdges.column_apply _ _ e).trans ?_
  show Scalar.select (IntOp.cmpi .slt (batch (ix1 e)) 0#32) (IntOp.addi (batch (ix1 e)) 2048#32) (batch (ix1 e)) = batch (ix1 e)
  exact Cert.ExtendedEdges.select_slt_zero_of_nonneg _ _ h

/-- A rank-0 constant spread over any shape reads, everywhere, the number its pattern denotes. -/
theorem splat_apply {t : Shape} (h : S_.BroadcastsInDim t ![]) (b : BitVec 32) (j : t.Idx) :
    broadcastInDim t ![] h (constant (F := Ideal) S_ .f32 b) j = Ideal.ofBits .f32 b := rfl

theorem zeros_apply (g : Fin 2048) : HostGlue.zeros (ix1 g) = 0 := by
  unfold HostGlue.zeros
  rw [splat_apply]
  exact Cert.Spec.ofBits_zero
theorem onesN_apply (e : Fin 200000) : HostGlue.onesN (ix1 e) = 1 := by
  unfold HostGlue.onesN
  rw [splat_apply]
  exact Cert.Spec.ofBits_one
theorem onesG_apply (g : Fin 2048) : HostGlue.onesG (ix1 g) = 1 := by
  unfold HostGlue.onesG
  rw [splat_apply]
  exact Cert.Spec.ofBits_one
theorem epsG_apply (g : Fin 2048) : HostGlue.epsG (ix1 g) = Cert.Spec.eps := by
  unfold HostGlue.epsG Cert.Spec.eps
  rw [splat_apply]

/-! ## Segment sums, the count, segment means -/

/-- A quotient of two arrays read at an index. -/
theorem hostDivf_at {t : Shape} (x y : FVec Ideal t .f32) (i : t.Idx) : Host.divf (F := Ideal) x y i = Ideal.div (x i) (y i) := rfl

/-- A segment sum at g is the sum over the nodes of segment g. -/
theorem segSum_apply (x : FVec Ideal S200000 .f32) (g : Fin 2048) :
    HostGlue.segSum batch x (ix1 g) = ∑ e ∈ Cert.Spec.seg batch g, x (ix1 e) := by
  unfold HostGlue.segSum
  refine (Cert.SelfLoops.scatterAdd_entries_apply (φ := .f32) scatter_S2048_S200000x1_S200000_n_0_0_1.wf HostGlue.zeros (HostGlue.col batch) x g).trans ?_
  rw [zeros_apply, zero_add]
  unfold Cert.Spec.seg
  refine Finset.sum_congr (Finset.filter_congr fun e _ => ?_) fun _ _ => rfl
  rw [show HostGlue.col batch (ix2 e (0 : Fin 1)) = batch (ix1 e) from Cert.ExtendedEdges.column_apply batch _ e]

theorem cnt_apply (g : Fin 2048) : HostGlue.cnt batch (ix1 g) = Cert.Spec.count batch g := by
  unfold HostGlue.cnt
  rw [maximumf_apply, segSum_apply, onesG_apply]
  unfold Cert.Spec.count
  exact congrArg (fun t => max t (1 : EReal)) (Finset.sum_congr rfl fun e _ => onesN_apply e)

theorem segMean_apply (x : FVec Ideal S200000 .f32) (g : Fin 2048) :
    HostGlue.segMean batch x (ix1 g) = Cert.Spec.segMean batch (fun e => x (ix1 e)) g := by
  unfold HostGlue.segMean
  rw [hostDivf_at, segSum_apply, cnt_apply]
  rfl

/-! ## The three tables -/

theorem rowMean_at (s : S200000x256.Idx → EReal) (e : Fin 200000) :
    Stats.rowMean s (ix2 e (0 : Fin 1)) = Cert.Spec.rowMeanAt s e := by
  show Ideal.div (∑ k : Fin 256, s (ix2 e k)) (Ideal.ofBits .f32 0x43800000#32) = Ideal.div (∑ k : Fin 256, s (ix2 e k)) ((256 : ℝ) : EReal)
  rw [Cert.Spec.ofBits_256]

theorem rowSqMean_at (s : S200000x256.Idx → EReal) (e : Fin 200000) :
    Stats.rowSqMean s (ix2 e (0 : Fin 1)) = Cert.Spec.rowSqAt s e := by
  show Ideal.div (∑ k : Fin 256, s (ix2 e k) * s (ix2 e k)) (Ideal.ofBits .f32 0x43800000#32) = Ideal.div (∑ k : Fin 256, s (ix2 e k) * s (ix2 e k)) ((256 : ℝ) : EReal)
  rw [Cert.Spec.ofBits_256]

theorem meanTab_apply (s : S200000x256.Idx → EReal) (g : Fin 2048) :
    HostGlue.meanTab (Stats.rowMean s) batch (ix1 g) = Cert.Spec.meanTab batch s g := by
  unfold HostGlue.meanTab
  rw [segMean_apply]
  unfold Cert.Spec.meanTab
  refine congrArg (fun f => Cert.Spec.segMean batch f g) (funext fun e => ?_)
  exact (col_to_vec _ _ e).trans (rowMean_at s e)

theorem varTab_apply (s : S200000x256.Idx → EReal) (g : Fin 2048) :
    HostGlue.varTab (Stats.rowMean s) (Stats.rowSqMean s) batch (ix1 g) = Cert.Spec.varTabK batch s g := by
  unfold HostGlue.varTab
  rw [maximumf_apply, subf_apply, mulf_apply, segMean_apply, meanTab_apply, epsG_apply]
  unfold Cert.Spec.varTabK
  refine congrArg (fun t => max (t - Cert.Spec.meanTab batch s g * Cert.Spec.meanTab batch s g) Cert.Spec.eps) ?_
  refine congrArg (fun f => Cert.Spec.segMean batch f g) (funext fun e => ?_)
  exact (col_to_vec _ _ e).trans (rowSqMean_at s e)

theorem nodeSq_at (v : S200000x3x128.Idx → EReal) (e : Fin 200000) :
    VStats.nodeSq v (ix3 e (0 : Fin 1) (0 : Fin 1)) = Cert.Spec.nodeSqAt v e := rfl

theorem vecTab_apply (v : S200000x3x128.Idx → EReal) (g : Fin 2048) :
    HostGlue.vecTab (VStats.nodeSq v) batch (ix1 g) = Cert.Spec.vecTab batch v g := by
  unfold HostGlue.vecTab
  rw [maximumf_apply, segMean_apply, epsG_apply]
  unfold Cert.Spec.vecTab
  refine congrArg (fun t => max t Cert.Spec.eps) ?_
  refine congrArg (fun f => Cert.Spec.segMean batch f g) (funext fun e => ?_)
  exact (planes_to_vec _ _ e).trans (nodeSq_at v e)

/-! ## A table read back at the nodes -/

theorem backToNodes_apply (tab : FVec Ideal S2048 .f32) (r : Fin 200000) :
    HostGlue.backToNodes batch tab (ix1 r) = tab (ix1 (Cert.Spec.node (HostGlue.wrapCol batch) r)) := by
  unfold HostGlue.backToNodes
  exact Cert.SegmentScale.entryGather_apply (by decide) gather_S2048_S200000x1_S200000_n_0_n_n_0_1_1.wf tab (HostGlue.wrapCol batch) r

theorem centreCol_apply (s : S200000x256.Idx → EReal) (r : Fin 200000) :
    HostGlue.centreCol (Stats.rowMean s) batch (ix2 r (0 : Fin 1)) = Cert.Spec.meanTab batch s (Cert.Spec.node (HostGlue.wrapCol batch) r) := by
  unfold HostGlue.centreCol
  refine (Cert.ColumnForms.shapeCast_a_a1_apply _ _ r (0 : Fin 1)).trans ?_
  rw [backToNodes_apply, meanTab_apply]

theorem varCol_apply (s : S200000x256.Idx → EReal) (r : Fin 200000) :
    HostGlue.varCol (Stats.rowMean s) (Stats.rowSqMean s) batch (ix2 r (0 : Fin 1)) = Cert.Spec.varTabK batch s (Cert.Spec.node (HostGlue.wrapCol batch) r) := by
  unfold HostGlue.varCol
  refine (Cert.ColumnForms.shapeCast_a_a1_apply _ _ r (0 : Fin 1)).trans ?_
  rw [backToNodes_apply, varTab_apply]

theorem vecCol_apply (v : S200000x3x128.Idx → EReal) (r : Fin 200000) :
    HostGlue.vecCol (VStats.nodeSq v) batch (ix3 r (0 : Fin 1) (0 : Fin 1)) = Cert.Spec.vecTab batch v (Cert.Spec.node (HostGlue.wrapCol batch) r) := by
  unfold HostGlue.vecCol
  refine (vec_to_planes _ _ r (0 : Fin 1) (0 : Fin 1)).trans ?_
  rw [backToNodes_apply, vecTab_apply]

theorem asRow_apply (w : FVec Ideal S256 .f32) (k : Fin 256) : HostGlue.asRow w (ix2 (0 : Fin 1) k) = w (ix1 k) := by
  unfold HostGlue.asRow
  exact shapeCast_a_1a_apply w _ (0 : Fin 1) k

/-! ## The two results -/

theorem sout_apply (s : S200000x256.Idx → EReal) (w b : S256.Idx → EReal) (r : Fin 200000) (k : Fin 256) :
    Results.soutArr s w b batch (ix2 r k)
      = Cert.Spec.soutAt (Cert.Spec.meanTab batch s) (Cert.Spec.varTabK batch s) (HostGlue.wrapCol batch) s w b r k := by
  show Ideal.div (s (ix2 r k) - HostGlue.centreCol (Stats.rowMean s) batch (ix2 r (0 : Fin 1)))
        (HostGlue.varCol (Stats.rowMean s) (Stats.rowSqMean s) batch (ix2 r (0 : Fin 1)))
      * HostGlue.asRow w (ix2 (0 : Fin 1) k) + HostGlue.asRow b (ix2 (0 : Fin 1) k) = _
  rw [centreCol_apply, varCol_apply, asRow_apply, asRow_apply]
  rfl

theorem vout_apply (v : S200000x3x128.Idx → EReal) (r : Fin 200000) (j : Fin 3) (l : Fin 128) :
    Results.voutArr v batch (ix3 r j l) = Cert.Spec.voutAt (Cert.Spec.vecTab batch v) (HostGlue.wrapCol batch) v r j l := by
  show Ideal.div (v (ix3 r j l)) (HostGlue.vecCol (VStats.nodeSq v) batch (ix3 r (0 : Fin 1) (0 : Fin 1))) = _
  rw [vecCol_apply]
  rfl

end Cert.KernelIdeal.KRead

end
-- ==== Proof.LibNodePlanes.lean ====
/-
  A per-node scalar kept as a table [N, 1, 1], gathered and scatter-added along an edge list, read at one entry.

  A table [N, 1, 1] — one number per node, carried with two trailing axes of extent one — indexed by a column
  [E, 1] of integer node numbers:
  * the gather (x[idx]): entry (e, 0, 0) of the result is the table at node idx[e], read as a signed integer
    and clamped into [0, N-1];
  * the accumulating scatter at the extended reals (segment_sum): entry (n, 0, 0) of the result is the
    operand's plus the sum, over the edges e whose node number read as a signed integer is exactly n, of the
    update at (e, 0, 0); an edge whose number is outside [0, N) adds nothing.
  The two unit axes are the window axes; they carry nothing, and every index of [E, 1, 1] is (e, 0, 0), so a sum
  over the updates is a sum over the edges.
-/
import Idealize.ShloMosaic.Lib.ValueIdx
import Idealize.ShloMosaic.PureOps.Ideal.Laws

noncomputable section

open scoped BigOperators

namespace Idealize.ShloMosaic.NodePlanes

open Idealize.ShloMosaic Idealize.ShloMosaic.ValueIdx

/-! ## Indices of [E, 1, 1] are the edges -/

/-- Every index of [E, 1, 1] is (e, 0, 0): the two unit coordinates can only be 0. -/
theorem eq_ix3_planes {E : Nat} (j : (⟨3, ![E, 1, 1]⟩ : Shape).Idx) :
    j = ix3 (j 0) (0 : Fin 1) (0 : Fin 1) := by
  funext a
  match a with
  | ⟨0, _⟩ => rfl
  | ⟨1, _⟩ => exact Subsingleton.elim (α := Fin 1) _ _
  | ⟨2, _⟩ => exact Subsingleton.elim (α := Fin 1) _ _

/-- The index set of [E, 1, 1] is the edge range … -/
def planeEquiv {E : Nat} : (⟨3, ![E, 1, 1]⟩ : Shape).Idx ≃ Fin E where
  toFun i := i 0
  invFun e := ix3 e (0 : Fin 1) (0 : Fin 1)
  left_inv i := (eq_ix3_planes i).symm
  right_inv _ := rfl

/-- … so a sum over it is the sum over the edges. -/
theorem sum_planes {M : Type*} [AddCommMonoid M] {E : Nat} (f : (⟨3, ![E, 1, 1]⟩ : Shape).Idx → M) :
    ∑ i, f i = ∑ e : Fin E, f (ix3 e (0 : Fin 1) (0 : Fin 1)) := by
  rw [← Equiv.sum_comp (planeEquiv (E := E)).symm f]
  rfl

/-! ## The gather of a node's number -/

section Gather
variable {α : Type}

/-- The dimension numbers of x[idx] for a table [N, 1, 1] and node numbers [E, 1]: the node axis is collapsed and
    addressed by the one component of the start index, the two unit axes are the offset axes, slices are 1 × 1 × 1. -/
abbrev planeGatherDims (N E : Nat)
    (wf : GatherDims.WF ⟨3, ![N, 1, 1]⟩ ⟨2, ![E, 1]⟩ ⟨3, ![E, 1, 1]⟩ [1, 2] [0] [] [0] [] 1 ![1, 1, 1]) :
    GatherDims ⟨3, ![N, 1, 1]⟩ ⟨2, ![E, 1]⟩ ⟨3, ![E, 1, 1]⟩ where
  offsetDims := [1, 2]
  collapsedSliceDims := [0]
  operandBatchingDims := []
  startIndicesBatchingDims := []
  startIndexMap := [0]
  indexVectorDim := 1
  sliceSizes := ![1, 1, 1]
  wf := wf

/-- THE GATHER AT (e, 0, 0): the table at edge e's node — its number as a signed integer, clamped into
    [0, N-1]. On the node axis the operand index is the clamped start alone (no batching, no offset on a collapsed
    axis); on the two unit axes both sides are the only element of a one-element range. -/
theorem gather_planes_apply {N E w : Nat} (hN : 0 < N)
    (wf : GatherDims.WF ⟨3, ![N, 1, 1]⟩ ⟨2, ![E, 1]⟩ ⟨3, ![E, 1, 1]⟩ [1, 2] [0] [] [0] [] 1 ![1, 1, 1])
    (x : (⟨3, ![N, 1, 1]⟩ : Shape).Idx → α) (idx : IVec ⟨2, ![E, 1]⟩ w) (e : Fin E) :
    Host.gather (planeGatherDims N E wf) x idx (ix3 e (0 : Fin 1) (0 : Fin 1))
      = x (ix3 (⟨min (idx (ix2 e (0 : Fin 1))).toInt.toNat (N - 1), by omega⟩ : Fin N) (0 : Fin 1) (0 : Fin 1)) := by
  unfold Host.gather
  congr 1
  funext a
  match a with
  | ⟨0, _⟩ =>
    refine Fin.ext ?_
    show (planeGatherDims N E wf).start (ix3 e (0 : Fin 1) (0 : Fin 1)) idx 0
      + (planeGatherDims N E wf).batchCoord (ix3 e (0 : Fin 1) (0 : Fin 1)) 0
      + (planeGatherDims N E wf).offCoord (ix3 e (0 : Fin 1) (0 : Fin 1)) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (planeGatherDims N E wf).startIndexMap from List.mem_singleton.mpr rfl)]
    have hsi : (planeGatherDims N E wf).siIdx (ix3 e (0 : Fin 1) (0 : Fin 1))
        ⟨List.idxOf (0 : Fin 3) (planeGatherDims N E wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ => exact Subsingleton.elim (α := Fin 1) _ _
  | ⟨2, _⟩ => exact Subsingleton.elim (α := Fin 1) _ _

end Gather

/-! ## The accumulating scatter of a per-node number, at the extended reals -/

section Scatter

/-- The dimension numbers of segment_sum of updates [E, 1, 1] into a table [N, 1, 1] at node numbers [E, 1]: the
    node axis is inserted and addressed by the one component of the scatter index, the two unit axes are the
    window axes. -/
abbrev planeScatterDims (N E : Nat)
    (wf : ScatterDims.WF ⟨3, ![N, 1, 1]⟩ ⟨2, ![E, 1]⟩ ⟨3, ![E, 1, 1]⟩ [1, 2] [0] [0] 1) :
    ScatterDims ⟨3, ![N, 1, 1]⟩ ⟨2, ![E, 1]⟩ ⟨3, ![E, 1, 1]⟩ where
  updateWindowDims := [1, 2]
  insertedWindowDims := [0]
  scatterDimsToOperandDims := [0]
  indexVectorDim := 1
  wf := wf

variable {N E w : Nat} (wf : ScatterDims.WF ⟨3, ![N, 1, 1]⟩ ⟨2, ![E, 1]⟩ ⟨3, ![E, 1, 1]⟩ [1, 2] [0] [0] 1)

/-- On the node axis the window starts at edge e's node number, read signed. -/
theorem start_node (idx : IVec ⟨2, ![E, 1]⟩ w) (e : Fin E) :
    (planeScatterDims N E wf).start (ix3 e (0 : Fin 1) (0 : Fin 1)) idx 0 = (idx (ix2 e (0 : Fin 1))).toInt := by
  unfold ScatterDims.start
  rw [dif_pos (show (0 : Fin 3) ∈ (planeScatterDims N E wf).scatterDimsToOperandDims from List.mem_singleton.mpr rfl)]
  have hsi : (planeScatterDims N E wf).siIdx (ix3 e (0 : Fin 1) (0 : Fin 1))
      ⟨List.idxOf (0 : Fin 3) (planeScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the first unit axis the window starts at 0: the scatter index does not name it. -/
theorem start_unit1 (idx : IVec ⟨2, ![E, 1]⟩ w) (e : Fin E) :
    (planeScatterDims N E wf).start (ix3 e (0 : Fin 1) (0 : Fin 1)) idx 1 = 0 := by
  unfold ScatterDims.start
  rw [dif_neg (show ¬ (1 : Fin 3) ∈ ([0] : List (Fin 3)) by decide)]

/-- On the second unit axis the window starts at 0 as well. -/
theorem start_unit2 (idx : IVec ⟨2, ![E, 1]⟩ w) (e : Fin E) :
    (planeScatterDims N E wf).start (ix3 e (0 : Fin 1) (0 : Fin 1)) idx 2 = 0 := by
  unfold ScatterDims.start
  rw [dif_neg (show ¬ (2 : Fin 3) ∈ ([0] : List (Fin 3)) by decide)]

/-- The node axis is inserted: no window coordinate there. -/
theorem window_node (e : Fin E) :
    (planeScatterDims N E wf).window (ix3 e (0 : Fin 1) (0 : Fin 1)) 0 = 0 := by
  unfold ScatterDims.window
  rw [dif_neg (show ¬ (0 : Fin 3) ∈ (planeScatterDims N E wf).sKept by
    simp [ScatterDims.sKept, Shape.kept, List.mem_filter, List.mem_finRange])]

/-- The first unit axis takes the update's second coordinate, which is 0. -/
theorem window_unit1 (e : Fin E) :
    (planeScatterDims N E wf).window (ix3 e (0 : Fin 1) (0 : Fin 1)) 1 = 0 := by
  unfold ScatterDims.window
  rw [dif_pos (show (1 : Fin 3) ∈ (planeScatterDims N E wf).sKept by
    simp [ScatterDims.sKept, Shape.kept, List.mem_filter, List.mem_finRange])]
  rfl

/-- The second unit axis takes the update's third coordinate, which is 0. -/
theorem window_unit2 (e : Fin E) :
    (planeScatterDims N E wf).window (ix3 e (0 : Fin 1) (0 : Fin 1)) 2 = 0 := by
  unfold ScatterDims.window
  rw [dif_pos (show (2 : Fin 3) ∈ (planeScatterDims N E wf).sKept by
    simp [ScatterDims.sKept, Shape.kept, List.mem_filter, List.mem_finRange])]
  rfl

/-- WHERE AN UPDATE LANDS: the update at (e, 0, 0) lands on (n, 0, 0) exactly when edge e's node number, read as a
    signed integer, is n. -/
theorem resultIdx?_planes (idx : IVec ⟨2, ![E, 1]⟩ w) (e : Fin E) (n : Fin N) :
    (planeScatterDims N E wf).resultIdx? (ix3 e (0 : Fin 1) (0 : Fin 1)) idx = some (ix3 n (0 : Fin 1) (0 : Fin 1))
      ↔ (idx (ix2 e (0 : Fin 1))).toInt = (n.val : ℤ) := by
  have h0 := start_node wf idx e
  have h1 := start_unit1 wf idx e
  have h2 := start_unit2 wf idx e
  have w0 := window_node wf e
  have w1 := window_unit1 wf e
  have w2 := window_unit2 wf e
  unfold ScatterDims.resultIdx?
  split
  · rename_i h
    rw [Option.some.injEq]
    constructor
    · intro hf
      have e0 := congrArg (fun f => (f 0).val) hf
      have b0 := h 0
      rw [h0, w0] at b0
      have e0' : ((planeScatterDims N E wf).start (ix3 e (0 : Fin 1) (0 : Fin 1)) idx 0
          + ((planeScatterDims N E wf).window (ix3 e (0 : Fin 1) (0 : Fin 1)) 0 : ℤ)).toNat = n.val := e0
      rw [h0, w0] at e0'
      omega
    · intro hr
      funext a
      match a with
      | ⟨0, _⟩ =>
        refine Fin.ext ?_
        show ((planeScatterDims N E wf).start (ix3 e (0 : Fin 1) (0 : Fin 1)) idx 0
          + ((planeScatterDims N E wf).window (ix3 e (0 : Fin 1) (0 : Fin 1)) 0 : ℤ)).toNat = n.val
        rw [h0, w0]; omega
      | ⟨1, _⟩ => exact Subsingleton.elim (α := Fin 1) _ _
      | ⟨2, _⟩ => exact Subsingleton.elim (α := Fin 1) _ _
  · rename_i h
    constructor
    · intro hf; exact absurd hf (by simp)
    · intro hr
      exfalso; apply h
      intro a
      match a with
      | ⟨0, _⟩ =>
        show 0 ≤ (planeScatterDims N E wf).start (ix3 e (0 : Fin 1) (0 : Fin 1)) idx 0
            + ((planeScatterDims N E wf).window (ix3 e (0 : Fin 1) (0 : Fin 1)) 0 : ℤ)
          ∧ (planeScatterDims N E wf).start (ix3 e (0 : Fin 1) (0 : Fin 1)) idx 0
            + ((planeScatterDims N E wf).window (ix3 e (0 : Fin 1) (0 : Fin 1)) 0 : ℤ) < (N : ℤ)
        rw [h0, w0]; have := n.isLt; omega
      | ⟨1, _⟩ =>
        show 0 ≤ (planeScatterDims N E wf).start (ix3 e (0 : Fin 1) (0 : Fin 1)) idx 1
            + ((planeScatterDims N E wf).window (ix3 e (0 : Fin 1) (0 : Fin 1)) 1 : ℤ)
          ∧ (planeScatterDims N E wf).start (ix3 e (0 : Fin 1) (0 : Fin 1)) idx 1
            + ((planeScatterDims N E wf).window (ix3 e (0 : Fin 1) (0 : Fin 1)) 1 : ℤ) < ((1 : ℕ) : ℤ)
        rw [h1, w1]; omega
      | ⟨2, _⟩ =>
        show 0 ≤ (planeScatterDims N E wf).start (ix3 e (0 : Fin 1) (0 : Fin 1)) idx 2
            + ((planeScatterDims N E wf).window (ix3 e (0 : Fin 1) (0 : Fin 1)) 2 : ℤ)
          ∧ (planeScatterDims N E wf).start (ix3 e (0 : Fin 1) (0 : Fin 1)) idx 2
            + ((planeScatterDims N E wf).window (ix3 e (0 : Fin 1) (0 : Fin 1)) 2 : ℤ) < ((1 : ℕ) : ℤ)
        rw [h2, w2]; omega

/-- THE ACCUMULATING SCATTER AT (n, 0, 0), over the extended reals: the operand's entry plus the sum, over the
    edges whose node number is n, of the update's entry. -/
theorem scatterAdd_planes_apply {φ : FTy} (x : (⟨3, ![N, 1, 1]⟩ : Shape).Idx → EReal) (idx : IVec ⟨2, ![E, 1]⟩ w)
    (upd : (⟨3, ![E, 1, 1]⟩ : Shape).Idx → EReal) (n : Fin N) :
    Host.scatterAdd (F := Ideal) (φ := φ) (planeScatterDims N E wf) x idx upd (ix3 n (0 : Fin 1) (0 : Fin 1))
      = x (ix3 n (0 : Fin 1) (0 : Fin 1))
        + ∑ e ∈ Finset.univ.filter (fun e : Fin E => (idx (ix2 e (0 : Fin 1))).toInt = (n.val : ℤ)),
            upd (ix3 e (0 : Fin 1) (0 : Fin 1)) := by
  show x (ix3 n (0 : Fin 1) (0 : Fin 1))
    + ∑ j ∈ Finset.univ.filter (fun j => (planeScatterDims N E wf).resultIdx? j idx
        = some (ix3 n (0 : Fin 1) (0 : Fin 1))), upd j = _
  congr 1
  rw [Finset.sum_filter, sum_planes, Finset.sum_filter]
  refine Finset.sum_congr rfl fun e _ => ?_
  simp only [resultIdx?_planes wf idx e n]

end Scatter

end Idealize.ShloMosaic.NodePlanes

end
-- ==== Proof.RefRead.lean ====
/-
  The reference program read at an index.

  Every stage of the reference is read at one entry of its result and joined to the specification's quantities:
  the wrapped segment numbers (a nonnegative word is left alone), the segment counts, the table of segment means of
  the per-node channel means, the table of segment means of the per-node mean squared deviations from the mean each
  node reads (floored), the normalised scalar features, the table of segment means of the per-node squared vector
  lengths (floored), and the scaled vector features.

  Two kinds of step occur. A layout step (a column view of a vector, a view of a vector with trailing unit axes,
  a broadcast along unit axes) reads its operand at the evident entry. A data-dependent step is either the
  accumulating scatter along the segment numbers — entry g of the result is the sum over the nodes whose segment
  number, read as a signed integer, is g — or the gather at the wrapped numbers — entry e of the result is the table
  at node e's number clamped into [0, 2047].
-/
import proofs.«149233_j2104533975136_1_alg».proof.Proof.Gen.ReferenceIdeal.Read
import proofs.«149233_j2104533975136_1_alg».proof.Proof.Spec
import proofs.«149233_j2104533975136_1_alg».proof.Proof.LibRowGatherScatter
import proofs.«149233_j2104533975136_1_alg».proof.Proof.LibSelfLoopSplit
import proofs.«149233_j2104533975136_1_alg».proof.Proof.LibNodePlanes
import proofs.«149233_j2104533975136_1_alg».proof.Proof.LibExtendedEdges
import proofs.«149233_j2104533975136_1_alg».proof.Proof.LibColumnForms

noncomputable section

open scoped BigOperators

namespace Cert.ReferenceIdeal.RefRead

open Cert.ReferenceIdeal Cert.ReferenceIdeal.Read Idealize.ShloMosaic Idealize.ShloMosaic.ValueIdx

/-! ## The wrapped segment numbers -/

/-- The three wrapped columns of the program are one column: the same operations on the same argument. -/
theorem wrap_eq41 (x4 : IVec S200000 32) : val_main_v41 (F := Ideal) x4 = val_main_v20 (F := Ideal) x4 := rfl

theorem wrap_eq70 (x4 : IVec S200000 32) : val_main_v70 (F := Ideal) x4 = val_main_v20 (F := Ideal) x4 := rfl

/-- A column view of a vector reads, at (e, 0), the vector's entry e: the index function of the column view. -/
theorem idx_col (e : Fin 200000) : idx_main_v20 (ix2 e (0 : Fin 1)) = ix1 e :=
  funext fun a => Fin.ext (by match a with | ⟨0, _⟩ => rfl)

/-- A word that is not negative is not moved: the select on "word < 0" answers the word. -/
theorem wrap_nonneg (x4 : IVec S200000 32) (e : Fin 200000) (h : 0 ≤ (x4 (ix1 e)).toInt) :
    val_main_v20 (F := Ideal) x4 (ix2 e (0 : Fin 1)) = x4 (ix1 e) := by
  rw [val_main_v20_apply, idx_col, val_main_v19_apply, val_main_v16_apply, val_main_v15_apply, val_main_c_apply]
  exact Cert.ExtendedEdges.select_slt_zero_of_nonneg _ _ h

/-! ## The segment counts -/

/-- The unwrapped column of segment numbers at (e, 0) is node e's number. -/
theorem v2_apply (x4 : IVec S200000 32) (e : Fin 200000) :
    val_main_v2 (F := Ideal) x4 (ix2 e (0 : Fin 1)) = x4 (ix1 e) :=
  Cert.ExtendedEdges.column_apply x4 _ e

/-- The scatter of ones: entry g is the number of nodes of segment g, as a sum of ones. -/
theorem v3_apply (x4 : IVec S200000 32) (g : Fin 2048) :
    val_main_v3 (F := Ideal) x4 (ix1 g) = ∑ _e ∈ Cert.Spec.seg x4 g, (1 : EReal) := by
  refine (Cert.SelfLoops.scatterAdd_entries_apply (N := 2048) (E := 200000)
    Cert.ReferenceIdeal.Gen.scatter_S2048_S200000x1_S200000_n_0_0_1_wf (φ := .f32)
    (val_main_v1 (F := Ideal)) (val_main_v2 (F := Ideal) x4) (val_main_v0 (F := Ideal)) g).trans ?_
  have h1 : val_main_v1 (F := Ideal) (ix1 g) = 0 := Cert.Spec.ofBits_zero
  have h0 : ∀ k : Fin 200000, val_main_v0 (F := Ideal) (ix1 k) = 1 := fun k => Cert.Spec.ofBits_one
  rw [h1, zero_add]
  unfold Cert.Spec.seg
  exact Finset.sum_congr (Finset.filter_congr fun k _ => by rw [v2_apply x4 k]) (fun k _ => h0 k)

/-- THE COUNT of segment g: the number of its nodes, at least one. -/
theorem count_apply (x4 : IVec S200000 32) (g : Fin 2048) :
    val_main_v5 (F := Ideal) x4 (ix1 g) = Cert.Spec.count x4 g := by
  have h4 : val_main_v4 (F := Ideal) (ix1 g) = 1 := Cert.Spec.ofBits_one
  show max (val_main_v3 (F := Ideal) x4 (ix1 g)) (val_main_v4 (F := Ideal) (ix1 g)) = _
  rw [v3_apply, h4]
  rfl

/-- The count vector viewed as a column reads the count. -/
theorem v13_apply (x4 : IVec S200000 32) (g : Fin 2048) :
    val_main_v13 (F := Ideal) x4 (ix2 g (0 : Fin 1)) = Cert.Spec.count x4 g :=
  (Cert.ColumnForms.shapeCast_a_a1_apply (val_main_v5 (F := Ideal) x4) _ g (0 : Fin 1)).trans (count_apply x4 g)

theorem v32_apply (x4 : IVec S200000 32) (g : Fin 2048) :
    val_main_v32 (F := Ideal) x4 (ix2 g (0 : Fin 1)) = Cert.Spec.count x4 g :=
  (Cert.ColumnForms.shapeCast_a_a1_apply (val_main_v5 (F := Ideal) x4) _ g (0 : Fin 1)).trans (count_apply x4 g)

/-! ## The accumulating scatter of a column along the segment numbers -/

/-- A column of per-node numbers added into a zero column at the nodes' segment numbers: entry (g, 0) is the sum
    over segment g. -/
theorem colScatter_seg (x4 : IVec S200000 32) (Z : FVec Ideal S2048x1 .f32) (hZ : ∀ p, Z p = (0 : EReal))
    (idxcol : IVec S200000x1 32) (hidx : ∀ e : Fin 200000, idxcol (ix2 e (0 : Fin 1)) = x4 (ix1 e))
    (upd : FVec Ideal S200000x1 .f32) (g : Fin 2048) :
    Host.scatterAdd (F := Ideal) (φ := .f32) scatter_S2048x1_S200000x1_S200000x1_1_0_0_1 Z idxcol upd (ix2 g (0 : Fin 1))
      = ∑ e ∈ Cert.Spec.seg x4 g, upd (ix2 e (0 : Fin 1)) := by
  refine (RowOps.scatterAdd_rows_apply (N := 2048) (E := 200000) (C := 1)
    Cert.ReferenceIdeal.Gen.scatter_S2048x1_S200000x1_S200000x1_1_0_0_1_wf (φ := .f32) Z idxcol upd g (0 : Fin 1)).trans ?_
  rw [hZ, zero_add]
  unfold Cert.Spec.seg
  exact Finset.sum_congr (Finset.filter_congr fun e _ => by rw [hidx e]) (fun _ _ => rfl)

/-! ## The table of segment means -/

/-- Node e's channel sum. -/
theorem v6_apply (x0 : FVec Ideal S200000x256 .f32) (e : Fin 200000) :
    val_main_v6 (F := Ideal) x0 (ix1 e) = ∑ k : Fin 256, x0 (ix2 e k) := by
  have hc : ∀ j, val_main_cst_2 (F := Ideal) j = (0 : EReal) := fun _ => Cert.Spec.ofBits_zero
  rw [val_main_v6_apply, hc, zero_add]
  exact Finset.sum_congr rfl fun k _ => congrArg x0
    (funext fun a => Fin.ext (by match a with | ⟨0, _⟩ => rfl | ⟨1, _⟩ => rfl))

/-- Node e's channel mean, as a column entry. -/
theorem v9_apply (x0 : FVec Ideal S200000x256 .f32) (e : Fin 200000) :
    val_main_v9 (F := Ideal) x0 (ix2 e (0 : Fin 1)) = Cert.Spec.rowMeanAt x0 e := by
  have h7 : val_main_v7 (F := Ideal) x0 (ix2 e (0 : Fin 1)) = val_main_v6 (F := Ideal) x0 (ix1 e) :=
    Cert.ExtendedEdges.column_apply (val_main_v6 (F := Ideal) x0) _ e
  have h8 : val_main_v8 (F := Ideal) (ix2 e (0 : Fin 1)) = ((256 : ℝ) : EReal) := Cert.Spec.ofBits_256
  show Ideal.div (val_main_v7 (F := Ideal) x0 (ix2 e (0 : Fin 1))) (val_main_v8 (F := Ideal) (ix2 e (0 : Fin 1))) = _
  rw [h7, v6_apply, h8]
  rfl

/-- The sums of the node means over the segments. -/
theorem v12_apply (x0 : FVec Ideal S200000x256 .f32) (x4 : IVec S200000 32) (g : Fin 2048) :
    val_main_v12 (F := Ideal) x0 x4 (ix2 g (0 : Fin 1)) = ∑ e ∈ Cert.Spec.seg x4 g, Cert.Spec.rowMeanAt x0 e := by
  refine (colScatter_seg x4 (val_main_v10 (F := Ideal)) (fun _ => Cert.Spec.ofBits_zero) (val_main_v11 (F := Ideal) x4)
    (fun e => Cert.ExtendedEdges.column_apply x4 _ e) (val_main_v9 (F := Ideal) x0) g).trans ?_
  exact Finset.sum_congr rfl fun e _ => v9_apply x0 e

/-- THE MEAN TABLE at segment g. -/
theorem meanTab_apply (x0 : FVec Ideal S200000x256 .f32) (x4 : IVec S200000 32) (g : Fin 2048) :
    val_main_v14 (F := Ideal) x0 x4 (ix2 g (0 : Fin 1)) = Cert.Spec.meanTab x4 x0 g := by
  rw [val_main_v14_apply, Ideal.hostDivf_def, v12_apply, v13_apply]
  unfold Cert.Spec.meanTab Cert.Spec.segMean
  rfl

/-! ## The variance table -/

/-- The mean node e reads: the mean table at e's wrapped number clamped into [0, 2047]. The gather's clamped
    position and the specification's are the same number. -/
theorem v21_apply (x0 : FVec Ideal S200000x256 .f32) (x4 : IVec S200000 32) (e : Fin 200000) :
    val_main_v21 (F := Ideal) x0 x4 (ix2 e (0 : Fin 1))
      = Cert.Spec.meanTab x4 x0 (Cert.Spec.node (val_main_v20 (F := Ideal) x4) e) := by
  refine (RowOps.gather_rows_apply (N := 2048) (E := 200000) (C := 1) (by decide)
    Cert.ReferenceIdeal.Gen.gather_S2048x1_S200000x1_S200000x1_1_0_n_n_0_1_11_wf
    (val_main_v14 (F := Ideal) x0 x4) (val_main_v20 (F := Ideal) x4) e (0 : Fin 1)).trans ?_
  exact meanTab_apply x0 x4 _

/-- A column broadcast along the channels reads its one entry of the row. -/
theorem idx_bcast_row (e : Fin 200000) (k : Fin 256) : idx_main_v22 (ix2 e k) = ix2 e (0 : Fin 1) :=
  funext fun a => Fin.ext (by match a with | ⟨0, _⟩ => rfl | ⟨1, _⟩ => rfl)

/-- The deviation of channel k of node e from the mean node e reads. -/
theorem v23_apply (x0 : FVec Ideal S200000x256 .f32) (x4 : IVec S200000 32) (e : Fin 200000) (k : Fin 256) :
    val_main_v23 (F := Ideal) x0 x4 (ix2 e k)
      = x0 (ix2 e k) - Cert.Spec.meanTab x4 x0 (Cert.Spec.node (val_main_v20 (F := Ideal) x4) e) := by
  rw [val_main_v23_apply, Ideal.subf_def, val_main_v22_apply, idx_bcast_row, v21_apply]

/-- Node e's sum of squared deviations. -/
theorem v25_apply (x0 : FVec Ideal S200000x256 .f32) (x4 : IVec S200000 32) (e : Fin 200000) :
    val_main_v25 (F := Ideal) x0 x4 (ix1 e)
      = ∑ k : Fin 256, (x0 (ix2 e k) - Cert.Spec.meanTab x4 x0 (Cert.Spec.node (val_main_v20 (F := Ideal) x4) e))
          * (x0 (ix2 e k) - Cert.Spec.meanTab x4 x0 (Cert.Spec.node (val_main_v20 (F := Ideal) x4) e)) := by
  have hc : ∀ j, val_main_cst_6 (F := Ideal) j = (0 : EReal) := fun _ => Cert.Spec.ofBits_zero
  rw [val_main_v25_apply, hc, zero_add]
  refine Finset.sum_congr rfl fun k _ => ?_
  have hi : idx_main_v25 (ix1 e) k = ix2 e k :=
    funext fun a => Fin.ext (by match a with | ⟨0, _⟩ => rfl | ⟨1, _⟩ => rfl)
  rw [hi, val_main_v24_apply, Ideal.mulf_def, v23_apply]

/-- Node e's mean squared deviation, as a column entry. -/
theorem v28_apply (x0 : FVec Ideal S200000x256 .f32) (x4 : IVec S200000 32) (e : Fin 200000) :
    val_main_v28 (F := Ideal) x0 x4 (ix2 e (0 : Fin 1))
      = Cert.Spec.rowDevAt x0 (fun e => Cert.Spec.meanTab x4 x0 (Cert.Spec.node (val_main_v20 (F := Ideal) x4) e)) e := by
  have h26 : val_main_v26 (F := Ideal) x0 x4 (ix2 e (0 : Fin 1)) = val_main_v25 (F := Ideal) x0 x4 (ix1 e) :=
    Cert.ExtendedEdges.column_apply (val_main_v25 (F := Ideal) x0 x4) _ e
  have h27 : val_main_v27 (F := Ideal) (ix2 e (0 : Fin 1)) = ((256 : ℝ) : EReal) := Cert.Spec.ofBits_256
  rw [val_main_v28_apply, Ideal.hostDivf_def, h26, v25_apply, h27]
  unfold Cert.Spec.rowDevAt
  rfl

/-- The sums of the node deviations over the segments. -/
theorem v31_apply (x0 : FVec Ideal S200000x256 .f32) (x4 : IVec S200000 32) (g : Fin 2048) :
    val_main_v31 (F := Ideal) x0 x4 (ix2 g (0 : Fin 1))
      = ∑ e ∈ Cert.Spec.seg x4 g,
          Cert.Spec.rowDevAt x0 (fun e => Cert.Spec.meanTab x4 x0 (Cert.Spec.node (val_main_v20 (F := Ideal) x4) e)) e := by
  refine (colScatter_seg x4 (val_main_v29 (F := Ideal)) (fun _ => Cert.Spec.ofBits_zero) (val_main_v30 (F := Ideal) x4)
    (fun e => Cert.ExtendedEdges.column_apply x4 _ e) (val_main_v28 (F := Ideal) x0 x4) g).trans ?_
  exact Finset.sum_congr rfl fun e _ => v28_apply x0 x4 e

/-- THE VARIANCE TABLE at segment g: the segment mean of the mean squared deviations, floored. -/
theorem varTab_apply (x0 : FVec Ideal S200000x256 .f32) (x4 : IVec S200000 32) (g : Fin 2048) :
    val_main_v35 (F := Ideal) x0 x4 (ix2 g (0 : Fin 1))
      = Cert.Spec.varTabR x4 (val_main_v20 (F := Ideal) x4) x0 g := by
  have h34 : val_main_v34 (F := Ideal) (ix2 g (0 : Fin 1)) = Cert.Spec.eps := rfl
  rw [val_main_v35_apply, Ideal.maximumf_def, val_main_v33_apply, Ideal.hostDivf_def, v31_apply, v32_apply, h34]
  unfold Cert.Spec.varTabR Cert.Spec.segMean
  rfl

/-! ## The normalised scalar features -/

/-- The variance node r reads. -/
theorem v42_apply (x0 : FVec Ideal S200000x256 .f32) (x4 : IVec S200000 32) (r : Fin 200000) :
    val_main_v42 (F := Ideal) x0 x4 (ix2 r (0 : Fin 1))
      = Cert.Spec.varTabR x4 (val_main_v20 (F := Ideal) x4) x0 (Cert.Spec.node (val_main_v20 (F := Ideal) x4) r) := by
  refine (RowOps.gather_rows_apply (N := 2048) (E := 200000) (C := 1) (by decide)
    Cert.ReferenceIdeal.Gen.gather_S2048x1_S200000x1_S200000x1_1_0_n_n_0_1_11_wf
    (val_main_v35 (F := Ideal) x0 x4) (val_main_v41 (F := Ideal) x4) r (0 : Fin 1)).trans ?_
  rw [wrap_eq41]
  exact varTab_apply x0 x4 _

theorem idx_bcast_row43 (r : Fin 200000) (k : Fin 256) : idx_main_v43 (ix2 r k) = ix2 r (0 : Fin 1) :=
  funext fun a => Fin.ext (by match a with | ⟨0, _⟩ => rfl | ⟨1, _⟩ => rfl)

/-- A vector of 256 weights broadcast over the nodes reads weight k. -/
theorem v46_apply (x2 : FVec Ideal S256 .f32) (r : Fin 200000) (k : Fin 256) :
    val_main_v46 (F := Ideal) x2 (ix2 r k) = x2 (ix1 k) := by
  rw [val_main_v46_apply, val_main_v45_apply]
  exact congrArg x2 (funext fun a => Fin.ext (by match a with | ⟨0, _⟩ => rfl))

theorem v49_apply (x3 : FVec Ideal S256 .f32) (r : Fin 200000) (k : Fin 256) :
    val_main_v49 (F := Ideal) x3 (ix2 r k) = x3 (ix1 k) := by
  rw [val_main_v49_apply, val_main_v48_apply]
  exact congrArg x3 (funext fun a => Fin.ext (by match a with | ⟨0, _⟩ => rfl))

/-- THE SCALAR RESULT at node r, channel k. -/
theorem sout_apply (x0 : FVec Ideal S200000x256 .f32) (x2 x3 : FVec Ideal S256 .f32) (x4 : IVec S200000 32)
    (r : Fin 200000) (k : Fin 256) :
    val_main_v50 (F := Ideal) x0 x2 x3 x4 (ix2 r k)
      = Cert.Spec.soutAt (Cert.Spec.meanTab x4 x0) (Cert.Spec.varTabR x4 (val_main_v20 (F := Ideal) x4) x0)
          (val_main_v20 (F := Ideal) x4) x0 x2 x3 r k := by
  rw [val_main_v50_apply, Ideal.addf_def, val_main_v47_apply, Ideal.mulf_def, val_main_v44_apply, Ideal.hostDivf_def,
    v23_apply, val_main_v43_apply, idx_bcast_row43, v42_apply, v46_apply, v49_apply]
  rfl

/-! ## The vector scale table and the scaled vector features -/

/-- Lane l of node e: the sum over the three components of the squares. -/
theorem v53_apply (x1 : FVec Ideal S200000x3x128 .f32) (e : Fin 200000) (l : Fin 128) :
    val_main_v53 (F := Ideal) x1 (ix3 e (0 : Fin 1) l) = ∑ j : Fin 3, x1 (ix3 e j l) * x1 (ix3 e j l) := by
  have hc12 : ∀ j, val_main_cst_12 (F := Ideal) j = (0 : EReal) := fun _ => Cert.Spec.ofBits_zero
  have hi53 : idx_main_v53 (ix3 e (0 : Fin 1) l) = ix2 e l :=
    funext fun a => Fin.ext (by match a with | ⟨0, _⟩ => rfl | ⟨1, _⟩ => rfl)
  rw [val_main_v53_apply, hi53, val_main_v52_apply, hc12, zero_add]
  refine Finset.sum_congr rfl fun j _ => ?_
  have hi52 : idx_main_v52 (ix2 e l) j = ix3 e j l :=
    funext fun a => Fin.ext (by match a with | ⟨0, _⟩ => rfl | ⟨1, _⟩ => rfl | ⟨2, _⟩ => rfl)
  rw [hi52, val_main_v51_apply, Ideal.mulf_def]

/-- Node e: the sum over the lanes of the lane sums. -/
theorem v54_apply (x1 : FVec Ideal S200000x3x128 .f32) (e : Fin 200000) :
    val_main_v54 (F := Ideal) x1 (ix2 e (0 : Fin 1))
      = ∑ l : Fin 128, ∑ j : Fin 3, x1 (ix3 e j l) * x1 (ix3 e j l) := by
  have hc13 : ∀ j, val_main_cst_13 (F := Ideal) j = (0 : EReal) := fun _ => Cert.Spec.ofBits_zero
  rw [val_main_v54_apply, hc13, zero_add]
  refine Finset.sum_congr rfl fun l _ => ?_
  have hi54 : idx_main_v54 (ix2 e (0 : Fin 1)) l = ix3 e (0 : Fin 1) l :=
    funext fun a => Fin.ext (by match a with | ⟨0, _⟩ => rfl | ⟨1, _⟩ => rfl | ⟨2, _⟩ => rfl)
  rw [hi54, v53_apply]

/-- Node e's squared vector length summed over the lanes, over the number whose pattern is 128.0. -/
theorem v57_apply (x1 : FVec Ideal S200000x3x128 .f32) (e : Fin 200000) :
    val_main_v57 (F := Ideal) x1 (ix3 e (0 : Fin 1) (0 : Fin 1)) = Cert.Spec.nodeSqAt x1 e := by
  have h56 : val_main_v56 (F := Ideal) (ix3 e (0 : Fin 1) (0 : Fin 1)) = Ideal.ofBits .f32 0x43000000#32 := rfl
  have hi55 : idx_main_v55 (ix3 e (0 : Fin 1) (0 : Fin 1)) = ix2 e (0 : Fin 1) :=
    funext fun a => Fin.ext (by match a with | ⟨0, _⟩ => rfl | ⟨1, _⟩ => rfl)
  rw [val_main_v57_apply, Ideal.hostDivf_def, h56, val_main_v55_apply, hi55, v54_apply]
  unfold Cert.Spec.nodeSqAt
  rfl

/-- The count vector viewed with two trailing unit axes reads the count. -/
theorem v61_apply (x4 : IVec S200000 32) (g : Fin 2048) :
    val_main_v61 (F := Ideal) x4 (ix3 g (0 : Fin 1) (0 : Fin 1)) = Cert.Spec.count x4 g := by
  have hi : idx_main_v61 (ix3 g (0 : Fin 1) (0 : Fin 1)) = ix1 g :=
    funext fun a => Fin.ext (by
      match a with
      | ⟨0, _⟩ =>
        show (g.val * 1 + 0) * 1 + 0 = g.val
        omega)
  rw [val_main_v61_apply, hi, count_apply]

/-- The sums of the node squared lengths over the segments. -/
theorem v60_apply (x1 : FVec Ideal S200000x3x128 .f32) (x4 : IVec S200000 32) (g : Fin 2048) :
    val_main_v60 (F := Ideal) x1 x4 (ix3 g (0 : Fin 1) (0 : Fin 1)) = ∑ e ∈ Cert.Spec.seg x4 g, Cert.Spec.nodeSqAt x1 e := by
  refine (NodePlanes.scatterAdd_planes_apply (N := 2048) (E := 200000)
    Cert.ReferenceIdeal.Gen.scatter_S2048x1x1_S200000x1_S200000x1x1_12_0_0_1_wf (φ := .f32)
    (val_main_v58 (F := Ideal)) (val_main_v59 (F := Ideal) x4) (val_main_v57 (F := Ideal) x1) g).trans ?_
  have h58 : val_main_v58 (F := Ideal) (ix3 g (0 : Fin 1) (0 : Fin 1)) = 0 := Cert.Spec.ofBits_zero
  have h59 : ∀ e : Fin 200000, val_main_v59 (F := Ideal) x4 (ix2 e (0 : Fin 1)) = x4 (ix1 e) :=
    fun e => Cert.ExtendedEdges.column_apply x4 _ e
  rw [h58, zero_add]
  unfold Cert.Spec.seg
  exact Finset.sum_congr (Finset.filter_congr fun e _ => by rw [h59 e]) (fun e _ => v57_apply x1 e)

/-- THE VECTOR SCALE TABLE at segment g. -/
theorem vecTab_apply (x1 : FVec Ideal S200000x3x128 .f32) (x4 : IVec S200000 32) (g : Fin 2048) :
    val_main_v64 (F := Ideal) x1 x4 (ix3 g (0 : Fin 1) (0 : Fin 1)) = Cert.Spec.vecTab x4 x1 g := by
  have h63 : val_main_v63 (F := Ideal) (ix3 g (0 : Fin 1) (0 : Fin 1)) = Cert.Spec.eps := rfl
  rw [val_main_v64_apply, Ideal.maximumf_def, val_main_v62_apply, Ideal.hostDivf_def, v60_apply, v61_apply, h63]
  unfold Cert.Spec.vecTab Cert.Spec.segMean
  rfl

/-- The scale node r reads. -/
theorem v71_apply (x1 : FVec Ideal S200000x3x128 .f32) (x4 : IVec S200000 32) (r : Fin 200000) :
    val_main_v71 (F := Ideal) x1 x4 (ix3 r (0 : Fin 1) (0 : Fin 1))
      = Cert.Spec.vecTab x4 x1 (Cert.Spec.node (val_main_v20 (F := Ideal) x4) r) := by
  refine (NodePlanes.gather_planes_apply (N := 2048) (E := 200000) (by decide)
    Cert.ReferenceIdeal.Gen.gather_S2048x1x1_S200000x1_S200000x1x1_12_0_n_n_0_1_111_wf
    (val_main_v64 (F := Ideal) x1 x4) (val_main_v70 (F := Ideal) x4) r).trans ?_
  rw [wrap_eq70]
  exact vecTab_apply x1 x4 _

/-- THE VECTOR RESULT at node r, component j, lane l. -/
theorem vout_apply (x1 : FVec Ideal S200000x3x128 .f32) (x4 : IVec S200000 32) (r : Fin 200000) (j : Fin 3) (l : Fin 128) :
    val_main_v73 (F := Ideal) x1 x4 (ix3 r j l)
      = Cert.Spec.voutAt (Cert.Spec.vecTab x4 x1) (val_main_v20 (F := Ideal) x4) x1 r j l := by
  have hi : idx_main_v72 (ix3 r j l) = ix3 r (0 : Fin 1) (0 : Fin 1) :=
    funext fun a => Fin.ext (by match a with | ⟨0, _⟩ => rfl | ⟨1, _⟩ => rfl | ⟨2, _⟩ => rfl)
  rw [val_main_v73_apply, Ideal.hostDivf_def, val_main_v72_apply, hi, v71_apply]
  rfl

end Cert.ReferenceIdeal.RefRead

end
-- ==== Proof.Bridge.lean ====
/-
  The two programs' results are the same arrays.

  Index by index both normalised scalar features are the specification's expression over a mean table and a variance
  table, and both scaled vector features the expression over the vector table. The mean and vector tables are
  literally the same. The variance tables differ in form — the mean of squares minus the squared mean against the
  mean squared deviation from the mean each node reads — and agree on real-valued features. Both programs wrap the
  segment numbers by the same operations.
-/
import proofs.«149233_j2104533975136_1_alg».proof.Proof.KRead
import proofs.«149233_j2104533975136_1_alg».proof.Proof.RefRead
import proofs.«149233_j2104533975136_1_alg».proof.Proof.Spec

set_option maxRecDepth 16384

noncomputable section

open Idealize.ShloMosaic Idealize.ShloMosaic.ValueIdx

namespace Cert.Bridge

/-- The reference's column of wrapped segment numbers is the kernel's. -/
theorem wrap_same (batch : (⟨1, ![200000]⟩ : Shape).Idx → BitVec 32) :
    Cert.ReferenceIdeal.Read.val_main_v20 (F := Ideal) batch = Cert.KernelIdeal.HostGlue.wrapCol batch := rfl

/-- The normalised scalar features: the reference's array is the kernel's, on real-valued features. -/
theorem sout_same (s : (⟨2, ![200000, 256]⟩ : Shape).Idx → EReal) (w b : (⟨1, ![256]⟩ : Shape).Idx → EReal)
    (batch : (⟨1, ![200000]⟩ : Shape).Idx → BitVec 32) (hs : ∀ i, ∃ x : ℝ, s i = (x : EReal)) :
    Cert.ReferenceIdeal.Read.val_main_v50 (F := Ideal) s w b batch = Cert.KernelIdeal.Results.soutArr s w b batch := by
  funext i
  obtain ⟨r, k, rfl⟩ : ∃ (r : Fin 200000) (k : Fin 256), i = ix2 r k := ⟨i 0, i 1, eq_ix2 i⟩
  rw [Cert.ReferenceIdeal.RefRead.sout_apply, Cert.KernelIdeal.KRead.sout_apply, wrap_same]
  unfold Cert.Spec.soutAt
  rw [Cert.Spec.varTab_agree batch (Cert.KernelIdeal.HostGlue.wrapCol batch) (Cert.KernelIdeal.KRead.wrap_nonneg batch) s hs]

/-- The scaled vector features: the reference's array is the kernel's. -/
theorem vout_same (v : (⟨3, ![200000, 3, 128]⟩ : Shape).Idx → EReal) (batch : (⟨1, ![200000]⟩ : Shape).Idx → BitVec 32) :
    Cert.ReferenceIdeal.Read.val_main_v73 (F := Ideal) v batch = Cert.KernelIdeal.Results.voutArr v batch := by
  funext i
  obtain ⟨r, j, l, rfl⟩ : ∃ (r : Fin 200000) (j : Fin 3) (l : Fin 128), i = ix3 r j l := ⟨i 0, i 1, i 2, eq_ix3 i⟩
  rw [Cert.ReferenceIdeal.RefRead.vout_apply, Cert.KernelIdeal.KRead.vout_apply, wrap_same]

end Cert.Bridge

end
-- ==== Proof.FiniteScalars.lean ====
/-
  From the precondition "every input is finite" to "every scalar feature is a real number".

  The precondition is the conjunction of four tests of the form all(|x| < +inf), one per floating-point input. Its
  value is the one-bit word 1, so each conjunct is 1; a conjunction of all entries that is 1 has a 1 at every entry;
  and at one entry, |x| < +inf over the extended reals — with |x| = max x (-x) and +inf the top element — leaves
  only the real numbers, since both infinite values have |x| equal to the top element.
-/
import Mathlib.Tactic
import proofs.«149233_j2104533975136_1_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FiniteScalars

open Idealize.ShloMosaic

/-- The single-precision pattern of +inf denotes the top element of the extended reals. -/
theorem inf_f32 : Ideal.ofBits .f32 0x7F800000#32 = (⊤ : EReal) := by
  simp [Ideal.ofBits, Ideal.ieee]

/-- An extended real whose absolute value max x (-x) is below the top element is a real number: at either
    infinite value the maximum is the top element itself. -/
theorem real_of_abs_lt_top (x : EReal) (h : max x (-x) < ⊤) : ∃ r : ℝ, x = (r : EReal) := by
  induction x using EReal.rec with
  | bot => simp at h
  | coe r => exact ⟨r, rfl⟩
  | top => simp at h

/-- The element test read back: the ordered comparison |x| < +inf being the word 1 makes x a real number. -/
theorem real_of_cmp (x : EReal)
    (h : Ideal.cmp .olt (max x (-x)) (Ideal.ofBits .f32 0x7F800000#32) = 1#1) : ∃ r : ℝ, x = (r : EReal) := by
  rw [inf_f32] at h
  by_cases hlt : max x (-x) < ⊤
  · exact real_of_abs_lt_top x hlt
  · exfalso
    simp [Ideal.cmp, hlt] at h

/-- A pointwise conjunction of one-bit words that is 1 at an index has both operands 1 there. -/
theorem andi_apply_eq_one {s : Shape} {x y : IVec s 1} {i : s.Idx} (h : andi x y i = 1#1) :
    x i = 1#1 ∧ y i = 1#1 :=
  IntOp.andi_eq_one.1 h

/-- The scalar shape has one index. -/
instance : Subsingleton Cert.Pre_finite_inputs.S_.Idx := ⟨fun a b => funext fun d => d.elim0⟩

/-- Under the precondition every entry of the first input is a real number. The precondition's value at its one
    index is ((c0 ∧ c1) ∧ c2) ∧ c3 with c0 the test of the first input; taking the left conjunct three times gives
    c0 = 1, the all-reduction gives the element test at every index, and the element test gives the real. -/
theorem scalars_real [Cert.Pre_finite_inputs.Facts]
    (a0 : FVec Ideal Cert.Pre_finite_inputs.S200000x256 .f32)
    (a1 : FVec Ideal Cert.Pre_finite_inputs.S200000x3x128 .f32)
    (a2 a3 : FVec Ideal Cert.Pre_finite_inputs.S256 .f32)
    (a4 : IVec Cert.Pre_finite_inputs.S200000 32)
    (h : Cert.Pre_finite_inputs.fn (F := Ideal) a0 a1 a2 a3 a4 = (fun _ => 1#1)) :
    ∀ i, ∃ x : ℝ, a0 i = (x : EReal) := by
  intro i
  have h18 := congrFun h ValueIdx.ix0
  dsimp only [Cert.Pre_finite_inputs.fn, Cert.Pre_finite_inputs.fn_part1] at h18
  have h13 := (andi_apply_eq_one h18).1
  have h8 := (andi_apply_eq_one h13).1
  have h3 := (andi_apply_eq_one h8).1
  exact real_of_cmp (a0 i) (Host.reduce_andi_all _ _ _ _ _ h3 i)

end Cert.FiniteScalars

end
-- ==== Proof.lean ====
/-
  The proof of `Cert.Claim`.

  The kernel normalises scalar and vector node features by per-segment statistics in four grid regions joined by array
  operations; the reference does it with array operations alone. The three frames are the generated ones (the
  reference's is its generated run with the results dropped); nothing was rewritten when the kernel was idealized, so
  the second claim has nothing to say. For the last claim, over the extended reals: the kernel's run ends with both
  results at whole-array functions of the arguments; the reference's run ends at its operations' composed terms; read
  index by index both are the same expressions over per-segment tables, the variance table in two forms that agree
  because the scalar features are real numbers under the precondition.
-/
import proofs.«149233_j2104533975136_1_alg».proof.Defs
import proofs.«149233_j2104533975136_1_alg».proof.Proof.Gen.Kernel
import proofs.«149233_j2104533975136_1_alg».proof.Proof.Gen.Kernel.Frame
import proofs.«149233_j2104533975136_1_alg».proof.Proof.Gen.KernelIdeal
import proofs.«149233_j2104533975136_1_alg».proof.Proof.Gen.KernelIdeal.Frame
import proofs.«149233_j2104533975136_1_alg».proof.Proof.Gen.ReferenceIdeal
import proofs.«149233_j2104533975136_1_alg».proof.Proof.Gen.ReferenceIdeal.Run
import proofs.«149233_j2104533975136_1_alg».proof.Proof.Gen.ReferenceIdeal.Read
import proofs.«149233_j2104533975136_1_alg».proof.Proof.Gen.Pre_finite_inputs
import proofs.«149233_j2104533975136_1_alg».proof.Proof.KValue
import proofs.«149233_j2104533975136_1_alg».proof.Proof.Bridge
import proofs.«149233_j2104533975136_1_alg».proof.Proof.FiniteScalars
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both runs end with the same two arrays: the kernel's whole-array functions of the arguments. -/
theorem algebraic : Cert.algebraic_KernelIdeal_ReferenceIdeal := by
  intro m ρ m' ρ' hpre hagree
  refine ⟨fun c => Cert.KernelIdeal.Results.soutArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.KernelIdeal.Results.voutArr (m ((c.tc : Thread Cert.KernelIdeal.nD Cert.KernelIdeal.τ).loc Cert.KernelIdeal.main_arg1)) (m ((c.tc : Thread Cert.KernelIdeal.nD Cert.KernelIdeal.τ).loc Cert.KernelIdeal.main_arg4)),
    Cert.KernelIdeal.Results.run_values m ρ, ?_⟩
  refine (θ_run Cert.ReferenceIdeal.defs _ _).mono (fun r h c => ?_) (Cert.ReferenceIdeal.Value.run (F := Ideal) m' ρ')
  obtain ⟨h50, h73, hrest⟩ := h c
  obtain ⟨a0, a1, a2, a3, a4⟩ := hagree c
  refine ⟨h50.trans ?_, h73.trans ?_, hrest⟩
  · rw [Cert.ReferenceIdeal.Read.val_main_v50_eq, a0, a2, a3, a4]
    exact Cert.Bridge.sout_same _ _ _ _ (Cert.FiniteScalars.scalars_real _ _ _ _ _ (hpre c))
  · refine (Cert.ReferenceIdeal.Read.val_main_v73_eq _ _).trans ?_
    rw [a1, a4]
    exact Cert.Bridge.vout_same _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
